-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v211) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x128 : Shape := ⟨2, ![131072, 128]⟩
abbrev S131072 : Shape := ⟨1, ![131072]⟩
abbrev S3x16 : Shape := ⟨2, ![3, 16]⟩
abbrev S4x128x256 : Shape := ⟨3, ![4, 128, 256]⟩
abbrev S4x256 : Shape := ⟨2, ![4, 256]⟩
abbrev S4x256x256 : Shape := ⟨3, ![4, 256, 256]⟩
abbrev S4x256x64 : Shape := ⟨3, ![4, 256, 64]⟩
abbrev S4x64 : Shape := ⟨2, ![4, 64]⟩
abbrev S_ : Shape := ⟨0, ![]⟩

class Facts : Prop where
  bcast_S_S131072x128 : S_.BroadcastsInDim S131072x128 (![] : Fin 0 → Fin S131072x128.rank)
  reducesTo_S131072x128_S_d0_1 : S131072x128.ReducesTo [0, 1] S_
  h_S_ : 0 < S_.numel
  bcast_S_S4x128x256 : S_.BroadcastsInDim S4x128x256 (![] : Fin 0 → Fin S4x128x256.rank)
  reducesTo_S4x128x256_S_d0_1_2 : S4x128x256.ReducesTo [0, 1, 2] S_
  bcast_S_S4x256 : S_.BroadcastsInDim S4x256 (![] : Fin 0 → Fin S4x256.rank)
  reducesTo_S4x256_S_d0_1 : S4x256.ReducesTo [0, 1] S_
  bcast_S_S4x256x256 : S_.BroadcastsInDim S4x256x256 (![] : Fin 0 → Fin S4x256x256.rank)
  reducesTo_S4x256x256_S_d0_1_2 : S4x256x256.ReducesTo [0, 1, 2] S_
  bcast_S_S4x256x64 : S_.BroadcastsInDim S4x256x64 (![] : Fin 0 → Fin S4x256x64.rank)
  reducesTo_S4x256x64_S_d0_1_2 : S4x256x64.ReducesTo [0, 1, 2] S_
  bcast_S_S4x64 : S_.BroadcastsInDim S4x64 (![] : Fin 0 → Fin S4x64.rank)
  reducesTo_S4x64_S_d0_1 : S4x64.ReducesTo [0, 1] S_

variable [Facts]

def fn_part1 {F : FTy → Type} [FloatOps F] (main_arg6 : FVec F S4x256 .f32) (main_arg7 : FVec F S4x256x64 .f32) (main_arg8 : FVec F S4x64 .f32) (main_v13 : IVec S_ 1) (main_v16 : IVec S4x256x256 1) : IVec S_ 1 :=
  let main_c_5 : IVec S_ 1 := constantI S_ 1 1#1
  let main_v17 : IVec S_ 1 := (fun x v => Host.reduce IntOp.andi x v reducesTo_S4x256x256_S_d0_1_2 h_S_) main_v16 main_c_5
  let main_v18 : IVec S_ 1 := andi main_v13 main_v17
  let main_v19 : FVec F S4x256 .f32 := Host.absf main_arg6
  let main_cst_6 : FVec F S_ .f32 := constant S_ .f32 0x7F800000#32
  let main_v20 : FVec F S4x256 .f32 := broadcastInDim S4x256 ![] bcast_S_S4x256 main_cst_6
  let main_v21 : IVec S4x256 1 := cmpf .olt main_v19 main_v20
  let main_c_7 : IVec S_ 1 := constantI S_ 1 1#1
  let main_v22 : IVec S_ 1 := (fun x v => Host.reduce IntOp.andi x v reducesTo_S4x256_S_d0_1 h_S_) main_v21 main_c_7
  let main_v23 : IVec S_ 1 := andi main_v18 main_v22
  let main_v24 : FVec F S4x256x64 .f32 := Host.absf main_arg7
  let main_cst_8 : FVec F S_ .f32 := constant S_ .f32 0x7F800000#32
  let main_v25 : FVec F S4x256x64 .f32 := broadcastInDim S4x256x64 ![] bcast_S_S4x256x64 main_cst_8
  let main_v26 : IVec S4x256x64 1 := cmpf .olt main_v24 main_v25
  let main_c_9 : IVec S_ 1 := constantI S_ 1 1#1
  let main_v27 : IVec S_ 1 := (fun x v => Host.reduce IntOp.andi x v reducesTo_S4x256x64_S_d0_1_2 h_S_) main_v26 main_c_9
  let main_v28 : IVec S_ 1 := andi main_v23 main_v27
  let main_v29 : FVec F S4x64 .f32 := Host.absf main_arg8
  let main_cst_10 : FVec F S_ .f32 := constant S_ .f32 0x7F800000#32
  let main_v30 : FVec F S4x64 .f32 := broadcastInDim S4x64 ![] bcast_S_S4x64 main_cst_10
  let main_v31 : IVec S4x64 1 := cmpf .olt main_v29 main_v30
  let main_c_11 : IVec S_ 1 := constantI S_ 1 1#1
  let main_v32 : IVec S_ 1 := (fun x v => Host.reduce IntOp.andi x v reducesTo_S4x64_S_d0_1 h_S_) main_v31 main_c_11
  let main_v33 : IVec S_ 1 := andi main_v28 main_v32
  main_v33

def fn {F : FTy → Type} [FloatOps F] (main_arg0 : FVec F S131072x128 .f32) (main_arg1 : IVec S131072 32) (main_arg2 : IVec S3x16 32) (main_arg3 : FVec F S4x128x256 .f32) (main_arg4 : FVec F S4x256 .f32) (main_arg5 : FVec F S4x256x256 .f32) (main_arg6 : FVec F S4x256 .f32) (main_arg7 : FVec F S4x256x64 .f32) (main_arg8 : FVec F S4x64 .f32) : IVec S_ 1 :=
  let main_v0 : FVec F S131072x128 .f32 := Host.absf main_arg0
  let main_cst : FVec F S_ .f32 := constant S_ .f32 0x7F800000#32
  let main_v1 : FVec F S131072x128 .f32 := broadcastInDim S131072x128 ![] bcast_S_S131072x128 main_cst
  let main_v2 : IVec S131072x128 1 := cmpf .olt main_v0 main_v1
  let main_c : IVec S_ 1 := constantI S_ 1 1#1
  let main_v3 : IVec S_ 1 := (fun x v => Host.reduce IntOp.andi x v reducesTo_S131072x128_S_d0_1 h_S_) main_v2 main_c
  let main_v4 : FVec F S4x128x256 .f32 := Host.absf main_arg3
  let main_cst_0 : FVec F S_ .f32 := constant S_ .f32 0x7F800000#32
  let main_v5 : FVec F S4x128x256 .f32 := broadcastInDim S4x128x256 ![] bcast_S_S4x128x256 main_cst_0
  let main_v6 : IVec S4x128x256 1 := cmpf .olt main_v4 main_v5
  let main_c_1 : IVec S_ 1 := constantI S_ 1 1#1
  let main_v7 : IVec S_ 1 := (fun x v => Host.reduce IntOp.andi x v reducesTo_S4x128x256_S_d0_1_2 h_S_) main_v6 main_c_1
  let main_v8 : IVec S_ 1 := andi main_v3 main_v7
  let main_v9 : FVec F S4x256 .f32 := Host.absf main_arg4
  let main_cst_2 : FVec F S_ .f32 := constant S_ .f32 0x7F800000#32
  let main_v10 : FVec F S4x256 .f32 := broadcastInDim S4x256 ![] bcast_S_S4x256 main_cst_2
  let main_v11 : IVec S4x256 1 := cmpf .olt main_v9 main_v10
  let main_c_3 : IVec S_ 1 := constantI S_ 1 1#1
  let main_v12 : IVec S_ 1 := (fun x v => Host.reduce IntOp.andi x v reducesTo_S4x256_S_d0_1 h_S_) main_v11 main_c_3
  let main_v13 : IVec S_ 1 := andi main_v8 main_v12
  let main_v14 : FVec F S4x256x256 .f32 := Host.absf main_arg5
  let main_cst_4 : FVec F S_ .f32 := constant S_ .f32 0x7F800000#32
  let main_v15 : FVec F S4x256x256 .f32 := broadcastInDim S4x256x256 ![] bcast_S_S4x256x256 main_cst_4
  let main_v16 : IVec S4x256x256 1 := cmpf .olt main_v14 main_v15
  fn_part1 (F := F) main_arg6 main_arg7 main_arg8 main_v13 main_v16
-- ==== Kernel.lean ====
abbrev S131072x128 : Shape := ⟨2, ![131072, 128]⟩
abbrev S131072 : Shape := ⟨1, ![131072]⟩
abbrev S3x16 : Shape := ⟨2, ![3, 16]⟩
abbrev S4x128x256 : Shape := ⟨3, ![4, 128, 256]⟩
abbrev S4x256 : Shape := ⟨2, ![4, 256]⟩
abbrev S4x256x256 : Shape := ⟨3, ![4, 256, 256]⟩
abbrev S4x256x64 : Shape := ⟨3, ![4, 256, 64]⟩
abbrev S4x64 : Shape := ⟨2, ![4, 64]⟩
abbrev S1x16 : Shape := ⟨2, ![1, 16]⟩
abbrev S16 : Shape := ⟨1, ![16]⟩
abbrev S_ : Shape := ⟨0, ![]⟩
abbrev S131072x1 : Shape := ⟨2, ![131072, 1]⟩
abbrev S131072x3 : Shape := ⟨2, ![131072, 3]⟩
abbrev S131072x64 : Shape := ⟨2, ![131072, 64]⟩
abbrev S4096x128 : Shape := ⟨2, ![4096, 128]⟩
abbrev S4096x3 : Shape := ⟨2, ![4096, 3]⟩
abbrev S4096x64 : Shape := ⟨2, ![4096, 64]⟩
abbrev S4096x1 : Shape := ⟨2, ![4096, 1]⟩
abbrev S4096x256 : Shape := ⟨2, ![4096, 256]⟩
abbrev S1x128x256 : Shape := ⟨3, ![1, 128, 256]⟩
abbrev S128x256 : Shape := ⟨2, ![128, 256]⟩
abbrev S1x256 : Shape := ⟨2, ![1, 256]⟩
abbrev S256 : Shape := ⟨1, ![256]⟩
abbrev S1x256x256 : Shape := ⟨3, ![1, 256, 256]⟩
abbrev S256x256 : Shape := ⟨2, ![256, 256]⟩
abbrev S1x256x64 : Shape := ⟨3, ![1, 256, 64]⟩
abbrev S256x64 : Shape := ⟨2, ![256, 64]⟩
abbrev S1x64 : Shape := ⟨2, ![1, 64]⟩
abbrev S64 : Shape := ⟨1, ![64]⟩

abbrev nBuf : Space → Nat
  | .hbm => 50
  | .vmem => 12
  | .smem => 0
  | _ => 0

abbrev bufTy : (tb : Table) → Fin (tcTables nBuf tb) → BufTy
  | .hbm, ⟨0, _⟩ => ⟨S131072x128, .f32⟩
  | .hbm, ⟨1, _⟩ => ⟨S131072, .i32⟩
  | .hbm, ⟨2, _⟩ => ⟨S3x16, .i32⟩
  | .hbm, ⟨3, _⟩ => ⟨S4x128x256, .f32⟩
  | .hbm, ⟨4, _⟩ => ⟨S4x256, .f32⟩
  | .hbm, ⟨5, _⟩ => ⟨S4x256x256, .f32⟩
  | .hbm, ⟨6, _⟩ => ⟨S4x256, .f32⟩
  | .hbm, ⟨7, _⟩ => ⟨S4x256x64, .f32⟩
  | .hbm, ⟨8, _⟩ => ⟨S4x64, .f32⟩
  | .hbm, ⟨9, _⟩ => ⟨S1x16, .i32⟩
  | .hbm, ⟨10, _⟩ => ⟨S16, .i32⟩
  | .hbm, ⟨11, _⟩ => ⟨S_, .i32⟩
  | .hbm, ⟨12, _⟩ => ⟨S131072, .i32⟩
  | .hbm, ⟨13, _⟩ => ⟨S131072, .i1⟩
  | .hbm, ⟨14, _⟩ => ⟨S_, .i32⟩
  | .hbm, ⟨15, _⟩ => ⟨S131072, .i32⟩
  | .hbm, ⟨16, _⟩ => ⟨S131072, .i32⟩
  | .hbm, ⟨17, _⟩ => ⟨S131072, .i32⟩
  | .hbm, ⟨18, _⟩ => ⟨S131072x1, .i32⟩
  | .hbm, ⟨19, _⟩ => ⟨S131072, .i32⟩
  | .hbm, ⟨20, _⟩ => ⟨S1x16, .i32⟩
  | .hbm, ⟨21, _⟩ => ⟨S16, .i32⟩
  | .hbm, ⟨22, _⟩ => ⟨S_, .i32⟩
  | .hbm, ⟨23, _⟩ => ⟨S131072, .i32⟩
  | .hbm, ⟨24, _⟩ => ⟨S131072, .i1⟩
  | .hbm, ⟨25, _⟩ => ⟨S_, .i32⟩
  | .hbm, ⟨26, _⟩ => ⟨S131072, .i32⟩
  | .hbm, ⟨27, _⟩ => ⟨S131072, .i32⟩
  | .hbm, ⟨28, _⟩ => ⟨S131072, .i32⟩
  | .hbm, ⟨29, _⟩ => ⟨S131072x1, .i32⟩
  | .hbm, ⟨30, _⟩ => ⟨S131072, .i32⟩
  | .hbm, ⟨31, _⟩ => ⟨S1x16, .i32⟩
  | .hbm, ⟨32, _⟩ => ⟨S16, .i32⟩
  | .hbm, ⟨33, _⟩ => ⟨S_, .i32⟩
  | .hbm, ⟨34, _⟩ => ⟨S131072, .i32⟩
  | .hbm, ⟨35, _⟩ => ⟨S131072, .i1⟩
  | .hbm, ⟨36, _⟩ => ⟨S_, .i32⟩
  | .hbm, ⟨37, _⟩ => ⟨S131072, .i32⟩
  | .hbm, ⟨38, _⟩ => ⟨S131072, .i32⟩
  | .hbm, ⟨39, _⟩ => ⟨S131072, .i32⟩
  | .hbm, ⟨40, _⟩ => ⟨S131072x1, .i32⟩
  | .hbm, ⟨41, _⟩ => ⟨S131072, .i32⟩
  | .hbm, ⟨42, _⟩ => ⟨S131072x1, .i32⟩
  | .hbm, ⟨43, _⟩ => ⟨S131072x1, .i32⟩
  | .hbm, ⟨44, _⟩ => ⟨S131072x1, .i32⟩
  | .hbm, ⟨45, _⟩ => ⟨S131072x3, .i32⟩
  | .hbm, ⟨46, _⟩ => ⟨S4x128x256, .bf16⟩
  | .hbm, ⟨47, _⟩ => ⟨S4x256x256, .bf16⟩
  | .hbm, ⟨48, _⟩ => ⟨S4x256x64, .bf16⟩
  | .hbm, ⟨49, _⟩ => ⟨S131072x64, .f32⟩
  | .local _ .vmem, ⟨0, _⟩ => ⟨S4096x128, .f32⟩
  | .local _ .vmem, ⟨1, _⟩ => ⟨S4096x128, .f32⟩
  | .local _ .vmem, ⟨2, _⟩ => ⟨S4096x3, .i32⟩
  | .local _ .vmem, ⟨3, _⟩ => ⟨S4096x3, .i32⟩
  | .local _ .vmem, ⟨4, _⟩ => ⟨S4x128x256, .bf16⟩
  | .local _ .vmem, ⟨5, _⟩ => ⟨S4x256, .f32⟩
  | .local _ .vmem, ⟨6, _⟩ => ⟨S4x256x256, .bf16⟩
  | .local _ .vmem, ⟨7, _⟩ => ⟨S4x256, .f32⟩
  | .local _ .vmem, ⟨8, _⟩ => ⟨S4x256x64, .bf16⟩
  | .local _ .vmem, ⟨9, _⟩ => ⟨S4x64, .f32⟩
  | .local _ .vmem, ⟨10, _⟩ => ⟨S4096x64, .f32⟩
  | .local _ .vmem, ⟨11, _⟩ => ⟨S4096x64, .f32⟩
  | _, _ => ⟨S131072x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_c : Ref sig .tc := ⟨.hbm, 11, rfl⟩
abbrev main_v2 : Ref sig .tc := ⟨.hbm, 12, rfl⟩
abbrev main_v3 : Ref sig .tc := ⟨.hbm, 13, rfl⟩
abbrev main_c_0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c_1 : Ref sig .tc := ⟨.hbm, 22, rfl⟩
abbrev main_v11 : Ref sig .tc := ⟨.hbm, 23, rfl⟩
abbrev main_v12 : Ref sig .tc := ⟨.hbm, 24, rfl⟩
abbrev main_c_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_c_3 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x3 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x128x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x256x64 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S4096x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  slices_S3x16_S1x16_0_0 : S3x16.Slices ![0, 0] S1x16
  shapeCasts_S1x16_S16 : S1x16.ShapeCasts S16
  bcast_S_S131072 : S_.BroadcastsInDim S131072 (![] : Fin 0 → Fin S131072.rank)
  bcast_S131072_S131072x1_0 : S131072.BroadcastsInDim S131072x1 (![0] : Fin 1 → Fin S131072x1.rank)
  slices_S3x16_S1x16_1_0 : S3x16.Slices ![1, 0] S1x16
  slices_S3x16_S1x16_2_0 : S3x16.Slices ![2, 0] S1x16
  concatenates_S131072x1_S131072x1_S131072x1_S131072x3_d1 : Shape.Concatenates [S131072x1, S131072x1, S131072x1] S131072x3 1
  bitsLt_bf16_f32 : FTy.bits .bf16 < FTy.bits .f32
  inb_S4096x128_S4096x128_0_0 : ∀ a, (![0, 0] : Fin 2 → Nat) a + S4096x128.size a ≤ S4096x128.size a
  h_S4096x128 : 0 < S4096x128.numel
  inb_S4096x3_S4096x1_0_0 : ∀ a, (![0, 0] : Fin 2 → Nat) a + S4096x1.size a ≤ S4096x3.size a
  h_S4096x1 : 0 < S4096x1.numel
  shapeCasts_S4096x1_S4096x1 : S4096x1.ShapeCasts S4096x1
  inb_S4x128x256_S1x128x256_0_0_0 : ∀ a, (![0, 0, 0] : Fin 3 → Nat) a + S1x128x256.size a ≤ S4x128x256.size a
  h_S1x128x256 : 0 < S1x128x256.numel
  shapeCasts_S1x128x256_S128x256 : S1x128x256.ShapeCasts S128x256
  inb_S4x256_S1x256_0_0 : ∀ a, (![0, 0] : Fin 2 → Nat) a + S1x256.size a ≤ S4x256.size a
  h_S1x256 : 0 < S1x256.numel
  shapeCasts_S1x256_S256 : S1x256.ShapeCasts S256
  natLt_1_32 : 1 < 32
  shapeCasts_S256_S1x256 : S256.ShapeCasts S1x256
  broadcasts_S1x256_S4096x256 : S1x256.Broadcasts S4096x256
  broadcasts_S4096x1_S4096x256 : S4096x1.Broadcasts S4096x256
  inb_S4x128x256_S1x128x256_1_0_0 : ∀ a, (![1, 0, 0] : Fin 3 → Nat) a + S1x128x256.size a ≤ S4x128x256.size a
  inb_S4x256_S1x256_1_0 : ∀ a, (![1, 0] : Fin 2 → Nat) a + S1x256.size a ≤ S4x256.size a
  inb_S4x128x256_S1x128x256_2_0_0 : ∀ a, (![2, 0, 0] : Fin 3 → Nat) a + S1x128x256.size a ≤ S4x128x256.size a
  inb_S4x256_S1x256_2_0 : ∀ a, (![2, 0] : Fin 2 → Nat) a + S1x256.size a ≤ S4x256.size a
  inb_S4x128x256_S1x128x256_3_0_0 : ∀ a, (![3, 0, 0] : Fin 3 → Nat) a + S1x128x256.size a ≤ S4x128x256.size a
  inb_S4x256_S1x256_3_0 : ∀ a, (![3, 0] : Fin 2 → Nat) a + S1x256.size a ≤ S4x256.size a
  inb_S4096x3_S4096x1_0_1 : ∀ a, (![0, 1] : Fin 2 → Nat) a + S4096x1.size a ≤ S4096x3.size a
  inb_S4x256x256_S1x256x256_0_0_0 : ∀ a, (![0, 0, 0] : Fin 3 → Nat) a + S1x256x256.size a ≤ S4x256x256.size a
  h_S1x256x256 : 0 < S1x256x256.numel
  shapeCasts_S1x256x256_S256x256 : S1x256x256.ShapeCasts S256x256
  inb_S4x256x256_S1x256x256_1_0_0 : ∀ a, (![1, 0, 0] : Fin 3 → Nat) a + S1x256x256.size a ≤ S4x256x256.size a
  inb_S4x256x256_S1x256x256_2_0_0 : ∀ a, (![2, 0, 0] : Fin 3 → Nat) a + S1x256x256.size a ≤ S4x256x256.size a
  inb_S4x256x256_S1x256x256_3_0_0 : ∀ a, (![3, 0, 0] : Fin 3 → Nat) a + S1x256x256.size a ≤ S4x256x256.size a
  inb_S4096x3_S4096x1_0_2 : ∀ a, (![0, 2] : Fin 2 → Nat) a + S4096x1.size a ≤ S4096x3.size a
  inb_S4x256x64_S1x256x64_0_0_0 : ∀ a, (![0, 0, 0] : Fin 3 → Nat) a + S1x256x64.size a ≤ S4x256x64.size a
  h_S1x256x64 : 0 < S1x256x64.numel
  shapeCasts_S1x256x64_S256x64 : S1x256x64.ShapeCasts S256x64
  inb_S4x64_S1x64_0_0 : ∀ a, (![0, 0] : Fin 2 → Nat) a + S1x64.size a ≤ S4x64.size a
  h_S1x64 : 0 < S1x64.numel
  shapeCasts_S1x64_S64 : S1x64.ShapeCasts S64
  shapeCasts_S64_S1x64 : S64.ShapeCasts S1x64
  broadcasts_S1x64_S4096x64 : S1x64.Broadcasts S4096x64
  broadcasts_S4096x1_S4096x64 : S4096x1.Broadcasts S4096x64
  inb_S4x256x64_S1x256x64_1_0_0 : ∀ a, (![1, 0, 0] : Fin 3 → Nat) a + S1x256x64.size a ≤ S4x256x64.size a
  inb_S4x64_S1x64_1_0 : ∀ a, (![1, 0] : Fin 2 → Nat) a + S1x64.size a ≤ S4x64.size a
  inb_S4x256x64_S1x256x64_2_0_0 : ∀ a, (![2, 0, 0] : Fin 3 → Nat) a + S1x256x64.size a ≤ S4x256x64.size a
  inb_S4x64_S1x64_2_0 : ∀ a, (![2, 0] : Fin 2 → Nat) a + S1x64.size a ≤ S4x64.size a
  inb_S4x256x64_S1x256x64_3_0_0 : ∀ a, (![3, 0, 0] : Fin 3 → Nat) a + S1x256x64.size a ≤ S4x256x64.size a
  inb_S4x64_S1x64_3_0 : ∀ a, (![3, 0] : Fin 2 → Nat) a + S1x64.size a ≤ S4x64.size a
  inb_S4096x64_S4096x64_0_0 : ∀ a, (![0, 0] : Fin 2 → Nat) a + S4096x64.size a ≤ S4096x64.size a
  h_S4096x64 : 0 < S4096x64.numel
  gather_S16_S131072x1_S131072_n_0_n_n_0_1_1_wf : GatherDims.WF S16 S131072x1 S131072 [] [0] [] [0] [] 1 ![1]
  dot_S4096x128_S128x256_S4096x256_1_0_0_1_n_n_wf : DotDims.WF S4096x128 S128x256 S4096x256 [1] [0] [0] [1] [] []
  dot_S4096x256_S256x256_S4096x256_1_0_0_1_n_n_wf : DotDims.WF S4096x256 S256x256 S4096x256 [1] [0] [0] [1] [] []
  dot_S4096x256_S256x64_S4096x64_1_0_0_1_n_n_wf : DotDims.WF S4096x256 S256x64 S4096x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S131072x128.size a
  hwx0_0 : ∀ i : grid0.Coords, EltTy.bits .f32 = 32 ∨ (Rect.block (s := S131072x128) S4096x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x3.size a ≤ S131072x3.size a
  hwx0_1 : ∀ i : grid0.Coords, EltTy.bits .i32 = 32 ∨ (Rect.block (s := S131072x3) S4096x3.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4x128x256.size a ≤ S4x128x256.size a
  hwx0_2 : ∀ i : grid0.Coords, EltTy.bits .bf16 = 32 ∨ (Rect.block (s := S4x128x256) S4x128x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4x256.size a ≤ S4x256.size a
  hwx0_3 : ∀ i : grid0.Coords, EltTy.bits .f32 = 32 ∨ (Rect.block (s := S4x256) S4x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S4x256x256.size a ≤ S4x256x256.size a
  hwx0_4 : ∀ i : grid0.Coords, EltTy.bits .bf16 = 32 ∨ (Rect.block (s := S4x256x256) S4x256x256.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S4x256.size a ≤ S4x256.size a
  hwx0_5 : ∀ i : grid0.Coords, EltTy.bits .f32 = 32 ∨ (Rect.block (s := S4x256) S4x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S4x256x64.size a ≤ S4x256x64.size a
  hwx0_6 : ∀ i : grid0.Coords, EltTy.bits .bf16 = 32 ∨ (Rect.block (s := S4x256x64) S4x256x64.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S4x64.size a ≤ S4x64.size a
  hwx0_7 : ∀ i : grid0.Coords, EltTy.bits .f32 = 32 ∨ (Rect.block (s := S4x64) S4x64.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S4096x64.size a ≤ S131072x64.size a
  hwx0_8 : ∀ i : grid0.Coords, EltTy.bits .f32 = 32 ∨ (Rect.block (s := S131072x64) S4096x64.size (cc0_transform_8 i) (hinb0_8 i)).WholeWords (EltTy.packing .f32)

variable [Facts₀]

def gather_S16_S131072x1_S131072_n_0_n_n_0_1_1 : GatherDims S16 S131072x1 S131072 where
  offsetDims := []
  collapsedSliceDims := [0]
  operandBatchingDims := []
  startIndicesBatchingDims := []
  startIndexMap := [0]
  indexVectorDim := 1
  sliceSizes := ![1]
  wf := gather_S16_S131072x1_S131072_n_0_n_n_0_1_1_wf
def dot_S4096x128_S128x256_S4096x256_1_0_0_1_n_n : DotDims S4096x128 S128x256 S4096x256 where
  lhsContracting := [1]
  rhsContracting := [0]
  lhsNonContracting := [0]
  rhsNonContracting := [1]
  lhsBatch := []
  rhsBatch := []
  wf := dot_S4096x128_S128x256_S4096x256_1_0_0_1_n_n_wf
def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf
def dot_S4096x256_S256x64_S4096x64_1_0_0_1_n_n : DotDims S4096x256 S256x64 S4096x64 where
  lhsContracting := [1]
  rhsContracting := [0]
  lhsNonContracting := [0]
  rhsNonContracting := [1]
  lhsBatch := []
  rhsBatch := []
  wf := dot_S4096x256_S256x64_S4096x64_1_0_0_1_n_n_wf

abbrev win0_0 : Pipeline.Window sig grid0 :=
  Pipeline.Window.ofSpec (Memref.whole main_arg0) S4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v30) S4096x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v31) S4x128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S4x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v32) S4x256x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S4x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v33) S4x256x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg8) S4x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v34) S4096x64.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S131072x128 : Shape := ⟨2, ![131072, 128]⟩
abbrev S131072 : Shape := ⟨1, ![131072]⟩
abbrev S3x16 : Shape := ⟨2, ![3, 16]⟩
abbrev S4x128x256 : Shape := ⟨3, ![4, 128, 256]⟩
abbrev S4x256 : Shape := ⟨2, ![4, 256]⟩
abbrev S4x256x256 : Shape := ⟨3, ![4, 256, 256]⟩
abbrev S4x256x64 : Shape := ⟨3, ![4, 256, 64]⟩
abbrev S4x64 : Shape := ⟨2, ![4, 64]⟩
abbrev S1x16 : Shape := ⟨2, ![1, 16]⟩
abbrev S16 : Shape := ⟨1, ![16]⟩
abbrev S_ : Shape := ⟨0, ![]⟩
abbrev S131072x1 : Shape := ⟨2, ![131072, 1]⟩
abbrev S131072x256 : Shape := ⟨2, ![131072, 256]⟩
abbrev S1x128x256 : Shape := ⟨3, ![1, 128, 256]⟩
abbrev S128x256 : Shape := ⟨2, ![128, 256]⟩
abbrev S1x256 : Shape := ⟨2, ![1, 256]⟩
abbrev S256 : Shape := ⟨1, ![256]⟩
abbrev S1x256x256 : Shape := ⟨3, ![1, 256, 256]⟩
abbrev S256x256 : Shape := ⟨2, ![256, 256]⟩
abbrev S131072x64 : Shape := ⟨2, ![131072, 64]⟩
abbrev S1x256x64 : Shape := ⟨3, ![1, 256, 64]⟩
abbrev S256x64 : Shape := ⟨2, ![256, 64]⟩
abbrev S1x64 : Shape := ⟨2, ![1, 64]⟩
abbrev S64 : Shape := ⟨1, ![64]⟩

abbrev nBuf : Space → Nat
  | .hbm => 242
  | .vmem => 0
  | .smem => 0
  | _ => 0

abbrev hbmTy0_0 (i : Nat) : BufTy := match i % 128 with
  | 0 => ⟨S131072x128, .f32⟩
  | 1 => ⟨S131072, .i32⟩
  | 2 => ⟨S3x16, .i32⟩
  | 3 => ⟨S4x128x256, .f32⟩
  | 4 => ⟨S4x256, .f32⟩
  | 5 => ⟨S4x256x256, .f32⟩
  | 6 => ⟨S4x256, .f32⟩
  | 7 => ⟨S4x256x64, .f32⟩
  | 8 => ⟨S4x64, .f32⟩
  | 9 => ⟨S1x16, .i32⟩
  | 10 => ⟨S16, .i32⟩
  | 11 => ⟨S_, .i32⟩
  | 12 => ⟨S131072, .i32⟩
  | 13 => ⟨S131072, .i1⟩
  | 14 => ⟨S_, .i32⟩
  | 15 => ⟨S131072, .i32⟩
  | 16 => ⟨S131072, .i32⟩
  | 17 => ⟨S131072, .i32⟩
  | 18 => ⟨S131072x1, .i32⟩
  | 19 => ⟨S131072, .i32⟩
  | 20 => ⟨S_, .f32⟩
  | 21 => ⟨S131072x256, .f32⟩
  | 22 => ⟨S_, .i32⟩
  | 23 => ⟨S131072, .i32⟩
  | 24 => ⟨S131072, .i1⟩
  | 25 => ⟨S131072, .f32⟩
  | 26 => ⟨S131072x1, .f32⟩
  | 27 => ⟨S1x128x256, .f32⟩
  | 28 => ⟨S128x256, .f32⟩
  | 29 => ⟨S131072x256, .f32⟩
  | 30 => ⟨S1x256, .f32⟩
  | 31 => ⟨S256, .f32⟩
  | 32 => ⟨S1x256, .f32⟩
  | 33 => ⟨S131072x256, .f32⟩
  | 34 => ⟨S131072x256, .f32⟩
  | 35 => ⟨S131072x256, .f32⟩
  | 36 => ⟨S131072x256, .f32⟩
  | 37 => ⟨S131072x256, .f32⟩
  | 38 => ⟨S_, .i32⟩
  | 39 => ⟨S131072, .i32⟩
  | 40 => ⟨S131072, .i1⟩
  | 41 => ⟨S131072, .f32⟩
  | 42 => ⟨S131072x1, .f32⟩
  | 43 => ⟨S1x128x256, .f32⟩
  | 44 => ⟨S128x256, .f32⟩
  | 45 => ⟨S131072x256, .f32⟩
  | 46 => ⟨S1x256, .f32⟩
  | 47 => ⟨S256, .f32⟩
  | 48 => ⟨S1x256, .f32⟩
  | 49 => ⟨S131072x256, .f32⟩
  | 50 => ⟨S131072x256, .f32⟩
  | 51 => ⟨S131072x256, .f32⟩
  | 52 => ⟨S131072x256, .f32⟩
  | 53 => ⟨S131072x256, .f32⟩
  | 54 => ⟨S_, .i32⟩
  | 55 => ⟨S131072, .i32⟩
  | 56 => ⟨S131072, .i1⟩
  | 57 => ⟨S131072, .f32⟩
  | 58 => ⟨S131072x1, .f32⟩
  | 59 => ⟨S1x128x256, .f32⟩
  | 60 => ⟨S128x256, .f32⟩
  | 61 => ⟨S131072x256, .f32⟩
  | 62 => ⟨S1x256, .f32⟩
  | 63 => ⟨S256, .f32⟩
  | 64 => ⟨S1x256, .f32⟩
  | 65 => ⟨S131072x256, .f32⟩
  | 66 => ⟨S131072x256, .f32⟩
  | 67 => ⟨S131072x256, .f32⟩
  | 68 => ⟨S131072x256, .f32⟩
  | 69 => ⟨S131072x256, .f32⟩
  | 70 => ⟨S_, .i32⟩
  | 71 => ⟨S131072, .i32⟩
  | 72 => ⟨S131072, .i1⟩
  | 73 => ⟨S131072, .f32⟩
  | 74 => ⟨S131072x1, .f32⟩
  | 75 => ⟨S1x128x256, .f32⟩
  | 76 => ⟨S128x256, .f32⟩
  | 77 => ⟨S131072x256, .f32⟩
  | 78 => ⟨S1x256, .f32⟩
  | 79 => ⟨S256, .f32⟩
  | 80 => ⟨S1x256, .f32⟩
  | 81 => ⟨S131072x256, .f32⟩
  | 82 => ⟨S131072x256, .f32⟩
  | 83 => ⟨S131072x256, .f32⟩
  | 84 => ⟨S131072x256, .f32⟩
  | 85 => ⟨S131072x256, .f32⟩
  | 86 => ⟨S131072x256, .f32⟩
  | 87 => ⟨S1x16, .i32⟩
  | 88 => ⟨S16, .i32⟩
  | 89 => ⟨S_, .i32⟩
  | 90 => ⟨S131072, .i32⟩
  | 91 => ⟨S131072, .i1⟩
  | 92 => ⟨S_, .i32⟩
  | 93 => ⟨S131072, .i32⟩
  | 94 => ⟨S131072, .i32⟩
  | 95 => ⟨S131072, .i32⟩
  | 96 => ⟨S131072x1, .i32⟩
  | 97 => ⟨S131072, .i32⟩
  | 98 => ⟨S_, .f32⟩
  | 99 => ⟨S131072x256, .f32⟩
  | 100 => ⟨S_, .i32⟩
  | 101 => ⟨S131072, .i32⟩
  | 102 => ⟨S131072, .i1⟩
  | 103 => ⟨S131072, .f32⟩
  | 104 => ⟨S131072x1, .f32⟩
  | 105 => ⟨S1x256x256, .f32⟩
  | 106 => ⟨S256x256, .f32⟩
  | 107 => ⟨S131072x256, .f32⟩
  | 108 => ⟨S1x256, .f32⟩
  | 109 => ⟨S256, .f32⟩
  | 110 => ⟨S1x256, .f32⟩
  | 111 => ⟨S131072x256, .f32⟩
  | 112 => ⟨S131072x256, .f32⟩
  | 113 => ⟨S131072x256, .f32⟩
  | 114 => ⟨S131072x256, .f32⟩
  | 115 => ⟨S131072x256, .f32⟩
  | 116 => ⟨S_, .i32⟩
  | 117 => ⟨S131072, .i32⟩
  | 118 => ⟨S131072, .i1⟩
  | 119 => ⟨S131072, .f32⟩
  | 120 => ⟨S131072x1, .f32⟩
  | 121 => ⟨S1x256x256, .f32⟩
  | 122 => ⟨S256x256, .f32⟩
  | 123 => ⟨S131072x256, .f32⟩
  | 124 => ⟨S1x256, .f32⟩
  | 125 => ⟨S256, .f32⟩
  | 126 => ⟨S1x256, .f32⟩
  | 127 => ⟨S131072x256, .f32⟩
  | _ => ⟨S131072x128, .f32⟩

abbrev hbmTy0_1 (i : Nat) : BufTy := match i % 128 with
  | 0 => ⟨S131072x256, .f32⟩
  | 1 => ⟨S131072x256, .f32⟩
  | 2 => ⟨S131072x256, .f32⟩
  | 3 => ⟨S131072x256, .f32⟩
  | 4 => ⟨S_, .i32⟩
  | 5 => ⟨S131072, .i32⟩
  | 6 => ⟨S131072, .i1⟩
  | 7 => ⟨S131072, .f32⟩
  | 8 => ⟨S131072x1, .f32⟩
  | 9 => ⟨S1x256x256, .f32⟩
  | 10 => ⟨S256x256, .f32⟩
  | 11 => ⟨S131072x256, .f32⟩
  | 12 => ⟨S1x256, .f32⟩
  | 13 => ⟨S256, .f32⟩
  | 14 => ⟨S1x256, .f32⟩
  | 15 => ⟨S131072x256, .f32⟩
  | 16 => ⟨S131072x256, .f32⟩
  | 17 => ⟨S131072x256, .f32⟩
  | 18 => ⟨S131072x256, .f32⟩
  | 19 => ⟨S131072x256, .f32⟩
  | 20 => ⟨S_, .i32⟩
  | 21 => ⟨S131072, .i32⟩
  | 22 => ⟨S131072, .i1⟩
  | 23 => ⟨S131072, .f32⟩
  | 24 => ⟨S131072x1, .f32⟩
  | 25 => ⟨S1x256x256, .f32⟩
  | 26 => ⟨S256x256, .f32⟩
  | 27 => ⟨S131072x256, .f32⟩
  | 28 => ⟨S1x256, .f32⟩
  | 29 => ⟨S256, .f32⟩
  | 30 => ⟨S1x256, .f32⟩
  | 31 => ⟨S131072x256, .f32⟩
  | 32 => ⟨S131072x256, .f32⟩
  | 33 => ⟨S131072x256, .f32⟩
  | 34 => ⟨S131072x256, .f32⟩
  | 35 => ⟨S131072x256, .f32⟩
  | 36 => ⟨S131072x256, .f32⟩
  | 37 => ⟨S1x16, .i32⟩
  | 38 => ⟨S16, .i32⟩
  | 39 => ⟨S_, .i32⟩
  | 40 => ⟨S131072, .i32⟩
  | 41 => ⟨S131072, .i1⟩
  | 42 => ⟨S_, .i32⟩
  | 43 => ⟨S131072, .i32⟩
  | 44 => ⟨S131072, .i32⟩
  | 45 => ⟨S131072, .i32⟩
  | 46 => ⟨S131072x1, .i32⟩
  | 47 => ⟨S131072, .i32⟩
  | 48 => ⟨S_, .f32⟩
  | 49 => ⟨S131072x64, .f32⟩
  | 50 => ⟨S_, .i32⟩
  | 51 => ⟨S131072, .i32⟩
  | 52 => ⟨S131072, .i1⟩
  | 53 => ⟨S131072, .f32⟩
  | 54 => ⟨S131072x1, .f32⟩
  | 55 => ⟨S1x256x64, .f32⟩
  | 56 => ⟨S256x64, .f32⟩
  | 57 => ⟨S131072x64, .f32⟩
  | 58 => ⟨S1x64, .f32⟩
  | 59 => ⟨S64, .f32⟩
  | 60 => ⟨S1x64, .f32⟩
  | 61 => ⟨S131072x64, .f32⟩
  | 62 => ⟨S131072x64, .f32⟩
  | 63 => ⟨S131072x64, .f32⟩
  | 64 => ⟨S131072x64, .f32⟩
  | 65 => ⟨S131072x64, .f32⟩
  | 66 => ⟨S_, .i32⟩
  | 67 => ⟨S131072, .i32⟩
  | 68 => ⟨S131072, .i1⟩
  | 69 => ⟨S131072, .f32⟩
  | 70 => ⟨S131072x1, .f32⟩
  | 71 => ⟨S1x256x64, .f32⟩
  | 72 => ⟨S256x64, .f32⟩
  | 73 => ⟨S131072x64, .f32⟩
  | 74 => ⟨S1x64, .f32⟩
  | 75 => ⟨S64, .f32⟩
  | 76 => ⟨S1x64, .f32⟩
  | 77 => ⟨S131072x64, .f32⟩
  | 78 => ⟨S131072x64, .f32⟩
  | 79 => ⟨S131072x64, .f32⟩
  | 80 => ⟨S131072x64, .f32⟩
  | 81 => ⟨S131072x64, .f32⟩
  | 82 => ⟨S_, .i32⟩
  | 83 => ⟨S131072, .i32⟩
  | 84 => ⟨S131072, .i1⟩
  | 85 => ⟨S131072, .f32⟩
  | 86 => ⟨S131072x1, .f32⟩
  | 87 => ⟨S1x256x64, .f32⟩
  | 88 => ⟨S256x64, .f32⟩
  | 89 => ⟨S131072x64, .f32⟩
  | 90 => ⟨S1x64, .f32⟩
  | 91 => ⟨S64, .f32⟩
  | 92 => ⟨S1x64, .f32⟩
  | 93 => ⟨S131072x64, .f32⟩
  | 94 => ⟨S131072x64, .f32⟩
  | 95 => ⟨S131072x64, .f32⟩
  | 96 => ⟨S131072x64, .f32⟩
  | 97 => ⟨S131072x64, .f32⟩
  | 98 => ⟨S_, .i32⟩
  | 99 => ⟨S131072, .i32⟩
  | 100 => ⟨S131072, .i1⟩
  | 101 => ⟨S131072, .f32⟩
  | 102 => ⟨S131072x1, .f32⟩
  | 103 => ⟨S1x256x64, .f32⟩
  | 104 => ⟨S256x64, .f32⟩
  | 105 => ⟨S131072x64, .f32⟩
  | 106 => ⟨S1x64, .f32⟩
  | 107 => ⟨S64, .f32⟩
  | 108 => ⟨S1x64, .f32⟩
  | 109 => ⟨S131072x64, .f32⟩
  | 110 => ⟨S131072x64, .f32⟩
  | 111 => ⟨S131072x64, .f32⟩
  | 112 => ⟨S131072x64, .f32⟩
  | 113 => ⟨S131072x64, .f32⟩
  | _ => ⟨S131072x128, .f32⟩

abbrev hbmTy (i : Nat) : BufTy := match i / 128 with
  | 0 => hbmTy0_0 i
  | 1 => hbmTy0_1 i
  | _ => ⟨S131072x128, .f32⟩

abbrev bufTy : (tb : Table) → Fin (tcTables nBuf tb) → BufTy
  | .hbm, ⟨i, _⟩ => hbmTy i
  | _, _ => ⟨S131072x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_c : Ref sig .tc := ⟨.hbm, 11, rfl⟩
abbrev main_v2 : Ref sig .tc := ⟨.hbm, 12, rfl⟩
abbrev main_v3 : Ref sig .tc := ⟨.hbm, 13, rfl⟩
abbrev main_c_0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst : Ref sig .tc := ⟨.hbm, 20, rfl⟩
abbrev main_v9 : Ref sig .tc := ⟨.hbm, 21, rfl⟩
abbrev main_c_1 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_c_2 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_c_3 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_c_4 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_c_5 : Ref sig .tc := ⟨.hbm, 89, rfl⟩
abbrev main_v73 : Ref sig .tc := ⟨.hbm, 90, rfl⟩
abbrev main_v74 : Ref sig .tc := ⟨.hbm, 91, rfl⟩
abbrev main_c_6 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_cst_7 : Ref sig .tc := ⟨.hbm, 98, rfl⟩
abbrev main_v80 : Ref sig .tc := ⟨.hbm, 99, rfl⟩
abbrev main_c_8 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_c_9 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_v100 : Ref sig .tc := ⟨.hbm, 121, rfl⟩
abbrev main_v101 : Ref sig .tc := ⟨.hbm, 122, rfl⟩
abbrev main_v102 : Ref sig .tc := ⟨.hbm, 123, rfl⟩
abbrev main_v103 : Ref sig .tc := ⟨.hbm, 124, rfl⟩
abbrev main_v104 : Ref sig .tc := ⟨.hbm, 125, rfl⟩
abbrev main_v105 : Ref sig .tc := ⟨.hbm, 126, rfl⟩
abbrev main_v106 : Ref sig .tc := ⟨.hbm, 127, rfl⟩
abbrev main_v107 : Ref sig .tc := ⟨.hbm, 128, rfl⟩
abbrev main_v108 : Ref sig .tc := ⟨.hbm, 129, rfl⟩
abbrev main_v109 : Ref sig .tc := ⟨.hbm, 130, rfl⟩
abbrev main_v110 : Ref sig .tc := ⟨.hbm, 131, rfl⟩
abbrev main_c_10 : Ref sig .tc := ⟨.hbm, 132, rfl⟩
abbrev main_v111 : Ref sig .tc := ⟨.hbm, 133, rfl⟩
abbrev main_v112 : Ref sig .tc := ⟨.hbm, 134, rfl⟩
abbrev main_v113 : Ref sig .tc := ⟨.hbm, 135, rfl⟩
abbrev main_v114 : Ref sig .tc := ⟨.hbm, 136, rfl⟩
abbrev main_v115 : Ref sig .tc := ⟨.hbm, 137, rfl⟩
abbrev main_v116 : Ref sig .tc := ⟨.hbm, 138, rfl⟩
abbrev main_v117 : Ref sig .tc := ⟨.hbm, 139, rfl⟩
abbrev main_v118 : Ref sig .tc := ⟨.hbm, 140, rfl⟩
abbrev main_v119 : Ref sig .tc := ⟨.hbm, 141, rfl⟩
abbrev main_v120 : Ref sig .tc := ⟨.hbm, 142, rfl⟩
abbrev main_v121 : Ref sig .tc := ⟨.hbm, 143, rfl⟩
abbrev main_v122 : Ref sig .tc := ⟨.hbm, 144, rfl⟩
abbrev main_v123 : Ref sig .tc := ⟨.hbm, 145, rfl⟩
abbrev main_v124 : Ref sig .tc := ⟨.hbm, 146, rfl⟩
abbrev main_v125 : Ref sig .tc := ⟨.hbm, 147, rfl⟩
abbrev main_c_11 : Ref sig .tc := ⟨.hbm, 148, rfl⟩
abbrev main_v126 : Ref sig .tc := ⟨.hbm, 149, rfl⟩
abbrev main_v127 : Ref sig .tc := ⟨.hbm, 150, rfl⟩
abbrev main_v128 : Ref sig .tc := ⟨.hbm, 151, rfl⟩
abbrev main_v129 : Ref sig .tc := ⟨.hbm, 152, rfl⟩
abbrev main_v130 : Ref sig .tc := ⟨.hbm, 153, rfl⟩
abbrev main_v131 : Ref sig .tc := ⟨.hbm, 154, rfl⟩
abbrev main_v132 : Ref sig .tc := ⟨.hbm, 155, rfl⟩
abbrev main_v133 : Ref sig .tc := ⟨.hbm, 156, rfl⟩
abbrev main_v134 : Ref sig .tc := ⟨.hbm, 157, rfl⟩
abbrev main_v135 : Ref sig .tc := ⟨.hbm, 158, rfl⟩
abbrev main_v136 : Ref sig .tc := ⟨.hbm, 159, rfl⟩
abbrev main_v137 : Ref sig .tc := ⟨.hbm, 160, rfl⟩
abbrev main_v138 : Ref sig .tc := ⟨.hbm, 161, rfl⟩
abbrev main_v139 : Ref sig .tc := ⟨.hbm, 162, rfl⟩
abbrev main_v140 : Ref sig .tc := ⟨.hbm, 163, rfl⟩
abbrev main_v141 : Ref sig .tc := ⟨.hbm, 164, rfl⟩
abbrev main_v142 : Ref sig .tc := ⟨.hbm, 165, rfl⟩
abbrev main_v143 : Ref sig .tc := ⟨.hbm, 166, rfl⟩
abbrev main_c_12 : Ref sig .tc := ⟨.hbm, 167, rfl⟩
abbrev main_v144 : Ref sig .tc := ⟨.hbm, 168, rfl⟩
abbrev main_v145 : Ref sig .tc := ⟨.hbm, 169, rfl⟩
abbrev main_c_13 : Ref sig .tc := ⟨.hbm, 170, rfl⟩
abbrev main_v146 : Ref sig .tc := ⟨.hbm, 171, rfl⟩
abbrev main_v147 : Ref sig .tc := ⟨.hbm, 172, rfl⟩
abbrev main_v148 : Ref sig .tc := ⟨.hbm, 173, rfl⟩
abbrev main_v149 : Ref sig .tc := ⟨.hbm, 174, rfl⟩
abbrev main_v150 : Ref sig .tc := ⟨.hbm, 175, rfl⟩
abbrev main_cst_14 : Ref sig .tc := ⟨.hbm, 176, rfl⟩
abbrev main_v151 : Ref sig .tc := ⟨.hbm, 177, rfl⟩
abbrev main_c_15 : Ref sig .tc := ⟨.hbm, 178, rfl⟩
abbrev main_v152 : Ref sig .tc := ⟨.hbm, 179, rfl⟩
abbrev main_v153 : Ref sig .tc := ⟨.hbm, 180, rfl⟩
abbrev main_v154 : Ref sig .tc := ⟨.hbm, 181, rfl⟩
abbrev main_v155 : Ref sig .tc := ⟨.hbm, 182, rfl⟩
abbrev main_v156 : Ref sig .tc := ⟨.hbm, 183, rfl⟩
abbrev main_v157 : Ref sig .tc := ⟨.hbm, 184, rfl⟩
abbrev main_v158 : Ref sig .tc := ⟨.hbm, 185, rfl⟩
abbrev main_v159 : Ref sig .tc := ⟨.hbm, 186, rfl⟩
abbrev main_v160 : Ref sig .tc := ⟨.hbm, 187, rfl⟩
abbrev main_v161 : Ref sig .tc := ⟨.hbm, 188, rfl⟩
abbrev main_v162 : Ref sig .tc := ⟨.hbm, 189, rfl⟩
abbrev main_v163 : Ref sig .tc := ⟨.hbm, 190, rfl⟩
abbrev main_v164 : Ref sig .tc := ⟨.hbm, 191, rfl⟩
abbrev main_v165 : Ref sig .tc := ⟨.hbm, 192, rfl⟩
abbrev main_v166 : Ref sig .tc := ⟨.hbm, 193, rfl⟩
abbrev main_c_16 : Ref sig .tc := ⟨.hbm, 194, rfl⟩
abbrev main_v167 : Ref sig .tc := ⟨.hbm, 195, rfl⟩
abbrev main_v168 : Ref sig .tc := ⟨.hbm, 196, rfl⟩
abbrev main_v169 : Ref sig .tc := ⟨.hbm, 197, rfl⟩
abbrev main_v170 : Ref sig .tc := ⟨.hbm, 198, rfl⟩
abbrev main_v171 : Ref sig .tc := ⟨.hbm, 199, rfl⟩
abbrev main_v172 : Ref sig .tc := ⟨.hbm, 200, rfl⟩
abbrev main_v173 : Ref sig .tc := ⟨.hbm, 201, rfl⟩
abbrev main_v174 : Ref sig .tc := ⟨.hbm, 202, rfl⟩
abbrev main_v175 : Ref sig .tc := ⟨.hbm, 203, rfl⟩
abbrev main_v176 : Ref sig .tc := ⟨.hbm, 204, rfl⟩
abbrev main_v177 : Ref sig .tc := ⟨.hbm, 205, rfl⟩
abbrev main_v178 : Ref sig .tc := ⟨.hbm, 206, rfl⟩
abbrev main_v179 : Ref sig .tc := ⟨.hbm, 207, rfl⟩
abbrev main_v180 : Ref sig .tc := ⟨.hbm, 208, rfl⟩
abbrev main_v181 : Ref sig .tc := ⟨.hbm, 209, rfl⟩
abbrev main_c_17 : Ref sig .tc := ⟨.hbm, 210, rfl⟩
abbrev main_v182 : Ref sig .tc := ⟨.hbm, 211, rfl⟩
abbrev main_v183 : Ref sig .tc := ⟨.hbm, 212, rfl⟩
abbrev main_v184 : Ref sig .tc := ⟨.hbm, 213, rfl⟩
abbrev main_v185 : Ref sig .tc := ⟨.hbm, 214, rfl⟩
abbrev main_v186 : Ref sig .tc := ⟨.hbm, 215, rfl⟩
abbrev main_v187 : Ref sig .tc := ⟨.hbm, 216, rfl⟩
abbrev main_v188 : Ref sig .tc := ⟨.hbm, 217, rfl⟩
abbrev main_v189 : Ref sig .tc := ⟨.hbm, 218, rfl⟩
abbrev main_v190 : Ref sig .tc := ⟨.hbm, 219, rfl⟩
abbrev main_v191 : Ref sig .tc := ⟨.hbm, 220, rfl⟩
abbrev main_v192 : Ref sig .tc := ⟨.hbm, 221, rfl⟩
abbrev main_v193 : Ref sig .tc := ⟨.hbm, 222, rfl⟩
abbrev main_v194 : Ref sig .tc := ⟨.hbm, 223, rfl⟩
abbrev main_v195 : Ref sig .tc := ⟨.hbm, 224, rfl⟩
abbrev main_v196 : Ref sig .tc := ⟨.hbm, 225, rfl⟩
abbrev main_c_18 : Ref sig .tc := ⟨.hbm, 226, rfl⟩
abbrev main_v197 : Ref sig .tc := ⟨.hbm, 227, rfl⟩
abbrev main_v198 : Ref sig .tc := ⟨.hbm, 228, rfl⟩
abbrev main_v199 : Ref sig .tc := ⟨.hbm, 229, rfl⟩
abbrev main_v200 : Ref sig .tc := ⟨.hbm, 230, rfl⟩
abbrev main_v201 : Ref sig .tc := ⟨.hbm, 231, rfl⟩
abbrev main_v202 : Ref sig .tc := ⟨.hbm, 232, rfl⟩
abbrev main_v203 : Ref sig .tc := ⟨.hbm, 233, rfl⟩
abbrev main_v204 : Ref sig .tc := ⟨.hbm, 234, rfl⟩
abbrev main_v205 : Ref sig .tc := ⟨.hbm, 235, rfl⟩
abbrev main_v206 : Ref sig .tc := ⟨.hbm, 236, rfl⟩
abbrev main_v207 : Ref sig .tc := ⟨.hbm, 237, rfl⟩
abbrev main_v208 : Ref sig .tc := ⟨.hbm, 238, rfl⟩
abbrev main_v209 : Ref sig .tc := ⟨.hbm, 239, rfl⟩
abbrev main_v210 : Ref sig .tc := ⟨.hbm, 240, rfl⟩
abbrev main_v211 : Ref sig .tc := ⟨.hbm, 241, rfl⟩

abbrev nD : Nat := 1
abbrev τ : Topo := Topo.v7x

variable {F : FTy → Type} [FloatOps F]

class Facts₀ : Prop where
  slices_S3x16_S1x16_0_0 : S3x16.Slices ![0, 0] S1x16
  shapeCasts_S1x16_S16 : S1x16.ShapeCasts S16
  bcast_S_S131072 : S_.BroadcastsInDim S131072 (![] : Fin 0 → Fin S131072.rank)
  bcast_S131072_S131072x1_0 : S131072.BroadcastsInDim S131072x1 (![0] : Fin 1 → Fin S131072x1.rank)
  bcast_S_S131072x256 : S_.BroadcastsInDim S131072x256 (![] : Fin 0 → Fin S131072x256.rank)
  slices_S4x128x256_S1x128x256_0_0_0 : S4x128x256.Slices ![0, 0, 0] S1x128x256
  shapeCasts_S1x128x256_S128x256 : S1x128x256.ShapeCasts S128x256
  slices_S4x256_S1x256_0_0 : S4x256.Slices ![0, 0] S1x256
  shapeCasts_S1x256_S256 : S1x256.ShapeCasts S256
  bcast_S256_S1x256_1 : S256.BroadcastsInDim S1x256 (![1] : Fin 1 → Fin S1x256.rank)
  bcast_S1x256_S131072x256_0_1 : S1x256.BroadcastsInDim S131072x256 (![0, 1] : Fin 2 → Fin S131072x256.rank)
  bcast_S131072x1_S131072x256_0_1 : S131072x1.BroadcastsInDim S131072x256 (![0, 1] : Fin 2 → Fin S131072x256.rank)
  slices_S4x128x256_S1x128x256_1_0_0 : S4x128x256.Slices ![1, 0, 0] S1x128x256
  slices_S4x256_S1x256_1_0 : S4x256.Slices ![1, 0] S1x256
  slices_S4x128x256_S1x128x256_2_0_0 : S4x128x256.Slices ![2, 0, 0] S1x128x256
  slices_S4x256_S1x256_2_0 : S4x256.Slices ![2, 0] S1x256
  slices_S4x128x256_S1x128x256_3_0_0 : S4x128x256.Slices ![3, 0, 0] S1x128x256
  slices_S4x256_S1x256_3_0 : S4x256.Slices ![3, 0] S1x256
  slices_S3x16_S1x16_1_0 : S3x16.Slices ![1, 0] S1x16
  slices_S4x256x256_S1x256x256_0_0_0 : S4x256x256.Slices ![0, 0, 0] S1x256x256
  shapeCasts_S1x256x256_S256x256 : S1x256x256.ShapeCasts S256x256
  slices_S4x256x256_S1x256x256_1_0_0 : S4x256x256.Slices ![1, 0, 0] S1x256x256
  slices_S4x256x256_S1x256x256_2_0_0 : S4x256x256.Slices ![2, 0, 0] S1x256x256
  slices_S4x256x256_S1x256x256_3_0_0 : S4x256x256.Slices ![3, 0, 0] S1x256x256
  slices_S3x16_S1x16_2_0 : S3x16.Slices ![2, 0] S1x16
  bcast_S_S131072x64 : S_.BroadcastsInDim S131072x64 (![] : Fin 0 → Fin S131072x64.rank)
  slices_S4x256x64_S1x256x64_0_0_0 : S4x256x64.Slices ![0, 0, 0] S1x256x64
  shapeCasts_S1x256x64_S256x64 : S1x256x64.ShapeCasts S256x64
  slices_S4x64_S1x64_0_0 : S4x64.Slices ![0, 0] S1x64
  shapeCasts_S1x64_S64 : S1x64.ShapeCasts S64
  bcast_S64_S1x64_1 : S64.BroadcastsInDim S1x64 (![1] : Fin 1 → Fin S1x64.rank)
  bcast_S1x64_S131072x64_0_1 : S1x64.BroadcastsInDim S131072x64 (![0, 1] : Fin 2 → Fin S131072x64.rank)
  bcast_S131072x1_S131072x64_0_1 : S131072x1.BroadcastsInDim S131072x64 (![0, 1] : Fin 2 → Fin S131072x64.rank)
  slices_S4x256x64_S1x256x64_1_0_0 : S4x256x64.Slices ![1, 0, 0] S1x256x64
  slices_S4x64_S1x64_1_0 : S4x64.Slices ![1, 0] S1x64
  slices_S4x256x64_S1x256x64_2_0_0 : S4x256x64.Slices ![2, 0, 0] S1x256x64
  slices_S4x64_S1x64_2_0 : S4x64.Slices ![2, 0] S1x64
  slices_S4x256x64_S1x256x64_3_0_0 : S4x256x64.Slices ![3, 0, 0] S1x256x64
  slices_S4x64_S1x64_3_0 : S4x64.Slices ![3, 0] S1x64
  gather_S16_S131072x1_S131072_n_0_n_n_0_1_1_wf : GatherDims.WF S16 S131072x1 S131072 [] [0] [] [0] [] 1 ![1]
  dot_S131072x128_S128x256_S131072x256_1_0_0_1_n_n_wf : DotDims.WF S131072x128 S128x256 S131072x256 [1] [0] [0] [1] [] []
  dot_S131072x256_S256x256_S131072x256_1_0_0_1_n_n_wf : DotDims.WF S131072x256 S256x256 S131072x256 [1] [0] [0] [1] [] []
  dot_S131072x256_S256x64_S131072x64_1_0_0_1_n_n_wf : DotDims.WF S131072x256 S256x64 S131072x64 [1] [0] [0] [1] [] []

variable [Facts₀]

def gather_S16_S131072x1_S131072_n_0_n_n_0_1_1 : GatherDims S16 S131072x1 S131072 where
  offsetDims := []
  collapsedSliceDims := [0]
  operandBatchingDims := []
  startIndicesBatchingDims := []
  startIndexMap := [0]
  indexVectorDim := 1
  sliceSizes := ![1]
  wf := gather_S16_S131072x1_S131072_n_0_n_n_0_1_1_wf
def dot_S131072x128_S128x256_S131072x256_1_0_0_1_n_n : DotDims S131072x128 S128x256 S131072x256 where
  lhsContracting := [1]
  rhsContracting := [0]
  lhsNonContracting := [0]
  rhsNonContracting := [1]
  lhsBatch := []
  rhsBatch := []
  wf := dot_S131072x128_S128x256_S131072x256_1_0_0_1_n_n_wf
def dot_S131072x256_S256x256_S131072x256_1_0_0_1_n_n : DotDims S131072x256 S256x256 S131072x256 where
  lhsContracting := [1]
  rhsContracting := [0]
  lhsNonContracting := [0]
  rhsNonContracting := [1]
  lhsBatch := []
  rhsBatch := []
  wf := dot_S131072x256_S256x256_S131072x256_1_0_0_1_n_n_wf
def dot_S131072x256_S256x64_S131072x64_1_0_0_1_n_n : DotDims S131072x256 S256x64 S131072x64 where
  lhsContracting := [1]
  rhsContracting := [0]
  lhsNonContracting := [0]
  rhsNonContracting := [1]
  lhsBatch := []
  rhsBatch := []
  wf := dot_S131072x256_S256x64_S131072x64_1_0_0_1_n_n_wf

class Facts : Prop extends Facts₀ where

variable [Facts]
-- ==== Proof.KBodyTerm.lean ====
/-
  What one grid point of the kernel leaves in its output block, as one pure term of the eight input blocks.

  The body reads the row block `x` [4096, 128], the routing block `ix` [4096, 3] one column per layer, and from each weight
  tensor and bias the slab of each of its four copies; it then evaluates the three routed layers on the whole row block and
  stores the last one. The term below composes the body's named arithmetic steps in the order the body runs them, each load
  written as the read of its literal rectangle.
-/
import proofs.«105043_j11570641896173_1_alg».proof.Proof.Gen.Kernel.Skeleton
import Idealize.ShloMosaic.Lib.Pipeline.FrameBody

noncomputable section

namespace Cert.Kernel.Body

open Idealize.ShloMosaic Idealize.ShloMosaic.TcCoe Cert.Kernel Cert.Kernel.Gen

variable {F : FTy → Type} [FloatOps F]

/-! ## The rectangles the body reads and writes -/

abbrev rX : Rect S4096x128 := Rect.unit (s := S4096x128) ![0, 0] S4096x128.size inb_S4096x128_S4096x128_0_0
abbrev rI0 : Rect S4096x3 := Rect.unit (s := S4096x3) ![0, 0] S4096x1.size inb_S4096x3_S4096x1_0_0
abbrev rI1 : Rect S4096x3 := Rect.unit (s := S4096x3) ![0, 1] S4096x1.size inb_S4096x3_S4096x1_0_1
abbrev rI2 : Rect S4096x3 := Rect.unit (s := S4096x3) ![0, 2] S4096x1.size inb_S4096x3_S4096x1_0_2
abbrev rA0 : Rect S4x128x256 := Rect.unit (s := S4x128x256) ![0, 0, 0] S1x128x256.size inb_S4x128x256_S1x128x256_0_0_0
abbrev rA1 : Rect S4x128x256 := Rect.unit (s := S4x128x256) ![1, 0, 0] S1x128x256.size inb_S4x128x256_S1x128x256_1_0_0
abbrev rA2 : Rect S4x128x256 := Rect.unit (s := S4x128x256) ![2, 0, 0] S1x128x256.size inb_S4x128x256_S1x128x256_2_0_0
abbrev rA3 : Rect S4x128x256 := Rect.unit (s := S4x128x256) ![3, 0, 0] S1x128x256.size inb_S4x128x256_S1x128x256_3_0_0
abbrev rH0 : Rect S4x256 := Rect.unit (s := S4x256) ![0, 0] S1x256.size inb_S4x256_S1x256_0_0
abbrev rH1 : Rect S4x256 := Rect.unit (s := S4x256) ![1, 0] S1x256.size inb_S4x256_S1x256_1_0
abbrev rH2 : Rect S4x256 := Rect.unit (s := S4x256) ![2, 0] S1x256.size inb_S4x256_S1x256_2_0
abbrev rH3 : Rect S4x256 := Rect.unit (s := S4x256) ![3, 0] S1x256.size inb_S4x256_S1x256_3_0
abbrev rB0 : Rect S4x256x256 := Rect.unit (s := S4x256x256) ![0, 0, 0] S1x256x256.size inb_S4x256x256_S1x256x256_0_0_0
abbrev rB1 : Rect S4x256x256 := Rect.unit (s := S4x256x256) ![1, 0, 0] S1x256x256.size inb_S4x256x256_S1x256x256_1_0_0
abbrev rB2 : Rect S4x256x256 := Rect.unit (s := S4x256x256) ![2, 0, 0] S1x256x256.size inb_S4x256x256_S1x256x256_2_0_0
abbrev rB3 : Rect S4x256x256 := Rect.unit (s := S4x256x256) ![3, 0, 0] S1x256x256.size inb_S4x256x256_S1x256x256_3_0_0
abbrev rC0 : Rect S4x256x64 := Rect.unit (s := S4x256x64) ![0, 0, 0] S1x256x64.size inb_S4x256x64_S1x256x64_0_0_0
abbrev rC1 : Rect S4x256x64 := Rect.unit (s := S4x256x64) ![1, 0, 0] S1x256x64.size inb_S4x256x64_S1x256x64_1_0_0
abbrev rC2 : Rect S4x256x64 := Rect.unit (s := S4x256x64) ![2, 0, 0] S1x256x64.size inb_S4x256x64_S1x256x64_2_0_0
abbrev rC3 : Rect S4x256x64 := Rect.unit (s := S4x256x64) ![3, 0, 0] S1x256x64.size inb_S4x256x64_S1x256x64_3_0_0
abbrev rL0 : Rect S4x64 := Rect.unit (s := S4x64) ![0, 0] S1x64.size inb_S4x64_S1x64_0_0
abbrev rL1 : Rect S4x64 := Rect.unit (s := S4x64) ![1, 0] S1x64.size inb_S4x64_S1x64_1_0
abbrev rL2 : Rect S4x64 := Rect.unit (s := S4x64) ![2, 0] S1x64.size inb_S4x64_S1x64_2_0
abbrev rL3 : Rect S4x64 := Rect.unit (s := S4x64) ![3, 0] S1x64.size inb_S4x64_S1x64_3_0
abbrev rO : Rect S4096x64 := Rect.unit (s := S4096x64) ![0, 0] S4096x64.size inb_S4096x64_S4096x64_0_0

/-! ## The stored value -/

/-- The first hidden block in the matrix unit's input format: `tanh` of layer 0 on the row block. -/
def hidden0 (x : Vec F S4096x128 .f32) (ix : Vec F S4096x3 .i32) (a : Vec F S4x128x256 .bf16) (h : Vec F S4x256 .f32) :
    FVec F S4096x256 .bf16 :=
  k0_pay6 (k0_pay2 (View.ld x rX)) (k0_pay3 (View.ld ix rI0))
    (k0_pay4 (View.ld x rX) (View.ld ix rI0) (View.ld a rA0) (View.ld h rH0) (View.ld a rA1) (View.ld h rH1))
    (k0_pay5 (View.ld a rA2)) (View.ld h rH2) (View.ld a rA3) (View.ld h rH3)

/-- Layer 1's sum over its first three copies, on the first hidden block. -/
def partial1 (x : Vec F S4096x128 .f32) (ix : Vec F S4096x3 .i32) (a : Vec F S4x128x256 .bf16) (h : Vec F S4x256 .f32)
    (b : Vec F S4x256x256 .bf16) (g : Vec F S4x256 .f32) : FVec F S4096x256 .f32 :=
  k0_pay12 (hidden0 x ix a h) (k0_pay7 (View.ld ix rI1)) (k0_pay8 (F := F)) (k0_pay9 (View.ld b rB0)) (k0_pay10 (View.ld g rH0))
    (k0_pay11 (View.ld ix rI1)) (View.ld b rB1) (View.ld g rH1) (View.ld b rB2) (View.ld g rH2)

/-- What the body stores: layer 2 on the second hidden block (layer 1's last copy and `tanh` are inside the last two steps). -/
def blockOut (x : Vec F S4096x128 .f32) (ix : Vec F S4096x3 .i32) (a : Vec F S4x128x256 .bf16) (h : Vec F S4x256 .f32)
    (b : Vec F S4x256x256 .bf16) (g : Vec F S4x256 .f32) (c : Vec F S4x256x64 .bf16) (l : Vec F S4x64 .f32) :
    FVec F S4096x64 .f32 :=
  k0_pay1
    (k0_pay14 (hidden0 x ix a h) (k0_pay7 (View.ld ix rI1)) (partial1 x ix a h b g) (k0_pay13 (View.ld b rB3)) (View.ld g rH3))
    (k0_pay15 (View.ld ix rI2))
    (k0_pay16 (hidden0 x ix a h) (k0_pay7 (View.ld ix rI1)) (partial1 x ix a h b g) (k0_pay13 (View.ld b rB3)) (View.ld g rH3)
      (View.ld ix rI2) (View.ld c rC0) (View.ld l rL0))
    (k0_pay17 (View.ld c rC1)) (k0_pay18 (View.ld l rL1)) (k0_pay19 (View.ld ix rI2))
    (constant S4096x64 .f32 0x00000000#32) (View.ld c rC2) (View.ld l rL2) (View.ld c rC3) (View.ld l rL3)

end Cert.Kernel.Body

end
-- ==== Proof.KRegion.lean ====
/-
  The kernel's run, by hand: @main is forty host operations and then one region of 32 grid points.

  The host operations compute the routing array [131072, 3] (three gathers put side by side) and narrow the three weight
  tensors; none of them writes an argument. At every grid point the region hands the body one block of each window: rows
  4096·t … 4096·t + 4095 of the inputs and of the routing array, the weight tensors and biases whole, and the matching row
  block of the result. The body reads its eight input blocks, leaves them as they are, and overwrites the whole output block
  with `blockOut` of the input blocks. From that the pipeline's run gives: the program terminates without a fault, the
  arguments end unchanged, and the result array is, block by block, `blockOut` of the blocks of the arrays the region found.
-/
import proofs.«105043_j11570641896173_1_alg».proof.Proof.Gen.Kernel.Launch
import proofs.«105043_j11570641896173_1_alg».proof.Proof.Gen.Kernel.Skeleton
import proofs.«105043_j11570641896173_1_alg».proof.Proof.Gen.Kernel.Points
import proofs.«105043_j11570641896173_1_alg».proof.Proof.KBodyTerm
import Idealize.ShloMosaic.Lib.Pipeline.FrameBody
import Idealize.ShloMosaic.Lib.Ring
import Idealize.ShloMosaic.Lib.Tactic

set_option maxRecDepth 16384

noncomputable section

namespace Cert.Kernel.Region

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Kernel.Body

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: the launch contents after the forty host operations. -/
abbrev V (c : Dev nD) (b : Ref sig .tc) : Buf (Elt F) ((c : Thread nD τ).loc b) :=
  StableHlo.after (List.flatten [hostOps0]) (fun b => m (c, b)) b

/-- No host operation allocates. -/
theorem hostOps0_fresh : (hostOps0 : List (HloOp τ sig (Elt F))).Forall fun op => op.fresh = ∅ := by
  simp only [List.Forall]; repeat' constructor

/-- @main is the host operations and then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0] (by simp only [List.Forall]; exact hostOps0_sub)
    (by simp only [List.Forall]; exact hostOps0_fresh) main_chain

/-- Every host operation writes its own result buffer, never `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- Every host operation writes its own result buffer, never `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- Every host operation writes its own result buffer, never `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- Every host operation writes its own result buffer, never `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- Every host operation writes its own result buffer, never `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- Every host operation writes its own result buffer, never `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- Every host operation writes its own result buffer, never `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- Every host operation writes its own result buffer, never `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- Every host operation writes its own result buffer, never `main_arg8`: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's staging buffer holds its block at every point, fetched there or not (where it is not fetched its
    block index has not moved), for any proof data whose array is the region-entry one and whose body leaves the block in place. -/
theorem before_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's staging buffer holds its block at every point, fetched there or not (where it is not fetched its
    block index has not moved), for any proof data whose array is the region-entry one and whose body leaves the block in place. -/
theorem before_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's staging buffer holds its block at every point, fetched there or not (where it is not fetched its
    block index has not moved), for any proof data whose array is the region-entry one and whose body leaves the block in place. -/
theorem before_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's staging buffer holds its block at every point, fetched there or not (where it is not fetched its
    block index has not moved), for any proof data whose array is the region-entry one and whose body leaves the block in place. -/
theorem before_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's staging buffer holds its block at every point, fetched there or not (where it is not fetched its
    block index has not moved), for any proof data whose array is the region-entry one and whose body leaves the block in place. -/
theorem before_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's staging buffer holds its block at every point, fetched there or not (where it is not fetched its
    block index has not moved), for any proof data whose array is the region-entry one and whose body leaves the block in place. -/
theorem before_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's staging buffer holds its block at every point, fetched there or not (where it is not fetched its
    block index has not moved), for any proof data whose array is the region-entry one and whose body leaves the block in place. -/
theorem before_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's staging buffer holds its block at every point, fetched there or not (where it is not fetched its
    block index has not moved), for any proof data whose array is the region-entry one and whose body leaves the block in place. -/
theorem before_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! ## The arguments end unchanged -/

/-- In a state satisfying the pipeline's post, a staged argument holds its array's entry contents (an input window never
    writes back) and an unstaged one is no array of the pipeline; either way it holds its launch contents. -/
theorem kept_of (dats : (p : Fin 1) → (c : Dev nD) → Dat τ (Elt F) Unit ℕ (UR sig nD τ) ℕ (cfgs p) c)
    (hA : ∀ c w, (dats 0 c).A w = V m c (Pipeline.arrRef spec0 w))
    (r : PUnit × MemSt nD τ sig (Elt F)) (h : Pipeline.FramePost cfgs dats 0 (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  ⟨((h c).1 0).trans (((dats 0 c).arrAt_in 0 rfl _).trans ((hA c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).1 3).trans (((dats 0 c).arrAt_in 3 rfl _).trans ((hA c 3).trans (V_main_arg4 m c))),
      ((h c).2 main_arg5 (Pipeline.mem_restRefs_of main_arg5 (by decide) (by decide))).trans (V_main_arg5 m c),
      ((h c).1 5).trans (((dats 0 c).arrAt_in 5 rfl _).trans ((hA c 5).trans (V_main_arg6 m c))),
      ((h c).2 main_arg7 (Pipeline.mem_restRefs_of main_arg7 (by decide) (by decide))).trans (V_main_arg7 m c),
      ((h c).1 7).trans (((dats 0 c).arrAt_in 7 rfl _).trans ((hA c 7).trans (V_main_arg8 m c)))⟩

/-- From a run to the pipeline's post, the frame claim's post. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => kept_of m dats hA r h c) h

/-! ## The body -/

/-- The output block after the body: its one store covers the block. -/
def outBuf (x : Vec F S4096x128 .f32) (ix : Vec F S4096x3 .i32) (a : Vec F S4x128x256 .bf16) (h : Vec F S4x256 .f32)
    (b : Vec F S4x256x256 .bf16) (g : Vec F S4x256 .f32) (c' : Vec F S4x256x64 .bf16) (l : Vec F S4x64 .f32) : Vec F S4096x64 .f32 :=
  View.canon [⟨rO, blockOut x ix a h b g c' l⟩]

theorem cover_out (p0 : Vec F S4096x64 .f32) (y : S4096x64.Idx) :
    ∃ pc ∈ ([⟨rO, p0⟩] : List (View.Piece (Elt F) S4096x64 .f32)), y ∈ pc.1.set :=
  View.cover_of_tiled [⟨rO, p0⟩] S4096x64.size (by rfl) y

set_option maxHeartbeats 4000000 in
/-- The body on whole staging buffers — the inputs' at contents `x … l`, the output's at anything — runs to the end, leaves
    the inputs' as they were and the output's at `outBuf` of them. -/
theorem sound_kernel (c : Dev nD) (E : Set ℕ) (i : grid0.Coords)
    (arg1 : Memref sig .tc .vmem S4096x128 .f32) (harg1 : arg1.IsWhole) (arg2 : Memref sig .tc .vmem S4096x3 .i32) (harg2 : arg2.IsWhole)
    (arg3 : Memref sig .tc .vmem S4x128x256 .bf16) (harg3 : arg3.IsWhole) (arg4 : Memref sig .tc .vmem S4x256 .f32) (harg4 : arg4.IsWhole)
    (arg5 : Memref sig .tc .vmem S4x256x256 .bf16) (harg5 : arg5.IsWhole) (arg6 : Memref sig .tc .vmem S4x256 .f32) (harg6 : arg6.IsWhole)
    (arg7 : Memref sig .tc .vmem S4x256x64 .bf16) (harg7 : arg7.IsWhole) (arg8 : Memref sig .tc .vmem S4x64 .f32) (harg8 : arg8.IsWhole)
    (arg9 : Memref sig .tc .vmem S4096x64 .f32) (harg9 : arg9.IsWhole)
    (x : Vec F S4096x128 .f32) (ix : Vec F S4096x3 .i32) (a : Vec F S4x128x256 .bf16) (h : Vec F S4x256 .f32)
    (b : Vec F S4x256x256 .bf16) (g : Vec F S4x256 .f32) (c' : Vec F S4x256x64 .bf16) (l : Vec F S4x64 .f32) (K : PUnit → sProp 𝕄) :
    iprop(owns (c : Thread nD τ) arg1 fullShare x ∗ owns (c : Thread nD τ) arg2 fullShare ix ∗ owns (c : Thread nD τ) arg3 fullShare a
        ∗ owns (c : Thread nD τ) arg4 fullShare h ∗ owns (c : Thread nD τ) arg5 fullShare b ∗ owns (c : Thread nD τ) arg6 fullShare g
        ∗ owns (c : Thread nD τ) arg7 fullShare c' ∗ owns (c : Thread nD τ) arg8 fullShare l ∗ (∃ d, owns (c : Thread nD τ) arg9 fullShare d)
        ∗ (iprop(owns (c : Thread nD τ) arg1 fullShare x ∗ owns (c : Thread nD τ) arg2 fullShare ix ∗ owns (c : Thread nD τ) arg3 fullShare a
            ∗ owns (c : Thread nD τ) arg4 fullShare h ∗ owns (c : Thread nD τ) arg5 fullShare b ∗ owns (c : Thread nD τ) arg6 fullShare g
            ∗ owns (c : Thread nD τ) arg7 fullShare c' ∗ owns (c : Thread nD τ) arg8 fullShare l
            ∗ owns (c : Thread nD τ) arg9 fullShare (outBuf x ix a h b g c' l)) -∗ K ⟨⟩))
      ⊢ wp frame (wpE (defs₀ (F := F)) Variants.none c none) E
          (cc0__mlp_kernel i arg1 harg1 arg2 harg2 arg3 harg3 arg4 harg4 arg5 harg5 arg6 harg6 arg7 harg7 arg8 harg8 arg9 harg9) K := by
  simp only [cc0__mlp_kernel_eq_skeleton]; unfold cc0__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  exact View.read_writes_eq_canon _ _ _ (cover_out _)

/-! ## The pipeline's proof data -/

/-- After the body at point `t`: each input's buffer at its block, the output's at `outBuf` of the input blocks; the arrays
    as the region finds them; nothing owed, full shares, the region's standing invariant. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => outBuf (iblk m c 0 t) (iblk m c 1 t) (iblk m c 2 t) (iblk m c 3 t) (iblk m c 4 t) (iblk m c 5 t) (iblk m c 6 t) (iblk m c 7 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = outBuf (iblk m c 0 t) (iblk m c 1 t) (iblk m c 2 t) (iblk m c 3 t) (iblk m c 4 t) (iblk m c 5 t) (iblk m c 6 t) (iblk m c 7 t) := by dsimp only [dats]

theorem before_0 (c : Dev nD) (t : Fin cfg0.N) (d) : (dats m 0 c).before 0 t d = iblk m c 0 t :=
  before_0_of m (dats m 0 c) (A_eq m c 0) (after_0 m c) t d
theorem before_1 (c : Dev nD) (t : Fin cfg0.N) (d) : (dats m 0 c).before 1 t d = iblk m c 1 t :=
  before_1_of m (dats m 0 c) (A_eq m c 1) (after_1 m c) t d
theorem before_2 (c : Dev nD) (t : Fin cfg0.N) (d) : (dats m 0 c).before 2 t d = iblk m c 2 t :=
  before_2_of m (dats m 0 c) (A_eq m c 2) (after_2 m c) t d
theorem before_3 (c : Dev nD) (t : Fin cfg0.N) (d) : (dats m 0 c).before 3 t d = iblk m c 3 t :=
  before_3_of m (dats m 0 c) (A_eq m c 3) (after_3 m c) t d
theorem before_4 (c : Dev nD) (t : Fin cfg0.N) (d) : (dats m 0 c).before 4 t d = iblk m c 4 t :=
  before_4_of m (dats m 0 c) (A_eq m c 4) (after_4 m c) t d
theorem before_5 (c : Dev nD) (t : Fin cfg0.N) (d) : (dats m 0 c).before 5 t d = iblk m c 5 t :=
  before_5_of m (dats m 0 c) (A_eq m c 5) (after_5 m c) t d
theorem before_6 (c : Dev nD) (t : Fin cfg0.N) (d) : (dats m 0 c).before 6 t d = iblk m c 6 t :=
  before_6_of m (dats m 0 c) (A_eq m c 6) (after_6 m c) t d
theorem before_7 (c : Dev nD) (t : Fin cfg0.N) (d) : (dats m 0 c).before 7 t d = iblk m c 7 t :=
  before_7_of m (dats m 0 c) (A_eq m c 7) (after_7 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t))

/-- The body at any point: the inputs' buffers hold their blocks, so the body's triple applies; the invariant and the
    core's debts pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel c Set.univ (grid0.coords t) _ _ _ _ _ _ _ _ _ _ _ _ _ _ _ _ _ _ (iblk m c 0 t) (iblk m c 1 t) (iblk m c 2 t) (iblk m c 3 t) (iblk m c 4 t) (iblk m c 5 t) (iblk m c 6 t) (iblk m c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- Every weakly fair execution of @main terminates without a fault; every array of the pipeline ends at what the pipeline
    computes from the proof data, every other buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the program runs to the end and its nine arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of m ρ (dats m) (A_eq m) (run_main m ρ)

end Cert.Kernel.Region

end
-- ==== Proof.KIBodyTerm.lean ====
/-
  What one grid point of the kernel leaves in its output block, as one pure term of the eight input blocks.

  The body reads the row block `x` [4096, 128], the routing block `ix` [4096, 3] one column per layer, and from each weight
  tensor and bias the slab of each of its four copies; it then evaluates the three routed layers on the whole row block and
  stores the last one. The term below composes the body's named arithmetic steps in the order the body runs them, each load
  written as the read of its literal rectangle.
-/
import proofs.«105043_j11570641896173_1_alg».proof.Proof.Gen.KernelIdeal.Skeleton
import Idealize.ShloMosaic.Lib.Pipeline.FrameBody

noncomputable section

namespace Cert.KernelIdeal.Body

open Idealize.ShloMosaic Idealize.ShloMosaic.TcCoe Cert.KernelIdeal Cert.KernelIdeal.Gen

variable {F : FTy → Type} [FloatOps F]

/-! ## The rectangles the body reads and writes -/

abbrev rX : Rect S4096x128 := Rect.unit (s := S4096x128) ![0, 0] S4096x128.size inb_S4096x128_S4096x128_0_0
abbrev rI0 : Rect S4096x3 := Rect.unit (s := S4096x3) ![0, 0] S4096x1.size inb_S4096x3_S4096x1_0_0
abbrev rI1 : Rect S4096x3 := Rect.unit (s := S4096x3) ![0, 1] S4096x1.size inb_S4096x3_S4096x1_0_1
abbrev rI2 : Rect S4096x3 := Rect.unit (s := S4096x3) ![0, 2] S4096x1.size inb_S4096x3_S4096x1_0_2
abbrev rA0 : Rect S4x128x256 := Rect.unit (s := S4x128x256) ![0, 0, 0] S1x128x256.size inb_S4x128x256_S1x128x256_0_0_0
abbrev rA1 : Rect S4x128x256 := Rect.unit (s := S4x128x256) ![1, 0, 0] S1x128x256.size inb_S4x128x256_S1x128x256_1_0_0
abbrev rA2 : Rect S4x128x256 := Rect.unit (s := S4x128x256) ![2, 0, 0] S1x128x256.size inb_S4x128x256_S1x128x256_2_0_0
abbrev rA3 : Rect S4x128x256 := Rect.unit (s := S4x128x256) ![3, 0, 0] S1x128x256.size inb_S4x128x256_S1x128x256_3_0_0
abbrev rH0 : Rect S4x256 := Rect.unit (s := S4x256) ![0, 0] S1x256.size inb_S4x256_S1x256_0_0
abbrev rH1 : Rect S4x256 := Rect.unit (s := S4x256) ![1, 0] S1x256.size inb_S4x256_S1x256_1_0
abbrev rH2 : Rect S4x256 := Rect.unit (s := S4x256) ![2, 0] S1x256.size inb_S4x256_S1x256_2_0
abbrev rH3 : Rect S4x256 := Rect.unit (s := S4x256) ![3, 0] S1x256.size inb_S4x256_S1x256_3_0
abbrev rB0 : Rect S4x256x256 := Rect.unit (s := S4x256x256) ![0, 0, 0] S1x256x256.size inb_S4x256x256_S1x256x256_0_0_0
abbrev rB1 : Rect S4x256x256 := Rect.unit (s := S4x256x256) ![1, 0, 0] S1x256x256.size inb_S4x256x256_S1x256x256_1_0_0
abbrev rB2 : Rect S4x256x256 := Rect.unit (s := S4x256x256) ![2, 0, 0] S1x256x256.size inb_S4x256x256_S1x256x256_2_0_0
abbrev rB3 : Rect S4x256x256 := Rect.unit (s := S4x256x256) ![3, 0, 0] S1x256x256.size inb_S4x256x256_S1x256x256_3_0_0
abbrev rC0 : Rect S4x256x64 := Rect.unit (s := S4x256x64) ![0, 0, 0] S1x256x64.size inb_S4x256x64_S1x256x64_0_0_0
abbrev rC1 : Rect S4x256x64 := Rect.unit (s := S4x256x64) ![1, 0, 0] S1x256x64.size inb_S4x256x64_S1x256x64_1_0_0
abbrev rC2 : Rect S4x256x64 := Rect.unit (s := S4x256x64) ![2, 0, 0] S1x256x64.size inb_S4x256x64_S1x256x64_2_0_0
abbrev rC3 : Rect S4x256x64 := Rect.unit (s := S4x256x64) ![3, 0, 0] S1x256x64.size inb_S4x256x64_S1x256x64_3_0_0
abbrev rL0 : Rect S4x64 := Rect.unit (s := S4x64) ![0, 0] S1x64.size inb_S4x64_S1x64_0_0
abbrev rL1 : Rect S4x64 := Rect.unit (s := S4x64) ![1, 0] S1x64.size inb_S4x64_S1x64_1_0
abbrev rL2 : Rect S4x64 := Rect.unit (s := S4x64) ![2, 0] S1x64.size inb_S4x64_S1x64_2_0
abbrev rL3 : Rect S4x64 := Rect.unit (s := S4x64) ![3, 0] S1x64.size inb_S4x64_S1x64_3_0
abbrev rO : Rect S4096x64 := Rect.unit (s := S4096x64) ![0, 0] S4096x64.size inb_S4096x64_S4096x64_0_0

/-! ## The stored value -/

/-- The first hidden block in the matrix unit's input format: `tanh` of layer 0 on the row block. -/
def hidden0 (x : Vec F S4096x128 .f32) (ix : Vec F S4096x3 .i32) (a : Vec F S4x128x256 .bf16) (h : Vec F S4x256 .f32) :
    FVec F S4096x256 .bf16 :=
  k0_pay6 (k0_pay2 (View.ld x rX)) (k0_pay3 (View.ld ix rI0))
    (k0_pay4 (View.ld x rX) (View.ld ix rI0) (View.ld a rA0) (View.ld h rH0) (View.ld a rA1) (View.ld h rH1))
    (k0_pay5 (View.ld a rA2)) (View.ld h rH2) (View.ld a rA3) (View.ld h rH3)

/-- Layer 1's sum over its first three copies, on the first hidden block. -/
def partial1 (x : Vec F S4096x128 .f32) (ix : Vec F S4096x3 .i32) (a : Vec F S4x128x256 .bf16) (h : Vec F S4x256 .f32)
    (b : Vec F S4x256x256 .bf16) (g : Vec F S4x256 .f32) : FVec F S4096x256 .f32 :=
  k0_pay12 (hidden0 x ix a h) (k0_pay7 (View.ld ix rI1)) (k0_pay8 (F := F)) (k0_pay9 (View.ld b rB0)) (k0_pay10 (View.ld g rH0))
    (k0_pay11 (View.ld ix rI1)) (View.ld b rB1) (View.ld g rH1) (View.ld b rB2) (View.ld g rH2)

/-- What the body stores: layer 2 on the second hidden block (layer 1's last copy and `tanh` are inside the last two steps). -/
def blockOut (x : Vec F S4096x128 .f32) (ix : Vec F S4096x3 .i32) (a : Vec F S4x128x256 .bf16) (h : Vec F S4x256 .f32)
    (b : Vec F S4x256x256 .bf16) (g : Vec F S4x256 .f32) (c : Vec F S4x256x64 .bf16) (l : Vec F S4x64 .f32) :
    FVec F S4096x64 .f32 :=
  k0_pay1
    (k0_pay14 (hidden0 x ix a h) (k0_pay7 (View.ld ix rI1)) (partial1 x ix a h b g) (k0_pay13 (View.ld b rB3)) (View.ld g rH3))
    (k0_pay15 (View.ld ix rI2))
    (k0_pay16 (hidden0 x ix a h) (k0_pay7 (View.ld ix rI1)) (partial1 x ix a h b g) (k0_pay13 (View.ld b rB3)) (View.ld g rH3)
      (View.ld ix rI2) (View.ld c rC0) (View.ld l rL0))
    (k0_pay17 (View.ld c rC1)) (k0_pay18 (View.ld l rL1)) (k0_pay19 (View.ld ix rI2))
    (constant S4096x64 .f32 0x00000000#32) (View.ld c rC2) (View.ld l rL2) (View.ld c rC3) (View.ld l rL3)

end Cert.KernelIdeal.Body

end
-- ==== Proof.KIRegion.lean ====
/-
  The kernel's run, by hand: @main is forty host operations and then one region of 32 grid points.

  The host operations compute the routing array [131072, 3] (three gathers put side by side) and narrow the three weight
  tensors; none of them writes an argument. At every grid point the region hands the body one block of each window: rows
  4096·t … 4096·t + 4095 of the inputs and of the routing array, the weight tensors and biases whole, and the matching row
  block of the result. The body reads its eight input blocks, leaves them as they are, and overwrites the whole output block
  with `blockOut` of the input blocks. From that the pipeline's run gives: the program terminates without a fault, the
  arguments end unchanged, and the result array is, block by block, `blockOut` of the blocks of the arrays the region found.
-/
import proofs.«105043_j11570641896173_1_alg».proof.Proof.Gen.KernelIdeal.Launch
import proofs.«105043_j11570641896173_1_alg».proof.Proof.Gen.KernelIdeal.Skeleton
import proofs.«105043_j11570641896173_1_alg».proof.Proof.Gen.KernelIdeal.Points
import proofs.«105043_j11570641896173_1_alg».proof.Proof.KIBodyTerm
import Idealize.ShloMosaic.Lib.Pipeline.FrameBody
import Idealize.ShloMosaic.Lib.Ring
import Idealize.ShloMosaic.Lib.Tactic

set_option maxRecDepth 16384

noncomputable section

namespace Cert.KernelIdeal.Region

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Body

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: the launch contents after the forty host operations. -/
abbrev V (c : Dev nD) (b : Ref sig .tc) : Buf (Elt F) ((c : Thread nD τ).loc b) :=
  StableHlo.after (List.flatten [hostOps0]) (fun b => m (c, b)) b

/-- No host operation allocates. -/
theorem hostOps0_fresh : (hostOps0 : List (HloOp τ sig (Elt F))).Forall fun op => op.fresh = ∅ := by
  simp only [List.Forall]; repeat' constructor

/-- @main is the host operations and then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0] (by simp only [List.Forall]; exact hostOps0_sub)
    (by simp only [List.Forall]; exact hostOps0_fresh) main_chain

/-- Every host operation writes its own result buffer, never `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- Every host operation writes its own result buffer, never `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- Every host operation writes its own result buffer, never `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- Every host operation writes its own result buffer, never `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- Every host operation writes its own result buffer, never `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- Every host operation writes its own result buffer, never `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- Every host operation writes its own result buffer, never `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- Every host operation writes its own result buffer, never `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- Every host operation writes its own result buffer, never `main_arg8`: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's staging buffer holds its block at every point, fetched there or not (where it is not fetched its
    block index has not moved), for any proof data whose array is the region-entry one and whose body leaves the block in place. -/
theorem before_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's staging buffer holds its block at every point, fetched there or not (where it is not fetched its
    block index has not moved), for any proof data whose array is the region-entry one and whose body leaves the block in place. -/
theorem before_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's staging buffer holds its block at every point, fetched there or not (where it is not fetched its
    block index has not moved), for any proof data whose array is the region-entry one and whose body leaves the block in place. -/
theorem before_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's staging buffer holds its block at every point, fetched there or not (where it is not fetched its
    block index has not moved), for any proof data whose array is the region-entry one and whose body leaves the block in place. -/
theorem before_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's staging buffer holds its block at every point, fetched there or not (where it is not fetched its
    block index has not moved), for any proof data whose array is the region-entry one and whose body leaves the block in place. -/
theorem before_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's staging buffer holds its block at every point, fetched there or not (where it is not fetched its
    block index has not moved), for any proof data whose array is the region-entry one and whose body leaves the block in place. -/
theorem before_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's staging buffer holds its block at every point, fetched there or not (where it is not fetched its
    block index has not moved), for any proof data whose array is the region-entry one and whose body leaves the block in place. -/
theorem before_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's staging buffer holds its block at every point, fetched there or not (where it is not fetched its
    block index has not moved), for any proof data whose array is the region-entry one and whose body leaves the block in place. -/
theorem before_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! ## The arguments end unchanged -/

/-- In a state satisfying the pipeline's post, a staged argument holds its array's entry contents (an input window never
    writes back) and an unstaged one is no array of the pipeline; either way it holds its launch contents. -/
theorem kept_of (dats : (p : Fin 1) → (c : Dev nD) → Dat τ (Elt F) Unit ℕ (UR sig nD τ) ℕ (cfgs p) c)
    (hA : ∀ c w, (dats 0 c).A w = V m c (Pipeline.arrRef spec0 w))
    (r : PUnit × MemSt nD τ sig (Elt F)) (h : Pipeline.FramePost cfgs dats 0 (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  ⟨((h c).1 0).trans (((dats 0 c).arrAt_in 0 rfl _).trans ((hA c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).1 3).trans (((dats 0 c).arrAt_in 3 rfl _).trans ((hA c 3).trans (V_main_arg4 m c))),
      ((h c).2 main_arg5 (Pipeline.mem_restRefs_of main_arg5 (by decide) (by decide))).trans (V_main_arg5 m c),
      ((h c).1 5).trans (((dats 0 c).arrAt_in 5 rfl _).trans ((hA c 5).trans (V_main_arg6 m c))),
      ((h c).2 main_arg7 (Pipeline.mem_restRefs_of main_arg7 (by decide) (by decide))).trans (V_main_arg7 m c),
      ((h c).1 7).trans (((dats 0 c).arrAt_in 7 rfl _).trans ((hA c 7).trans (V_main_arg8 m c)))⟩

/-- From a run to the pipeline's post, the frame claim's post. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => kept_of m dats hA r h c) h

/-! ## The body -/

/-- The output block after the body: its one store covers the block. -/
def outBuf (x : Vec F S4096x128 .f32) (ix : Vec F S4096x3 .i32) (a : Vec F S4x128x256 .bf16) (h : Vec F S4x256 .f32)
    (b : Vec F S4x256x256 .bf16) (g : Vec F S4x256 .f32) (c' : Vec F S4x256x64 .bf16) (l : Vec F S4x64 .f32) : Vec F S4096x64 .f32 :=
  View.canon [⟨rO, blockOut x ix a h b g c' l⟩]

theorem cover_out (p0 : Vec F S4096x64 .f32) (y : S4096x64.Idx) :
    ∃ pc ∈ ([⟨rO, p0⟩] : List (View.Piece (Elt F) S4096x64 .f32)), y ∈ pc.1.set :=
  View.cover_of_tiled [⟨rO, p0⟩] S4096x64.size (by rfl) y

set_option maxHeartbeats 4000000 in
/-- The body on whole staging buffers — the inputs' at contents `x … l`, the output's at anything — runs to the end, leaves
    the inputs' as they were and the output's at `outBuf` of them. -/
theorem sound_kernel (c : Dev nD) (E : Set ℕ) (i : grid0.Coords)
    (arg1 : Memref sig .tc .vmem S4096x128 .f32) (harg1 : arg1.IsWhole) (arg2 : Memref sig .tc .vmem S4096x3 .i32) (harg2 : arg2.IsWhole)
    (arg3 : Memref sig .tc .vmem S4x128x256 .bf16) (harg3 : arg3.IsWhole) (arg4 : Memref sig .tc .vmem S4x256 .f32) (harg4 : arg4.IsWhole)
    (arg5 : Memref sig .tc .vmem S4x256x256 .bf16) (harg5 : arg5.IsWhole) (arg6 : Memref sig .tc .vmem S4x256 .f32) (harg6 : arg6.IsWhole)
    (arg7 : Memref sig .tc .vmem S4x256x64 .bf16) (harg7 : arg7.IsWhole) (arg8 : Memref sig .tc .vmem S4x64 .f32) (harg8 : arg8.IsWhole)
    (arg9 : Memref sig .tc .vmem S4096x64 .f32) (harg9 : arg9.IsWhole)
    (x : Vec F S4096x128 .f32) (ix : Vec F S4096x3 .i32) (a : Vec F S4x128x256 .bf16) (h : Vec F S4x256 .f32)
    (b : Vec F S4x256x256 .bf16) (g : Vec F S4x256 .f32) (c' : Vec F S4x256x64 .bf16) (l : Vec F S4x64 .f32) (K : PUnit → sProp 𝕄) :
    iprop(owns (c : Thread nD τ) arg1 fullShare x ∗ owns (c : Thread nD τ) arg2 fullShare ix ∗ owns (c : Thread nD τ) arg3 fullShare a
        ∗ owns (c : Thread nD τ) arg4 fullShare h ∗ owns (c : Thread nD τ) arg5 fullShare b ∗ owns (c : Thread nD τ) arg6 fullShare g
        ∗ owns (c : Thread nD τ) arg7 fullShare c' ∗ owns (c : Thread nD τ) arg8 fullShare l ∗ (∃ d, owns (c : Thread nD τ) arg9 fullShare d)
        ∗ (iprop(owns (c : Thread nD τ) arg1 fullShare x ∗ owns (c : Thread nD τ) arg2 fullShare ix ∗ owns (c : Thread nD τ) arg3 fullShare a
            ∗ owns (c : Thread nD τ) arg4 fullShare h ∗ owns (c : Thread nD τ) arg5 fullShare b ∗ owns (c : Thread nD τ) arg6 fullShare g
            ∗ owns (c : Thread nD τ) arg7 fullShare c' ∗ owns (c : Thread nD τ) arg8 fullShare l
            ∗ owns (c : Thread nD τ) arg9 fullShare (outBuf x ix a h b g c' l)) -∗ K ⟨⟩))
      ⊢ wp frame (wpE (defs₀ (F := F)) Variants.none c none) E
          (cc0__mlp_kernel i arg1 harg1 arg2 harg2 arg3 harg3 arg4 harg4 arg5 harg5 arg6 harg6 arg7 harg7 arg8 harg8 arg9 harg9) K := by
  simp only [cc0__mlp_kernel_eq_skeleton]; unfold cc0__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  exact View.read_writes_eq_canon _ _ _ (cover_out _)

/-! ## The pipeline's proof data -/

/-- After the body at point `t`: each input's buffer at its block, the output's at `outBuf` of the input blocks; the arrays
    as the region finds them; nothing owed, full shares, the region's standing invariant. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => outBuf (iblk m c 0 t) (iblk m c 1 t) (iblk m c 2 t) (iblk m c 3 t) (iblk m c 4 t) (iblk m c 5 t) (iblk m c 6 t) (iblk m c 7 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = outBuf (iblk m c 0 t) (iblk m c 1 t) (iblk m c 2 t) (iblk m c 3 t) (iblk m c 4 t) (iblk m c 5 t) (iblk m c 6 t) (iblk m c 7 t) := by dsimp only [dats]

theorem before_0 (c : Dev nD) (t : Fin cfg0.N) (d) : (dats m 0 c).before 0 t d = iblk m c 0 t :=
  before_0_of m (dats m 0 c) (A_eq m c 0) (after_0 m c) t d
theorem before_1 (c : Dev nD) (t : Fin cfg0.N) (d) : (dats m 0 c).before 1 t d = iblk m c 1 t :=
  before_1_of m (dats m 0 c) (A_eq m c 1) (after_1 m c) t d
theorem before_2 (c : Dev nD) (t : Fin cfg0.N) (d) : (dats m 0 c).before 2 t d = iblk m c 2 t :=
  before_2_of m (dats m 0 c) (A_eq m c 2) (after_2 m c) t d
theorem before_3 (c : Dev nD) (t : Fin cfg0.N) (d) : (dats m 0 c).before 3 t d = iblk m c 3 t :=
  before_3_of m (dats m 0 c) (A_eq m c 3) (after_3 m c) t d
theorem before_4 (c : Dev nD) (t : Fin cfg0.N) (d) : (dats m 0 c).before 4 t d = iblk m c 4 t :=
  before_4_of m (dats m 0 c) (A_eq m c 4) (after_4 m c) t d
theorem before_5 (c : Dev nD) (t : Fin cfg0.N) (d) : (dats m 0 c).before 5 t d = iblk m c 5 t :=
  before_5_of m (dats m 0 c) (A_eq m c 5) (after_5 m c) t d
theorem before_6 (c : Dev nD) (t : Fin cfg0.N) (d) : (dats m 0 c).before 6 t d = iblk m c 6 t :=
  before_6_of m (dats m 0 c) (A_eq m c 6) (after_6 m c) t d
theorem before_7 (c : Dev nD) (t : Fin cfg0.N) (d) : (dats m 0 c).before 7 t d = iblk m c 7 t :=
  before_7_of m (dats m 0 c) (A_eq m c 7) (after_7 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t))

/-- The body at any point: the inputs' buffers hold their blocks, so the body's triple applies; the invariant and the
    core's debts pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel c Set.univ (grid0.coords t) _ _ _ _ _ _ _ _ _ _ _ _ _ _ _ _ _ _ (iblk m c 0 t) (iblk m c 1 t) (iblk m c 2 t) (iblk m c 3 t) (iblk m c 4 t) (iblk m c 5 t) (iblk m c 6 t) (iblk m c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- Every weakly fair execution of @main terminates without a fault; every array of the pipeline ends at what the pipeline
    computes from the proof data, every other buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the program runs to the end and its nine arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of m ρ (dats m) (A_eq m) (run_main m ρ)

end Cert.KernelIdeal.Region

end
-- ==== Proof.KILayout.lean ====
/-
  Reading the kernel's layout and contraction steps at an index.

  Each lemma says what one step of the body leaves at one position, written with coordinates: a position of a unit-stride rectangle is the block's shifted
  position; a column kept as a unit axis and spread over the columns
  reads the row's one entry; the product of an m×k by a k×n matrix accumulated into zeros is the plain sum over the
  contracted coordinate.
-/
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Layout

open Idealize.ShloMosaic Idealize.ShloMosaic.ValueIdx

variable {α : Type}

/-! ## A block read through a unit-stride rectangle -/

/-- Position `(a, b)` of the unit-stride rectangle at offsets `(o0, o1)` of a matrix is the matrix's position
    `(o0 + a, o1 + b)`: a load through the rectangle reads the matrix there. -/
theorem idx_unit2 {n0 n1 m0 m1 : ℕ} (off : Fin 2 → ℕ)
    (inb : ∀ a, off a + (![m0, m1] : Fin 2 → ℕ) a ≤ (⟨2, ![n0, n1]⟩ : Shape).size a)
    (a : Fin m0) (b : Fin m1) (a' : Fin n0) (b' : Fin n1) (ha : a'.val = off 0 + a.val) (hb : b'.val = off 1 + b.val) :
    (Rect.unit (s := ⟨2, ![n0, n1]⟩) off ![m0, m1] inb).idx (ix2 a b) = ix2 a' b' := by
  refine funext fun ax => Fin.ext ?_
  match ax with
  | ⟨0, _⟩ =>
    show off 0 + 1 * a.val = a'.val
    rw [Nat.one_mul, ha]
  | ⟨1, _⟩ =>
    show off 1 + 1 * b.val = b'.val
    rw [Nat.one_mul, hb]

/-- The same for a stack of matrices. -/
theorem idx_unit3 {n0 n1 n2 m0 m1 m2 : ℕ} (off : Fin 3 → ℕ)
    (inb : ∀ a, off a + (![m0, m1, m2] : Fin 3 → ℕ) a ≤ (⟨3, ![n0, n1, n2]⟩ : Shape).size a)
    (a : Fin m0) (b : Fin m1) (c : Fin m2) (a' : Fin n0) (b' : Fin n1) (c' : Fin n2)
    (ha : a'.val = off 0 + a.val) (hb : b'.val = off 1 + b.val) (hc : c'.val = off 2 + c.val) :
    (Rect.unit (s := ⟨3, ![n0, n1, n2]⟩) off ![m0, m1, m2] inb).idx (ix3 a b c) = ix3 a' b' c' := by
  refine funext fun ax => Fin.ext ?_
  match ax with
  | ⟨0, _⟩ =>
    show off 0 + 1 * a.val = a'.val
    rw [Nat.one_mul, ha]
  | ⟨1, _⟩ =>
    show off 1 + 1 * b.val = b'.val
    rw [Nat.one_mul, hb]
  | ⟨2, _⟩ =>
    show off 2 + 1 * c.val = c'.val
    rw [Nat.one_mul, hc]

/-! ## One column spread over many -/

/-- An `[a, 1]` array broadcast to `[a, b]` reads, at `(p, c)`, the operand's row `p` at its one column. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A bias row `[1, b]` squeezed to `[b]`, given its unit axis back and spread over `a` rows reads, at `(p, c)`, the
    row's entry `c`. -/
theorem bias_apply {a b : ℕ} (v : (⟨2, ![1, b]⟩ : Shape).Idx → α) (h₁ : (⟨2, ![1, b]⟩ : Shape).ShapeCasts ⟨1, ![b]⟩)
    (h₂ : (⟨1, ![b]⟩ : Shape).ShapeCasts ⟨2, ![1, b]⟩) (h₃ : (⟨2, ![1, b]⟩ : Shape).Broadcasts ⟨2, ![a, b]⟩)
    (p : Fin a) (c : Fin b) :
    broadcastTo ⟨2, ![a, b]⟩ (shapeCast ⟨2, ![1, b]⟩ (shapeCast ⟨1, ![b]⟩ v h₁) h₂) h₃ (ix2 p c) = v (ix2 (0 : Fin 1) c) :=
  (broadcastTo_1b_ab_apply _ h₃ p c).trans ((shapeCast_a_1a_apply _ h₂ 0 c).trans (shapeCast_1a_a_apply v h₁ c))

/-! ## The contraction -/

/-- The product of an `m×k` by a `k×n` matrix accumulated into the zero splat reads, at `(a, b)`, the sum over the
    contracted coordinate of the products of the entries. At the ideal values. -/
theorem matmul_zero_apply {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    matmul (⟨[1], [0], [0], [1], [], [], w⟩ : DotDims _ _ _) prec A B (constant ⟨2, ![m, n]⟩ .f32 0x00000000#32) (ix2 a b)
      = ∑ c : Fin k, A (ix2 a c) * B (ix2 c b) := by
  show FloatOps.matmul _ prec A B _ (ix2 a b) = _
  rw [Ideal.matmul_constant_zero_apply,
    ← Equiv.sum_comp (contrEquiv1 (⟨[1], [0], [0], [1], [], [], w⟩ : DotDims _ _ _) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

end Cert.KernelIdeal.Layout

end
-- ==== Proof.RowSpec.lean ====
/-
  One row of the routed three-layer network, on the extended reals.

  A row `x` of 128 inputs carries three routing words `w₀ w₁ w₂`, one per layer. Layer `ℓ` applies to the row every one of
  its four affine maps `y ↦ y · W c + b c` and adds them up, each weighted by the gate of its copy: one when the row's
  word for that layer equals `c`, zero otherwise. The first two layers are followed by `tanh`. Nothing here mentions a
  program: both programs' results are shown to be this function of a row, and so equal.
-/
import Idealize.ShloMosaic.PureOps.Ideal
import Idealize.ShloMosaic.Lib.ValueIdx

noncomputable section

open scoped BigOperators

namespace Cert.RowSpec

open Idealize.ShloMosaic Idealize.ShloMosaic.ValueIdx

/-- The gate of copy `c` on a row whose routing word is `w`: the one-bit answer of `w = c`, read as a number (0 or 1). -/
def gate (w c : BitVec 32) : EReal := (((IntOp.cmpi .eq w c).toNat : ℝ) : EReal)

/-- One affine map at one output column: `∑ₖ x k · W k + b`. -/
def affine {K : ℕ} (x : Fin K → EReal) (W : Fin K → EReal) (b : EReal) : EReal := (∑ k : Fin K, x k * W k) + b

/-- The accumulator's starting value, the word of `+0.0` read at the ideal instance. -/
def zero : EReal := Ideal.ofBits .f32 0x00000000#32

/-- One routed layer at one output column: the four gated affine maps added to the starting value, copy 0 first. -/
def routed {K : ℕ} (w : BitVec 32) (x : Fin K → EReal) (W : Fin 4 → Fin K → EReal) (b : Fin 4 → EReal) : EReal :=
  (((zero + gate w 0#32 * affine x (W 0) (b 0)) + gate w 1#32 * affine x (W 1) (b 1))
    + gate w 2#32 * affine x (W 2) (b 2)) + gate w 3#32 * affine x (W 3) (b 3)

/-- A weight tensor `[4, K, M]` as the four matrices' columns, and a bias `[4, M]` as the four biases' entries. -/
abbrev col {K M : ℕ} (W : (⟨3, ![4, K, M]⟩ : Shape).Idx → EReal) (j : Fin M) : Fin 4 → Fin K → EReal :=
  fun c k => W (ix3 c k j)
abbrev ent {M : ℕ} (B : (⟨2, ![4, M]⟩ : Shape).Idx → EReal) (j : Fin M) : Fin 4 → EReal := fun c => B (ix2 c j)

/-- The first hidden row: `tanh` of layer 0. -/
def hid0 (x : Fin 128 → EReal) (w0 : BitVec 32) (W0 : (⟨3, ![4, 128, 256]⟩ : Shape).Idx → EReal)
    (B0 : (⟨2, ![4, 256]⟩ : Shape).Idx → EReal) (j : Fin 256) : EReal :=
  Ideal.tanh (routed w0 x (col W0 j) (ent B0 j))

/-- The second hidden row: `tanh` of layer 1 of the first. -/
def hid1 (x : Fin 128 → EReal) (w0 w1 : BitVec 32) (W0 : (⟨3, ![4, 128, 256]⟩ : Shape).Idx → EReal)
    (B0 : (⟨2, ![4, 256]⟩ : Shape).Idx → EReal) (W1 : (⟨3, ![4, 256, 256]⟩ : Shape).Idx → EReal)
    (B1 : (⟨2, ![4, 256]⟩ : Shape).Idx → EReal) (j : Fin 256) : EReal :=
  Ideal.tanh (routed w1 (hid0 x w0 W0 B0) (col W1 j) (ent B1 j))

/-- The output row: layer 2 of the second hidden row, no `tanh`. -/
def out (x : Fin 128 → EReal) (w0 w1 w2 : BitVec 32) (W0 : (⟨3, ![4, 128, 256]⟩ : Shape).Idx → EReal)
    (B0 : (⟨2, ![4, 256]⟩ : Shape).Idx → EReal) (W1 : (⟨3, ![4, 256, 256]⟩ : Shape).Idx → EReal)
    (B1 : (⟨2, ![4, 256]⟩ : Shape).Idx → EReal) (W2 : (⟨3, ![4, 256, 64]⟩ : Shape).Idx → EReal)
    (B2 : (⟨2, ![4, 64]⟩ : Shape).Idx → EReal) (j : Fin 64) : EReal :=
  routed w2 (hid1 x w0 w1 W0 B0 W1 B1) (col W2 j) (ent B2 j)

/-- A one-bit word widened to 32 bits and read signed is the bit read unsigned: both are 0 or 1. -/
theorem toInt_setWidth_bit (b : BitVec 1) : (((b.setWidth 32).toInt : ℝ) : EReal) = ((b.toNat : ℝ) : EReal) := by
  rcases BitVec.eq_zero_or_eq_one b with h | h <;> subst h <;> simp

end Cert.RowSpec

end
-- ==== Proof.KICopy.lean ====
/-
  One copy's term of a routed layer, read at one position.

  A layer adds, for each of its four copies, the mask of the copy (the routing column compared with the copy's number,
  spread over the output columns) times the row block's product with the copy's matrix plus the copy's bias. At row
  `r` and column `j` that term is the gate of the copy on the row's routing word times the affine map of the row.
-/
import proofs.«105043_j11570641896173_1_alg».proof.Proof.KILayout
import proofs.«105043_j11570641896173_1_alg».proof.Proof.RowSpec

noncomputable section

open scoped BigOperators

namespace Cert.KernelIdeal.Copy

open Idealize.ShloMosaic Idealize.ShloMosaic.ValueIdx Cert.KernelIdeal.Layout

/-- The mask of copy `c` at row `p`: the row's routing word compared with `c`, the one-bit answer widened and read as
    a number, is the gate of copy `c` on that word. -/
theorem gate_apply {n : ℕ} (wd : IVec ⟨2, ![n, 1]⟩ 32) (c : BitVec 32) (h : 1 < 32) (p : Fin n) :
    (sitofp .f32 (extui 32 (cmpi .eq wd (broadcast ⟨2, ![n, 1]⟩ c)) h) : FVec Ideal ⟨2, ![n, 1]⟩ .f32) (ix2 p (0 : Fin 1))
      = Cert.RowSpec.gate (wd (ix2 p (0 : Fin 1))) c :=
  Cert.RowSpec.toInt_setWidth_bit _

/-- One copy's term of a routed layer at `(r, j)`: a mask column `G` spread over the columns times (the row block
    times a matrix `R`, plus a bias row spread over the rows) is the mask at row `r` times the affine map of row `r`. -/
theorem copy_apply {n K M : ℕ} {φ₁ φ₂ : FTy}
    (d : DotDims ⟨2, ![n, K]⟩ ⟨2, ![K, M]⟩ ⟨2, ![n, M]⟩)
    (w : DotDims.WF ⟨2, ![n, K]⟩ ⟨2, ![K, M]⟩ ⟨2, ![n, M]⟩ [1] [0] [0] [1] [] [])
    (hd : d = ⟨[1], [0], [0], [1], [], [], w⟩)
    (lhs : FVec Ideal ⟨2, ![n, K]⟩ φ₁) (G : FVec Ideal ⟨2, ![n, 1]⟩ .f32)
    (R : FVec Ideal ⟨2, ![K, M]⟩ φ₂) (B : FVec Ideal ⟨2, ![1, M]⟩ .f32)
    (h4 : (⟨2, ![1, M]⟩ : Shape).Broadcasts ⟨2, ![n, M]⟩) (h5 : (⟨2, ![n, 1]⟩ : Shape).Broadcasts ⟨2, ![n, M]⟩)
    (r : Fin n) (j : Fin M) :
    mulf (broadcastTo ⟨2, ![n, M]⟩ G h5)
        (addf (matmul d none lhs R (constant ⟨2, ![n, M]⟩ .f32 0x00000000#32)) (broadcastTo ⟨2, ![n, M]⟩ B h4)) (ix2 r j)
      = G (ix2 r (0 : Fin 1))
          * Cert.RowSpec.affine (fun k => lhs (ix2 r k)) (fun k => R (ix2 k j)) (B (ix2 (0 : Fin 1) j)) := by
  subst hd
  rw [mulf_apply, addf_apply, broadcastTo_a1_ab_apply, matmul_zero_apply, broadcastTo_1b_ab_apply]
  rfl

end Cert.KernelIdeal.Copy

end
-- ==== Proof.KISteps.lean ====
/-
  The kernel body's loads and named arithmetic steps, each read at one position of its result.

  A position of a literal rectangle is the block's shifted position, so a load through it reads the block there. Each arithmetic step adds some copies'
  terms of one routed layer to what was accumulated before (and, at a layer's end, applies `tanh`): at row `r` and
  column `j` a copy's term is its gate on the row's routing word times its affine map of the row.
-/
import proofs.«105043_j11570641896173_1_alg».proof.Proof.KIBodyTerm
import proofs.«105043_j11570641896173_1_alg».proof.Proof.KICopy

noncomputable section

open scoped BigOperators

namespace Cert.KernelIdeal.Steps

open Idealize.ShloMosaic Idealize.ShloMosaic.ValueIdx Idealize.ShloMosaic.TcCoe Cert.KernelIdeal Cert.KernelIdeal.Gen
open Cert.KernelIdeal.Layout Cert.KernelIdeal.Copy Cert.RowSpec

/-! ## The loads: each rectangle's positions, by coordinates -/

theorem idx_rX (r : Fin 4096) (k : Fin 128) : Body.rX.idx (ix2 r k) = ix2 r k :=
  idx_unit2 _ _ r k r k (Nat.zero_add _).symm (Nat.zero_add _).symm
theorem idx_rI0 (r : Fin 4096) : Body.rI0.idx (ix2 r (0 : Fin 1)) = ix2 r (0 : Fin 3) :=
  idx_unit2 _ _ r 0 r 0 (Nat.zero_add _).symm rfl
theorem idx_rI1 (r : Fin 4096) : Body.rI1.idx (ix2 r (0 : Fin 1)) = ix2 r (1 : Fin 3) :=
  idx_unit2 _ _ r 0 r 1 (Nat.zero_add _).symm rfl
theorem idx_rI2 (r : Fin 4096) : Body.rI2.idx (ix2 r (0 : Fin 1)) = ix2 r (2 : Fin 3) :=
  idx_unit2 _ _ r 0 r 2 (Nat.zero_add _).symm rfl
theorem idx_rA0 (k : Fin 128) (j : Fin 256) : Body.rA0.idx (ix3 (0 : Fin 1) k j) = ix3 (0 : Fin 4) k j :=
  idx_unit3 _ _ 0 k j 0 k j rfl (Nat.zero_add _).symm (Nat.zero_add _).symm
theorem idx_rA1 (k : Fin 128) (j : Fin 256) : Body.rA1.idx (ix3 (0 : Fin 1) k j) = ix3 (1 : Fin 4) k j :=
  idx_unit3 _ _ 0 k j 1 k j rfl (Nat.zero_add _).symm (Nat.zero_add _).symm
theorem idx_rA2 (k : Fin 128) (j : Fin 256) : Body.rA2.idx (ix3 (0 : Fin 1) k j) = ix3 (2 : Fin 4) k j :=
  idx_unit3 _ _ 0 k j 2 k j rfl (Nat.zero_add _).symm (Nat.zero_add _).symm
theorem idx_rA3 (k : Fin 128) (j : Fin 256) : Body.rA3.idx (ix3 (0 : Fin 1) k j) = ix3 (3 : Fin 4) k j :=
  idx_unit3 _ _ 0 k j 3 k j rfl (Nat.zero_add _).symm (Nat.zero_add _).symm
theorem idx_rB0 (k : Fin 256) (j : Fin 256) : Body.rB0.idx (ix3 (0 : Fin 1) k j) = ix3 (0 : Fin 4) k j :=
  idx_unit3 _ _ 0 k j 0 k j rfl (Nat.zero_add _).symm (Nat.zero_add _).symm
theorem idx_rB1 (k : Fin 256) (j : Fin 256) : Body.rB1.idx (ix3 (0 : Fin 1) k j) = ix3 (1 : Fin 4) k j :=
  idx_unit3 _ _ 0 k j 1 k j rfl (Nat.zero_add _).symm (Nat.zero_add _).symm
theorem idx_rB2 (k : Fin 256) (j : Fin 256) : Body.rB2.idx (ix3 (0 : Fin 1) k j) = ix3 (2 : Fin 4) k j :=
  idx_unit3 _ _ 0 k j 2 k j rfl (Nat.zero_add _).symm (Nat.zero_add _).symm
theorem idx_rB3 (k : Fin 256) (j : Fin 256) : Body.rB3.idx (ix3 (0 : Fin 1) k j) = ix3 (3 : Fin 4) k j :=
  idx_unit3 _ _ 0 k j 3 k j rfl (Nat.zero_add _).symm (Nat.zero_add _).symm
theorem idx_rC0 (k : Fin 256) (j : Fin 64) : Body.rC0.idx (ix3 (0 : Fin 1) k j) = ix3 (0 : Fin 4) k j :=
  idx_unit3 _ _ 0 k j 0 k j rfl (Nat.zero_add _).symm (Nat.zero_add _).symm
theorem idx_rC1 (k : Fin 256) (j : Fin 64) : Body.rC1.idx (ix3 (0 : Fin 1) k j) = ix3 (1 : Fin 4) k j :=
  idx_unit3 _ _ 0 k j 1 k j rfl (Nat.zero_add _).symm (Nat.zero_add _).symm
theorem idx_rC2 (k : Fin 256) (j : Fin 64) : Body.rC2.idx (ix3 (0 : Fin 1) k j) = ix3 (2 : Fin 4) k j :=
  idx_unit3 _ _ 0 k j 2 k j rfl (Nat.zero_add _).symm (Nat.zero_add _).symm
theorem idx_rC3 (k : Fin 256) (j : Fin 64) : Body.rC3.idx (ix3 (0 : Fin 1) k j) = ix3 (3 : Fin 4) k j :=
  idx_unit3 _ _ 0 k j 3 k j rfl (Nat.zero_add _).symm (Nat.zero_add _).symm
theorem idx_rH0 (j : Fin 256) : Body.rH0.idx (ix2 (0 : Fin 1) j) = ix2 (0 : Fin 4) j :=
  idx_unit2 _ _ 0 j 0 j rfl (Nat.zero_add _).symm
theorem idx_rH1 (j : Fin 256) : Body.rH1.idx (ix2 (0 : Fin 1) j) = ix2 (1 : Fin 4) j :=
  idx_unit2 _ _ 0 j 1 j rfl (Nat.zero_add _).symm
theorem idx_rH2 (j : Fin 256) : Body.rH2.idx (ix2 (0 : Fin 1) j) = ix2 (2 : Fin 4) j :=
  idx_unit2 _ _ 0 j 2 j rfl (Nat.zero_add _).symm
theorem idx_rH3 (j : Fin 256) : Body.rH3.idx (ix2 (0 : Fin 1) j) = ix2 (3 : Fin 4) j :=
  idx_unit2 _ _ 0 j 3 j rfl (Nat.zero_add _).symm
theorem idx_rL0 (j : Fin 64) : Body.rL0.idx (ix2 (0 : Fin 1) j) = ix2 (0 : Fin 4) j :=
  idx_unit2 _ _ 0 j 0 j rfl (Nat.zero_add _).symm
theorem idx_rL1 (j : Fin 64) : Body.rL1.idx (ix2 (0 : Fin 1) j) = ix2 (1 : Fin 4) j :=
  idx_unit2 _ _ 0 j 1 j rfl (Nat.zero_add _).symm
theorem idx_rL2 (j : Fin 64) : Body.rL2.idx (ix2 (0 : Fin 1) j) = ix2 (2 : Fin 4) j :=
  idx_unit2 _ _ 0 j 2 j rfl (Nat.zero_add _).symm
theorem idx_rL3 (j : Fin 64) : Body.rL3.idx (ix2 (0 : Fin 1) j) = ix2 (3 : Fin 4) j :=
  idx_unit2 _ _ 0 j 3 j rfl (Nat.zero_add _).symm

/-! ## The body's named arithmetic steps, at one position -/

local notation "dA" => dot_S4096x128_S128x256_S4096x256_1_0_0_1_n_n
local notation "dB" => dot_S4096x256_S256x256_S4096x256_1_0_0_1_n_n
local notation "dC" => dot_S4096x256_S256x64_S4096x64_1_0_0_1_n_n

/-- `tanh` of a block reads, at a position, the `tanh` of the block's entry. -/
theorem tanh_apply {s : Shape} {φ : FTy} (x : FVec Ideal s φ) (i : s.Idx) :
    Idealize.ShloMosaic.tanh x i = Ideal.tanh (x i) := rfl

/-- Layer 0's first two copies added to the starting value. -/
theorem pay4_apply (v0 : Vec Ideal S4096x128 .f32) (v2 : Vec Ideal S4096x1 .i32) (v5 : Vec Ideal S1x128x256 .bf16)
    (v7 : Vec Ideal S1x256 .f32) (v20 : Vec Ideal S1x128x256 .bf16) (v22 : Vec Ideal S1x256 .f32) (r : Fin 4096) (j : Fin 256) :
    k0_pay4 v0 v2 v5 v7 v20 v22 (ix2 r j)
      = (zero + gate (v2 (ix2 r 0)) 0#32 * affine (fun k => v0 (ix2 r k)) (fun k => v5 (ix3 0 k j)) (v7 (ix2 0 j)))
        + gate (v2 (ix2 r 0)) 1#32 * affine (fun k => v0 (ix2 r k)) (fun k => v20 (ix3 0 k j)) (v22 (ix2 0 j)) := by
  simp only [k0_pay4, k0_pay3, k0_pay2, shapeCast_self, addf_apply]
  rw [copy_apply dA _ rfl, copy_apply dA _ rfl]
  simp only [gate_apply, shapeCast_1ab_ab_apply, shapeCast_a_1a_apply, shapeCast_1a_a_apply]
  rfl

/-- Layer 0's last two copies added to the first two, then `tanh`. -/
theorem pay6_apply (v1 : FVec Ideal S4096x128 .bf16) (v3 : IVec S4096x1 32) (v34 : FVec Ideal S4096x256 .f32)
    (v36 : FVec Ideal S128x256 .bf16) (v37 : Vec Ideal S1x256 .f32) (v50 : Vec Ideal S1x128x256 .bf16)
    (v52 : Vec Ideal S1x256 .f32) (r : Fin 4096) (j : Fin 256) :
    k0_pay6 v1 v3 v34 v36 v37 v50 v52 (ix2 r j)
      = Ideal.tanh ((v34 (ix2 r j)
          + gate (v3 (ix2 r 0)) 2#32 * affine (fun k => v1 (ix2 r k)) (fun k => v36 (ix2 k j)) (v37 (ix2 0 j)))
          + gate (v3 (ix2 r 0)) 3#32 * affine (fun k => v1 (ix2 r k)) (fun k => v50 (ix3 0 k j)) (v52 (ix2 0 j))) := by
  simp only [k0_pay6, truncf_apply, tanh_apply, addf_apply]
  rw [copy_apply dA _ rfl, copy_apply dA _ rfl]
  simp only [gate_apply, shapeCast_1ab_ab_apply, shapeCast_a_1a_apply, shapeCast_1a_a_apply]

/-- Layer 1's first three copies added to the starting block. -/
theorem pay12_apply (v66 : FVec Ideal S4096x256 .bf16) (v68 : IVec S4096x1 32) (v69 : FVec Ideal S4096x256 .f32)
    (v71 : FVec Ideal S256x256 .bf16) (v73 : FVec Ideal S256 .f32) (v76 : IVec S4096x1 32)
    (v85 : Vec Ideal S1x256x256 .bf16) (v87 : Vec Ideal S1x256 .f32) (v100 : Vec Ideal S1x256x256 .bf16)
    (v102 : Vec Ideal S1x256 .f32) (r : Fin 4096) (j : Fin 256) :
    k0_pay12 v66 v68 v69 v71 v73 v76 v85 v87 v100 v102 (ix2 r j)
      = ((v69 (ix2 r j)
          + (sitofp .f32 v76 : FVec Ideal S4096x1 .f32) (ix2 r 0)
              * affine (fun k => v66 (ix2 r k)) (fun k => v71 (ix2 k j)) (v73 (ix1 j)))
          + gate (v68 (ix2 r 0)) 1#32 * affine (fun k => v66 (ix2 r k)) (fun k => v85 (ix3 0 k j)) (v87 (ix2 0 j)))
          + gate (v68 (ix2 r 0)) 2#32 * affine (fun k => v66 (ix2 r k)) (fun k => v100 (ix3 0 k j)) (v102 (ix2 0 j)) := by
  simp only [k0_pay12, addf_apply]
  rw [copy_apply dB _ rfl, copy_apply dB _ rfl, copy_apply dB _ rfl]
  simp only [gate_apply, shapeCast_1ab_ab_apply, shapeCast_a_1a_apply, shapeCast_1a_a_apply]

/-- Layer 1's last copy added to the first three, then `tanh`. -/
theorem pay14_apply (v66 : FVec Ideal S4096x256 .bf16) (v68 : IVec S4096x1 32) (v114 : FVec Ideal S4096x256 .f32)
    (v116 : FVec Ideal S256x256 .bf16) (v117 : Vec Ideal S1x256 .f32) (r : Fin 4096) (j : Fin 256) :
    k0_pay14 v66 v68 v114 v116 v117 (ix2 r j)
      = Ideal.tanh (v114 (ix2 r j)
          + gate (v68 (ix2 r 0)) 3#32 * affine (fun k => v66 (ix2 r k)) (fun k => v116 (ix2 k j)) (v117 (ix2 0 j))) := by
  simp only [k0_pay14, truncf_apply, tanh_apply, addf_apply]
  rw [copy_apply dB _ rfl]
  simp only [gate_apply, shapeCast_1ab_ab_apply, shapeCast_a_1a_apply, shapeCast_1a_a_apply]

/-- Layer 2's first copy, on the second hidden block, added to the starting value. -/
theorem pay16_apply (v66 : FVec Ideal S4096x256 .bf16) (v68 : IVec S4096x1 32) (v114 : FVec Ideal S4096x256 .f32)
    (v116 : FVec Ideal S256x256 .bf16) (v117 : Vec Ideal S1x256 .f32) (v132 : Vec Ideal S4096x1 .i32)
    (v135 : Vec Ideal S1x256x64 .bf16) (v137 : Vec Ideal S1x64 .f32) (r : Fin 4096) (j : Fin 64) :
    k0_pay16 v66 v68 v114 v116 v117 v132 v135 v137 (ix2 r j)
      = zero + gate (v132 (ix2 r 0)) 0#32
          * affine (fun k => k0_pay14 v66 v68 v114 v116 v117 (ix2 r k)) (fun k => v135 (ix3 0 k j)) (v137 (ix2 0 j)) := by
  simp only [k0_pay16, k0_pay15, shapeCast_self, addf_apply]
  rw [copy_apply dC _ rfl]
  simp only [gate_apply, shapeCast_1ab_ab_apply, shapeCast_a_1a_apply, shapeCast_1a_a_apply]
  rfl

/-- Layer 2's last three copies added to the first. -/
theorem pay1_apply (v131 : FVec Ideal S4096x256 .bf16) (v133 : IVec S4096x1 32) (v149 : FVec Ideal S4096x64 .f32)
    (v151 : FVec Ideal S256x64 .bf16) (v153 : FVec Ideal S64 .f32) (v157 : FVec Ideal S4096x1 .f32)
    (v165 : Vec Ideal S1x256x64 .bf16) (v167 : Vec Ideal S1x64 .f32) (v180 : Vec Ideal S1x256x64 .bf16)
    (v182 : Vec Ideal S1x64 .f32) (r : Fin 4096) (j : Fin 64) :
    k0_pay1 v131 v133 v149 v151 v153 v157 (constant S4096x64 .f32 0x00000000#32) v165 v167 v180 v182 (ix2 r j)
      = ((v149 (ix2 r j)
          + v157 (ix2 r 0) * affine (fun k => v131 (ix2 r k)) (fun k => v151 (ix2 k j)) (v153 (ix1 j)))
          + gate (v133 (ix2 r 0)) 2#32 * affine (fun k => v131 (ix2 r k)) (fun k => v165 (ix3 0 k j)) (v167 (ix2 0 j)))
          + gate (v133 (ix2 r 0)) 3#32 * affine (fun k => v131 (ix2 r k)) (fun k => v180 (ix3 0 k j)) (v182 (ix2 0 j)) := by
  simp only [k0_pay1, addf_apply]
  rw [copy_apply dC _ rfl, copy_apply dC _ rfl, copy_apply dC _ rfl]
  simp only [gate_apply, shapeCast_1ab_ab_apply, shapeCast_a_1a_apply, shapeCast_1a_a_apply]

end Cert.KernelIdeal.Steps

end
-- ==== Proof.KIBodyRows.lean ====
/-
  What one grid point of the kernel stores, row by row.

  The body's stored block is the composition of its named arithmetic steps over its loads. Reading each step at one
  position (row `r`, column `j`) and each load at its shifted position turns the composition into the routed
  three-layer network of row `r`: the first hidden row, the second hidden row, and the output row, each a function of
  row `r` of the input block, of its three routing words, and of the weight and bias tensors.
-/
import proofs.«105043_j11570641896173_1_alg».proof.Proof.KISteps

noncomputable section

open scoped BigOperators

namespace Cert.KernelIdeal.BodyRows

open Idealize.ShloMosaic Idealize.ShloMosaic.ValueIdx Idealize.ShloMosaic.TcCoe Cert.KernelIdeal Cert.KernelIdeal.Gen
open Cert.KernelIdeal.Layout Cert.KernelIdeal.Copy Cert.KernelIdeal.Steps Cert.RowSpec

/-- The first hidden block at `(r, j)` is the first hidden row of row `r`, at `j`. -/
theorem hidden0_apply (x : Vec Ideal S4096x128 .f32) (ix : Vec Ideal S4096x3 .i32) (a : Vec Ideal S4x128x256 .bf16)
    (h : Vec Ideal S4x256 .f32) (r : Fin 4096) (j : Fin 256) :
    Body.hidden0 (F := Ideal) x ix a h (ix2 r j) = hid0 (fun k => x (ix2 r k)) (ix (ix2 r 0)) a h j := by
  unfold Body.hidden0
  rw [pay6_apply, pay4_apply]
  simp only [k0_pay2, k0_pay3, k0_pay5, shapeCast_self, truncf_apply, shapeCast_1ab_ab_apply,
    View.ld, idx_rX, idx_rI0, idx_rI1, idx_rI2, idx_rA0, idx_rA1, idx_rA2, idx_rA3, idx_rH0, idx_rH1, idx_rH2, idx_rH3,
    idx_rB0, idx_rB1, idx_rB2, idx_rB3, idx_rC0, idx_rC1, idx_rC2, idx_rC3, idx_rL0, idx_rL1, idx_rL2, idx_rL3]
  rfl

/-- Layer 1's first three copies on the first hidden block, at `(r, j)`. -/
theorem partial1_apply (x : Vec Ideal S4096x128 .f32) (ix : Vec Ideal S4096x3 .i32) (a : Vec Ideal S4x128x256 .bf16)
    (h : Vec Ideal S4x256 .f32) (b : Vec Ideal S4x256x256 .bf16) (g : Vec Ideal S4x256 .f32) (r : Fin 4096) (j : Fin 256) :
    Body.partial1 (F := Ideal) x ix a h b g (ix2 r j)
      = ((zero + gate (ix (ix2 r 1)) 0#32
            * affine (hid0 (fun k => x (ix2 r k)) (ix (ix2 r 0)) a h) (fun k => b (ix3 0 k j)) (g (ix2 0 j)))
          + gate (ix (ix2 r 1)) 1#32
            * affine (hid0 (fun k => x (ix2 r k)) (ix (ix2 r 0)) a h) (fun k => b (ix3 1 k j)) (g (ix2 1 j)))
          + gate (ix (ix2 r 1)) 2#32
            * affine (hid0 (fun k => x (ix2 r k)) (ix (ix2 r 0)) a h) (fun k => b (ix3 2 k j)) (g (ix2 2 j)) := by
  unfold Body.partial1
  rw [pay12_apply]
  simp only [hidden0_apply]
  simp only [k0_pay7, k0_pay8, k0_pay9, k0_pay10, k0_pay11, shapeCast_self, shapeCast_1ab_ab_apply, shapeCast_1a_a_apply,
    gate_apply, broadcast_apply,
    View.ld, idx_rX, idx_rI0, idx_rI1, idx_rI2, idx_rA0, idx_rA1, idx_rA2, idx_rA3, idx_rH0, idx_rH1, idx_rH2, idx_rH3,
    idx_rB0, idx_rB1, idx_rB2, idx_rB3, idx_rC0, idx_rC1, idx_rC2, idx_rC3, idx_rL0, idx_rL1, idx_rL2, idx_rL3]
  rfl

/-- The second hidden block at `(r, j)` is the second hidden row of row `r`, at `j`. -/
theorem hidden1_apply (x : Vec Ideal S4096x128 .f32) (ix : Vec Ideal S4096x3 .i32) (a : Vec Ideal S4x128x256 .bf16)
    (h : Vec Ideal S4x256 .f32) (b : Vec Ideal S4x256x256 .bf16) (g : Vec Ideal S4x256 .f32) (r : Fin 4096) (j : Fin 256) :
    k0_pay14 (Body.hidden0 (F := Ideal) x ix a h) (k0_pay7 (View.ld ix Body.rI1)) (Body.partial1 x ix a h b g)
        (k0_pay13 (View.ld b Body.rB3)) (View.ld g Body.rH3) (ix2 r j)
      = hid1 (fun k => x (ix2 r k)) (ix (ix2 r 0)) (ix (ix2 r 1)) a h b g j := by
  rw [pay14_apply, partial1_apply]
  simp only [hidden0_apply]
  simp only [k0_pay7, k0_pay13, shapeCast_self, shapeCast_1ab_ab_apply,
    View.ld, idx_rX, idx_rI0, idx_rI1, idx_rI2, idx_rA0, idx_rA1, idx_rA2, idx_rA3, idx_rH0, idx_rH1, idx_rH2, idx_rH3,
    idx_rB0, idx_rB1, idx_rB2, idx_rB3, idx_rC0, idx_rC1, idx_rC2, idx_rC3, idx_rL0, idx_rL1, idx_rL2, idx_rL3]
  rfl

/-- The stored block at `(r, j)` is the output row of row `r`, at `j`. -/
theorem blockOut_apply (x : Vec Ideal S4096x128 .f32) (ix : Vec Ideal S4096x3 .i32) (a : Vec Ideal S4x128x256 .bf16)
    (h : Vec Ideal S4x256 .f32) (b : Vec Ideal S4x256x256 .bf16) (g : Vec Ideal S4x256 .f32) (c : Vec Ideal S4x256x64 .bf16)
    (l : Vec Ideal S4x64 .f32) (r : Fin 4096) (j : Fin 64) :
    Body.blockOut (F := Ideal) x ix a h b g c l (ix2 r j)
      = Cert.RowSpec.out (fun k => x (ix2 r k)) (ix (ix2 r 0)) (ix (ix2 r 1)) (ix (ix2 r 2)) a h b g c l j := by
  unfold Body.blockOut
  rw [pay1_apply, pay16_apply]
  simp only [hidden1_apply]
  simp only [k0_pay15, k0_pay17, k0_pay18, k0_pay19, shapeCast_self, shapeCast_1ab_ab_apply, shapeCast_1a_a_apply,
    gate_apply,
    View.ld, idx_rX, idx_rI0, idx_rI1, idx_rI2, idx_rA0, idx_rA1, idx_rA2, idx_rA3, idx_rH0, idx_rH1, idx_rH2, idx_rH3,
    idx_rB0, idx_rB1, idx_rB2, idx_rB3, idx_rC0, idx_rC1, idx_rC2, idx_rC3, idx_rL0, idx_rL1, idx_rL2, idx_rL3]
  rfl

end Cert.KernelIdeal.BodyRows

end
-- ==== Proof.KIArray.lean ====
/-
  From blocks to the whole result array, at the ideal instance.

  Grid point `t` holds rows 4096·t … 4096·t + 4095 of the inputs, of the routing array and of the result, and the weight
  tensors and biases whole. What it writes back is, row by row, the routed network of that row of the arrays the region
  found; the 32 row blocks tile the result array, so the array ends holding the routed network of every row.
-/
import proofs.«105043_j11570641896173_1_alg».proof.Proof.KIRegion
import proofs.«105043_j11570641896173_1_alg».proof.Proof.KIBodyRows
import proofs.«105043_j11570641896173_1_alg».proof.Proof.RowSpec
import Idealize.ShloMosaic.Lib.Pipeline.Value
import Idealize.ShloMosaic.Lib.ValueIdx

set_option maxRecDepth 16384

noncomputable section

namespace Cert.KernelIdeal.Whole

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Region Cert.KernelIdeal.Body

variable (m : (ℓ : Loc nD τ sig) → Buf (Elt Ideal) ℓ) (ρ : Dev nD → PrngReg)

/-- The routed network of every row: the result array as one function of the eight arrays the region finds. -/
def G (X : S131072x128.Idx → EReal) (R : S131072x3.Idx → BitVec 32) (A : S4x128x256.Idx → EReal) (H : S4x256.Idx → EReal)
    (B : S4x256x256.Idx → EReal) (Gb : S4x256.Idx → EReal) (C : S4x256x64.Idx → EReal) (L : S4x64.Idx → EReal) :
    S131072x64.Idx → EReal :=
  fun y => Cert.RowSpec.out (fun k : Fin 128 => X (ix2 (y 0 : Fin 131072) k)) (R (ix2 (y 0 : Fin 131072) (0 : Fin 3)))
    (R (ix2 (y 0 : Fin 131072) (1 : Fin 3))) (R (ix2 (y 0 : Fin 131072) (2 : Fin 3))) A H B Gb C L (y 1 : Fin 64)

/-- The block index of each window at each grid point: the row windows move with the point, the others stay at block 0. -/
theorem idx_rows : ∀ t : Fin cfg0.N, win0_0.index t (0 : Fin 2) = t.val ∧ win0_0.index t (1 : Fin 2) = 0
    ∧ win0_1.index t (0 : Fin 2) = t.val ∧ win0_1.index t (1 : Fin 2) = 0
    ∧ win0_8.index t (0 : Fin 2) = t.val ∧ win0_8.index t (1 : Fin 2) = 0 :=
  (by decide +kernel : ∀ t : Fin grid0.N, _)
theorem idx_whole : ∀ t : Fin cfg0.N, (∀ a : Fin 3, win0_2.index t a = 0) ∧ (∀ a : Fin 2, win0_3.index t a = 0)
    ∧ (∀ a : Fin 3, win0_4.index t a = 0) ∧ (∀ a : Fin 2, win0_5.index t a = 0)
    ∧ (∀ a : Fin 3, win0_6.index t a = 0) ∧ (∀ a : Fin 2, win0_7.index t a = 0) :=
  (by decide +kernel : ∀ t : Fin grid0.N, _)

/-- Row `r` of grid point `t`'s block is row 4096·t + r of the array. -/
def row (t : Fin cfg0.N) (r : Fin 4096) : Fin 131072 :=
  ⟨t.val * 4096 + r.val, by have := t.isLt; have e : cfg0.N = 32 := N_0; have := r.isLt; omega⟩

theorem hz : (![0, 0] : Fin 2 → Nat) = fun _ => 0 := funext fun a => by fin_cases a <;> rfl

/-! ## Each window's block, read at an index -/

theorem blk_x (c : Dev nD) (t : Fin cfg0.N) (r : Fin 4096) (k : Fin 128) :
    iblk m c 0 t (ix2 r k) = V m c main_arg0 (ix2 (row t r) k) := by
  obtain ⟨e0, e1, -⟩ := idx_rows t
  show V m c main_arg0 (((cfg0.win 0).blk t).view.emb (ix2 r k)) = _
  refine congrArg _ (funext fun a => Fin.ext ?_)
  match a with
  | ⟨0, _⟩ => show win0_0.index t (0 : Fin 2) * 4096 + 1 * r.val = t.val * 4096 + r.val; omega
  | ⟨1, _⟩ => show win0_0.index t (1 : Fin 2) * 128 + 1 * k.val = k.val; omega

theorem blk_r (c : Dev nD) (t : Fin cfg0.N) (r : Fin 4096) (l : Fin 3) :
    iblk m c 1 t (ix2 r l) = V m c main_v30 (ix2 (row t r) l) := by
  obtain ⟨-, -, e0, e1, -⟩ := idx_rows t
  show V m c main_v30 (((cfg0.win 1).blk t).view.emb (ix2 r l)) = _
  refine congrArg _ (funext fun a => Fin.ext ?_)
  match a with
  | ⟨0, _⟩ => show win0_1.index t (0 : Fin 2) * 4096 + 1 * r.val = t.val * 4096 + r.val; omega
  | ⟨1, _⟩ => show win0_1.index t (1 : Fin 2) * 3 + 1 * l.val = l.val; omega

theorem blk_a (c : Dev nD) (t : Fin cfg0.N) : (iblk m c 2 t : S4x128x256.Idx → EReal) = V m c main_v31 := by
  obtain ⟨h, -⟩ := idx_whole t
  funext y
  show V m c main_v31 (((cfg0.win 2).blk t).view.emb y) = V m c main_v31 y
  refine congrArg _ (funext fun a => Fin.ext ?_)
  match a with
  | ⟨0, _⟩ => show win0_2.index t (0 : Fin 3) * 4 + 1 * (y 0).val = (y 0).val; have := h 0; omega
  | ⟨1, _⟩ => show win0_2.index t (1 : Fin 3) * 128 + 1 * (y 1).val = (y 1).val; have := h 1; omega
  | ⟨2, _⟩ => show win0_2.index t (2 : Fin 3) * 256 + 1 * (y 2).val = (y 2).val; have := h 2; omega

theorem blk_h (c : Dev nD) (t : Fin cfg0.N) : (iblk m c 3 t : S4x256.Idx → EReal) = V m c main_arg4 := by
  obtain ⟨-, h, -⟩ := idx_whole t
  funext y
  show V m c main_arg4 (((cfg0.win 3).blk t).view.emb y) = V m c main_arg4 y
  refine congrArg _ (funext fun a => Fin.ext ?_)
  match a with
  | ⟨0, _⟩ => show win0_3.index t (0 : Fin 2) * 4 + 1 * (y 0).val = (y 0).val; have := h 0; omega
  | ⟨1, _⟩ => show win0_3.index t (1 : Fin 2) * 256 + 1 * (y 1).val = (y 1).val; have := h 1; omega

theorem blk_b (c : Dev nD) (t : Fin cfg0.N) : (iblk m c 4 t : S4x256x256.Idx → EReal) = V m c main_v32 := by
  obtain ⟨-, -, h, -⟩ := idx_whole t
  funext y
  show V m c main_v32 (((cfg0.win 4).blk t).view.emb y) = V m c main_v32 y
  refine congrArg _ (funext fun a => Fin.ext ?_)
  match a with
  | ⟨0, _⟩ => show win0_4.index t (0 : Fin 3) * 4 + 1 * (y 0).val = (y 0).val; have := h 0; omega
  | ⟨1, _⟩ => show win0_4.index t (1 : Fin 3) * 256 + 1 * (y 1).val = (y 1).val; have := h 1; omega
  | ⟨2, _⟩ => show win0_4.index t (2 : Fin 3) * 256 + 1 * (y 2).val = (y 2).val; have := h 2; omega

theorem blk_g (c : Dev nD) (t : Fin cfg0.N) : (iblk m c 5 t : S4x256.Idx → EReal) = V m c main_arg6 := by
  obtain ⟨-, -, -, h, -⟩ := idx_whole t
  funext y
  show V m c main_arg6 (((cfg0.win 5).blk t).view.emb y) = V m c main_arg6 y
  refine congrArg _ (funext fun a => Fin.ext ?_)
  match a with
  | ⟨0, _⟩ => show win0_5.index t (0 : Fin 2) * 4 + 1 * (y 0).val = (y 0).val; have := h 0; omega
  | ⟨1, _⟩ => show win0_5.index t (1 : Fin 2) * 256 + 1 * (y 1).val = (y 1).val; have := h 1; omega

theorem blk_c (c : Dev nD) (t : Fin cfg0.N) : (iblk m c 6 t : S4x256x64.Idx → EReal) = V m c main_v33 := by
  obtain ⟨-, -, -, -, h, -⟩ := idx_whole t
  funext y
  show V m c main_v33 (((cfg0.win 6).blk t).view.emb y) = V m c main_v33 y
  refine congrArg _ (funext fun a => Fin.ext ?_)
  match a with
  | ⟨0, _⟩ => show win0_6.index t (0 : Fin 3) * 4 + 1 * (y 0).val = (y 0).val; have := h 0; omega
  | ⟨1, _⟩ => show win0_6.index t (1 : Fin 3) * 256 + 1 * (y 1).val = (y 1).val; have := h 1; omega
  | ⟨2, _⟩ => show win0_6.index t (2 : Fin 3) * 64 + 1 * (y 2).val = (y 2).val; have := h 2; omega

theorem blk_l (c : Dev nD) (t : Fin cfg0.N) : (iblk m c 7 t : S4x64.Idx → EReal) = V m c main_arg8 := by
  obtain ⟨-, -, -, -, -, h⟩ := idx_whole t
  funext y
  show V m c main_arg8 (((cfg0.win 7).blk t).view.emb y) = V m c main_arg8 y
  refine congrArg _ (funext fun a => Fin.ext ?_)
  match a with
  | ⟨0, _⟩ => show win0_7.index t (0 : Fin 2) * 4 + 1 * (y 0).val = (y 0).val; have := h 0; omega
  | ⟨1, _⟩ => show win0_7.index t (1 : Fin 2) * 64 + 1 * (y 1).val = (y 1).val; have := h 1; omega

/-- The array index under entry (r, q) of point `t`'s output block. -/
theorem emb_out (t : Fin cfg0.N) (r : Fin 4096) (q : Fin 64) :
    ((cfg0.win 8).blk t).view.emb (ix2 r q) = (ix2 (row t r) q : S131072x64.Idx) := by
  obtain ⟨-, -, -, -, e0, e1⟩ := idx_rows t
  funext a; apply Fin.ext
  match a with
  | ⟨0, _⟩ => show win0_8.index t (0 : Fin 2) * 4096 + 1 * r.val = t.val * 4096 + r.val; omega
  | ⟨1, _⟩ => show win0_8.index t (1 : Fin 2) * 64 + 1 * q.val = q.val; omega

/-! ## What a point writes back, the cover, the array -/

/-- Point `t` writes back block `t` of `G` of the arrays the region finds. -/
theorem flushed_eq (c : Dev nD) (t : Fin cfg0.N) :
    (dats m 0 c).flushed 8 t = ((cfg0.win 8).blk t).view.read (Elt Ideal)
      (G (V m c main_arg0) (V m c main_v30) (V m c main_v31) (V m c main_arg4) (V m c main_v32) (V m c main_arg6) (V m c main_v33) (V m c main_arg8)) := by
  show (cfg0.win 8).cut (grid0.coords t) ((dats m 0 c).after 8 t) = _
  rw [after_8]
  unfold outBuf
  rw [View.canon_unit_zero hz]
  funext j
  obtain ⟨r, q, rfl⟩ : ∃ (r : Fin 4096) (q : Fin 64), j = ix2 r q := ⟨j 0, j 1, eq_ix2 j⟩
  show blockOut (iblk m c 0 t) (iblk m c 1 t) (iblk m c 2 t) (iblk m c 3 t) (iblk m c 4 t) (iblk m c 5 t) (iblk m c 6 t) (iblk m c 7 t) (ix2 r q)
    = G (V m c main_arg0) (V m c main_v30) (V m c main_v31) (V m c main_arg4) (V m c main_v32) (V m c main_arg6) (V m c main_v33) (V m c main_arg8)
        (((cfg0.win 8).blk t).view.emb (ix2 r q))
  rw [emb_out]
  refine (Cert.KernelIdeal.BodyRows.blockOut_apply (iblk m c 0 t) (iblk m c 1 t) (iblk m c 2 t) (iblk m c 3 t) (iblk m c 4 t) (iblk m c 5 t) (iblk m c 6 t) (iblk m c 7 t) r q).trans ?_
  unfold G
  rw [blk_a, blk_h, blk_b, blk_g, blk_c, blk_l, blk_r, blk_r, blk_r]
  simp only [blk_x]

/-- An index of the result array is in point `t`'s block iff its row is in the point's row range. -/
theorem mem_blk (t : Fin cfg0.N) (i : S131072x64.Idx) :
    i ∈ ((cfg0.win 8).blk t).view.set ↔ ∀ a : Fin 2, win0_8.index t a * S4096x64.size a ≤ (i a).val ∧ (i a).val < win0_8.index t a * S4096x64.size a + S4096x64.size a := by
  show i ∈ ((View.whole main_v34).slice (win0_8.rect t)).set ↔ _
  rw [View.set_slice_whole, Rect.mem_set_unit]
  exact Iff.rfl

/-- Every index of the result array is in the block of the point its row falls in. -/
theorem cover (i : S131072x64.Idx) : ∃ t : Fin cfg0.N, (cfg0.win 8).flush t = true ∧ i ∈ ((cfg0.win 8).blk t).view.set := by
  have hi0 : (i 0).val < 131072 := (i 0).isLt
  have hi1 : (i 1).val < 64 := (i 1).isLt
  have e : cfg0.N = 32 := N_0
  let t : Fin cfg0.N := ⟨(i 0).val / 4096, by omega⟩
  obtain ⟨-, -, -, -, e0, e1⟩ := idx_rows t
  have et : t.val = (i 0).val / 4096 := rfl
  refine ⟨t, flush0_8 t, ?_⟩
  rw [mem_blk]
  intro a
  match a with
  | ⟨0, _⟩ => show win0_8.index t (0 : Fin 2) * 4096 ≤ (i 0).val ∧ (i 0).val < win0_8.index t (0 : Fin 2) * 4096 + 4096; omega
  | ⟨1, _⟩ => show win0_8.index t (1 : Fin 2) * 64 ≤ (i 1).val ∧ (i 1).val < win0_8.index t (1 : Fin 2) * 64 + 64; omega

/-- The result array after the run. -/
theorem final (c : Dev nD) : (dats m 0 c).arrAt 8 cfg0.N
    = G (V m c main_arg0) (V m c main_v30) (V m c main_v31) (V m c main_arg4) (V m c main_v32) (V m c main_arg6) (V m c main_v33) (V m c main_arg8) :=
  (dats m 0 c).arrAt_eq_of_cover 8 _ (fun t _ => flushed_eq m c t) cover

end Cert.KernelIdeal.Whole

end
-- ==== Proof.KIRoutes.lean ====
/-
  The three routing vectors as the kernel's host operations compute them: row ℓ of the copy table gathered at the task
  words, a negative word first shifted up by 16.
-/
import proofs.«105043_j11570641896173_1_alg».proof.Proof.Gen.KernelIdeal
import Idealize.ShloMosaic.PureOps.Ideal

noncomputable section

namespace Cert.KernelIdeal.Entry

open Idealize.ShloMosaic Cert.KernelIdeal Cert.KernelIdeal.Gen

/-- The task words as gather indices: a negative word is shifted up by 16, then each word becomes a one-element row. -/
def starts (task : (⟨S131072, .i32⟩ : BufTy).Contents (Elt Ideal)) : (⟨S131072x1, .i32⟩ : BufTy).Contents (Elt Ideal) :=
  broadcastInDim S131072x1 ![0] bcast_S131072_S131072x1_0 (select (cmpi .slt task (broadcastInDim S131072 ![] bcast_S_S131072 (constantI S_ 32 0#32))) (addi task (broadcastInDim S131072 ![] bcast_S_S131072 (constantI S_ 32 16#32))) task)

/-- The three routing vectors: row ℓ of the copy table gathered at the task words. -/
def route0 (cm : (⟨S3x16, .i32⟩ : BufTy).Contents (Elt Ideal)) (task : (⟨S131072, .i32⟩ : BufTy).Contents (Elt Ideal)) : (⟨S131072, .i32⟩ : BufTy).Contents (Elt Ideal) :=
  Host.gather gather_S16_S131072x1_S131072_n_0_n_n_0_1_1 (shapeCast S16 (extractStridedSlice S1x16 ![0, 0] cm slices_S3x16_S1x16_0_0) shapeCasts_S1x16_S16) (starts task)
def route1 (cm : (⟨S3x16, .i32⟩ : BufTy).Contents (Elt Ideal)) (task : (⟨S131072, .i32⟩ : BufTy).Contents (Elt Ideal)) : (⟨S131072, .i32⟩ : BufTy).Contents (Elt Ideal) :=
  Host.gather gather_S16_S131072x1_S131072_n_0_n_n_0_1_1 (shapeCast S16 (extractStridedSlice S1x16 ![1, 0] cm slices_S3x16_S1x16_1_0) shapeCasts_S1x16_S16) (starts task)
def route2 (cm : (⟨S3x16, .i32⟩ : BufTy).Contents (Elt Ideal)) (task : (⟨S131072, .i32⟩ : BufTy).Contents (Elt Ideal)) : (⟨S131072, .i32⟩ : BufTy).Contents (Elt Ideal) :=
  Host.gather gather_S16_S131072x1_S131072_n_0_n_n_0_1_1 (shapeCast S16 (extractStridedSlice S1x16 ![2, 0] cm slices_S3x16_S1x16_2_0) shapeCasts_S1x16_S16) (starts task)

end Cert.KernelIdeal.Entry

end
-- ==== Proof.KIEntry.lean ====
/-
  What the region finds in the arrays the host operations wrote, at the ideal instance.

  The routing array [131072, 3] is three columns side by side; column ℓ at row i is the ℓ-th routing vector at i — row ℓ of the
  copy table gathered at the row's task word (a negative word first shifted up by 16). The three narrowed weight tensors
  are the argument tensors themselves: narrowing the float format is the identity on extended reals.
-/
import proofs.«105043_j11570641896173_1_alg».proof.Proof.KIRegion
import proofs.«105043_j11570641896173_1_alg».proof.Proof.KIRoutes
import Idealize.ShloMosaic.Lib.StableHlo.Run
import Idealize.ShloMosaic.Lib.Pipeline.Value
import Idealize.ShloMosaic.Lib.ValueIdx

set_option maxRecDepth 16384

noncomputable section

namespace Cert.KernelIdeal.Entry

open Idealize.ShloMosaic Idealize.ShloMosaic.TcCoe Idealize.SL.Sem Idealize.ShloMosaic.StableHlo Idealize.ShloMosaic.ValueIdx
open Cert.KernelIdeal Cert.KernelIdeal.Gen Cert.KernelIdeal.Region

variable (m : (ℓ : Loc nD τ sig) → Buf (Elt Ideal) ℓ)

/-- A vector as a one-column array. -/
abbrev asCol (v : (⟨S131072, .i32⟩ : BufTy).Contents (Elt Ideal)) : (⟨S131072x1, .i32⟩ : BufTy).Contents (Elt Ideal) :=
  broadcastInDim S131072x1 ![0] bcast_S131072_S131072x1_0 v

set_option maxHeartbeats 2000000 in
/-- The routing array at the region's entry: the three routing vectors as columns, side by side. -/
theorem V_routing (c : Dev nD) :
    (V m c main_v30 : (⟨S131072x3, .i32⟩ : BufTy).Contents (Elt Ideal))
      = concatenate S131072x3 1 [⟨S131072x1, asCol (route0 (m (c, Proc.devRef .tc main_arg2)) (m (c, Proc.devRef .tc main_arg1)))⟩,
          ⟨S131072x1, asCol (route1 (m (c, Proc.devRef .tc main_arg2)) (m (c, Proc.devRef .tc main_arg1)))⟩,
          ⟨S131072x1, asCol (route2 (m (c, Proc.devRef .tc main_arg2)) (m (c, Proc.devRef .tc main_arg1)))⟩]
          concatenates_S131072x1_S131072x1_S131072x1_S131072x3_d1 := by
  dsimp only [V]
  simp only [hostOps0, List.flatten_cons, List.flatten_nil, List.append_nil]
  after_results_simp
  rfl

set_option maxHeartbeats 2000000 in
/-- The narrowed weight tensors at the region's entry are the argument tensors. -/
theorem V_w0 (c : Dev nD) : (V m c main_v31 : (⟨S4x128x256, .bf16⟩ : BufTy).Contents (Elt Ideal)) = m (c, Proc.devRef .tc main_arg3) := by
  dsimp only [V]
  simp only [hostOps0, List.flatten_cons, List.flatten_nil, List.append_nil]
  after_results_simp
  rfl
set_option maxHeartbeats 2000000 in
theorem V_w1 (c : Dev nD) : (V m c main_v32 : (⟨S4x256x256, .bf16⟩ : BufTy).Contents (Elt Ideal)) = m (c, Proc.devRef .tc main_arg5) := by
  dsimp only [V]
  simp only [hostOps0, List.flatten_cons, List.flatten_nil, List.append_nil]
  after_results_simp
  rfl
set_option maxHeartbeats 2000000 in
theorem V_w2 (c : Dev nD) : (V m c main_v33 : (⟨S4x256x64, .bf16⟩ : BufTy).Contents (Elt Ideal)) = m (c, Proc.devRef .tc main_arg7) := by
  dsimp only [V]
  simp only [hostOps0, List.flatten_cons, List.flatten_nil, List.append_nil]
  after_results_simp
  rfl

/-- A one-column array read at (i, 0) is the vector at i. -/
theorem asCol_apply (v : (⟨S131072, .i32⟩ : BufTy).Contents (Elt Ideal)) (i : Fin 131072) : asCol v (ix2 i (0 : Fin 1)) = v (ix1 i) :=
  broadcastInDim_apply _ _ v _ (ix1 i) (fun a => by match a with | ⟨0, _⟩ => rfl)

/-- Three columns side by side, read at (i, ℓ): the ℓ-th vector at i. -/
theorem cols_apply0 (v0 v1 v2 : (⟨S131072, .i32⟩ : BufTy).Contents (Elt Ideal)) (i : Fin 131072) :
    concatenate S131072x3 1 [⟨S131072x1, asCol v0⟩, ⟨S131072x1, asCol v1⟩, ⟨S131072x1, asCol v2⟩]
      concatenates_S131072x1_S131072x1_S131072x1_S131072x3_d1 (ix2 i (0 : Fin 3)) = v0 (ix1 i) :=
  (concatenate_apply_piece (t := S131072x3) (1 : Fin 2) [⟨S131072x1, asCol v0⟩, ⟨S131072x1, asCol v1⟩, ⟨S131072x1, asCol v2⟩]
    concatenates_S131072x1_S131072x1_S131072x1_S131072x3_d1 (ix2 i (0 : Fin 3)) 0 (by simp) S131072x1 (asCol v0) rfl rfl 0 rfl (ix2 i (0 : Fin 1))
    (fun b hb => by match b with | ⟨0, _⟩ => rfl | ⟨1, _⟩ => exact absurd rfl hb) rfl).trans (asCol_apply v0 i)
theorem cols_apply1 (v0 v1 v2 : (⟨S131072, .i32⟩ : BufTy).Contents (Elt Ideal)) (i : Fin 131072) :
    concatenate S131072x3 1 [⟨S131072x1, asCol v0⟩, ⟨S131072x1, asCol v1⟩, ⟨S131072x1, asCol v2⟩]
      concatenates_S131072x1_S131072x1_S131072x1_S131072x3_d1 (ix2 i (1 : Fin 3)) = v1 (ix1 i) :=
  (concatenate_apply_piece (t := S131072x3) (1 : Fin 2) [⟨S131072x1, asCol v0⟩, ⟨S131072x1, asCol v1⟩, ⟨S131072x1, asCol v2⟩]
    concatenates_S131072x1_S131072x1_S131072x1_S131072x3_d1 (ix2 i (1 : Fin 3)) 1 (by simp) S131072x1 (asCol v1) rfl rfl 1 rfl (ix2 i (0 : Fin 1))
    (fun b hb => by match b with | ⟨0, _⟩ => rfl | ⟨1, _⟩ => exact absurd rfl hb) rfl).trans (asCol_apply v1 i)
theorem cols_apply2 (v0 v1 v2 : (⟨S131072, .i32⟩ : BufTy).Contents (Elt Ideal)) (i : Fin 131072) :
    concatenate S131072x3 1 [⟨S131072x1, asCol v0⟩, ⟨S131072x1, asCol v1⟩, ⟨S131072x1, asCol v2⟩]
      concatenates_S131072x1_S131072x1_S131072x1_S131072x3_d1 (ix2 i (2 : Fin 3)) = v2 (ix1 i) :=
  (concatenate_apply_piece (t := S131072x3) (1 : Fin 2) [⟨S131072x1, asCol v0⟩, ⟨S131072x1, asCol v1⟩, ⟨S131072x1, asCol v2⟩]
    concatenates_S131072x1_S131072x1_S131072x1_S131072x3_d1 (ix2 i (2 : Fin 3)) 2 (by simp) S131072x1 (asCol v2) rfl rfl 2 rfl (ix2 i (0 : Fin 1))
    (fun b hb => by match b with | ⟨0, _⟩ => rfl | ⟨1, _⟩ => exact absurd rfl hb) rfl).trans (asCol_apply v2 i)

/-- Column ℓ of the routing array at row i is the ℓ-th routing vector at i. -/
theorem routing_apply0 (c : Dev nD) (i : Fin 131072) :
    V m c main_v30 (ix2 i (0 : Fin 3)) = route0 (m (c, Proc.devRef .tc main_arg2)) (m (c, Proc.devRef .tc main_arg1)) (ix1 i) := by
  rw [V_routing]; exact cols_apply0 _ _ _ i
theorem routing_apply1 (c : Dev nD) (i : Fin 131072) :
    V m c main_v30 (ix2 i (1 : Fin 3)) = route1 (m (c, Proc.devRef .tc main_arg2)) (m (c, Proc.devRef .tc main_arg1)) (ix1 i) := by
  rw [V_routing]; exact cols_apply1 _ _ _ i
theorem routing_apply2 (c : Dev nD) (i : Fin 131072) :
    V m c main_v30 (ix2 i (2 : Fin 3)) = route2 (m (c, Proc.devRef .tc main_arg2)) (m (c, Proc.devRef .tc main_arg1)) (ix1 i) := by
  rw [V_routing]; exact cols_apply2 _ _ _ i

end Cert.KernelIdeal.Entry

end
-- ==== Proof.Net.lean ====
/-
  The routed network of every row, as one function of the nine argument arrays: row i of the result is the routed network
  (RowSpec.out) of row i of the inputs, routed by the three routing vectors at i.
-/
import proofs.«105043_j11570641896173_1_alg».proof.Proof.RowSpec
import proofs.«105043_j11570641896173_1_alg».proof.Proof.KIRoutes
import Idealize.ShloMosaic.Lib.ValueIdx

noncomputable section

namespace Cert.Net

open Idealize.ShloMosaic Idealize.ShloMosaic.ValueIdx

/-- The result array [131072, 64] of the nine arguments. -/
def net (X : (⟨2, ![131072, 128]⟩ : Shape).Idx → EReal) (task : (⟨1, ![131072]⟩ : Shape).Idx → BitVec 32)
    (cm : (⟨2, ![3, 16]⟩ : Shape).Idx → BitVec 32)
    (W0 : (⟨3, ![4, 128, 256]⟩ : Shape).Idx → EReal) (B0 : (⟨2, ![4, 256]⟩ : Shape).Idx → EReal)
    (W1 : (⟨3, ![4, 256, 256]⟩ : Shape).Idx → EReal) (B1 : (⟨2, ![4, 256]⟩ : Shape).Idx → EReal)
    (W2 : (⟨3, ![4, 256, 64]⟩ : Shape).Idx → EReal) (B2 : (⟨2, ![4, 64]⟩ : Shape).Idx → EReal) :
    (⟨2, ![131072, 64]⟩ : Shape).Idx → EReal :=
  fun y => Cert.RowSpec.out (fun k : Fin 128 => X (ix2 (y 0 : Fin 131072) k))
    (Cert.KernelIdeal.Entry.route0 cm task (ix1 (y 0 : Fin 131072)))
    (Cert.KernelIdeal.Entry.route1 cm task (ix1 (y 0 : Fin 131072)))
    (Cert.KernelIdeal.Entry.route2 cm task (ix1 (y 0 : Fin 131072))) W0 B0 W1 B1 W2 B2 (y 1 : Fin 64)

end Cert.Net

end
-- ==== Proof.KINetRun.lean ====
/-
  The idealized kernel's run, read: the result array ends holding the routed network of the arguments.

  The region's result is the routed network of the arrays the region finds; those are the arguments themselves (the inputs and
  biases untouched, the weight tensors narrowed — the identity on extended reals) and the routing array, whose column ℓ is the
  ℓ-th routing vector of the copy table and the task words.
-/
import proofs.«105043_j11570641896173_1_alg».proof.Proof.KIArray
import proofs.«105043_j11570641896173_1_alg».proof.Proof.KIEntry
import proofs.«105043_j11570641896173_1_alg».proof.Proof.Net

set_option maxRecDepth 16384

noncomputable section

namespace Cert.KernelIdeal.NetRun

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Region Cert.KernelIdeal.Entry

variable (m : (ℓ : Loc nD τ sig) → Buf (Elt Ideal) ℓ) (ρ : Dev nD → PrngReg)

/-- The result array after the run is the routed network of the nine arguments. -/
theorem final_net (c : Dev nD) : (dats m 0 c).arrAt 8 cfg0.N = Cert.Net.net (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  rw [Cert.KernelIdeal.Whole.final]
  funext y
  obtain ⟨i, j, rfl⟩ : ∃ (i : Fin 131072) (j : Fin 64), y = ix2 i j := ⟨y 0, y 1, eq_ix2 y⟩
  show Cert.RowSpec.out (fun k : Fin 128 => V m c main_arg0 (ix2 i k)) (V m c main_v30 (ix2 i (0 : Fin 3))) (V m c main_v30 (ix2 i (1 : Fin 3)))
      (V m c main_v30 (ix2 i (2 : Fin 3))) (V m c main_v31) (V m c main_arg4) (V m c main_v32) (V m c main_arg6) (V m c main_v33) (V m c main_arg8) j
    = Cert.RowSpec.out (fun k : Fin 128 => m ((c.tc : Thread nD τ).loc main_arg0) (ix2 i k))
      (route0 (m ((c.tc : Thread nD τ).loc main_arg2)) (m ((c.tc : Thread nD τ).loc main_arg1)) (ix1 i))
      (route1 (m ((c.tc : Thread nD τ).loc main_arg2)) (m ((c.tc : Thread nD τ).loc main_arg1)) (ix1 i))
      (route2 (m ((c.tc : Thread nD τ).loc main_arg2)) (m ((c.tc : Thread nD τ).loc main_arg1)) (ix1 i))
      (m ((c.tc : Thread nD τ).loc main_arg3)) (m ((c.tc : Thread nD τ).loc main_arg4)) (m ((c.tc : Thread nD τ).loc main_arg5))
      (m ((c.tc : Thread nD τ).loc main_arg6)) (m ((c.tc : Thread nD τ).loc main_arg7)) (m ((c.tc : Thread nD τ).loc main_arg8)) j
  rw [routing_apply0, routing_apply1, routing_apply2, V_w0, V_w1, V_w2, V_main_arg0, V_main_arg4, V_main_arg6, V_main_arg8]

/-- Every weakly fair execution of the idealized kernel terminates without a fault with the result array at the routed
    network of the arguments and the arguments unchanged. -/
theorem run_net : θ_run defs (onTc (τ := τ) (main (F := Ideal))) ⟨m, fun _ => 0, ρ⟩ fun r => ∀ c : Dev nD,
      r.2.mem ((c.tc : Thread nD τ).loc main_v34) = Cert.Net.net (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun r h c => ⟨((h c).1 8).trans (final_net m c), kept_of m (dats m) (A_eq m) r h c⟩) (run_main m ρ)

end Cert.KernelIdeal.NetRun

end
-- ==== Proof.RefRows.lean ====
/-
  The reference program's result, row by row, at the ideal values.

  The reference computes three routed layers over a batch of 131072 rows. Its result at row i and column j is the routed
  three-layer network of Proof/RowSpec.lean applied to row i of the input, with the three routing words the reference
  gathers for row i and the six weight and bias stacks as they are in memory.

  First the reference's array operations read at one element (a column of gates spread along the rows, a bias row spread
  down the columns, one copy of a weight matrix cut out of its stack, a matrix product as the sum over the contracted
  coordinate, and the gated affine map these compose to), over arrays of N rows, K inputs and M outputs. Then the three
  layers, each the sum of its four gated copies added to the starting value, the first two under the hyperbolic tangent;
  each layer reads the previous one's row through the lemma before it.
-/
import proofs.«105043_j11570641896173_1_alg».proof.Proof.Gen.ReferenceIdeal.Run
import proofs.«105043_j11570641896173_1_alg».proof.Proof.RowSpec
import Idealize.ShloMosaic.Lib.ValueIdx
import Idealize.ShloMosaic.Lib.ValueLayout
import Idealize.ShloMosaic.Lib.Pipeline.Value
import Idealize.ShloMosaic.Lib.StackMember
import Idealize.ShloMosaic.PureOps.Ideal.Laws

noncomputable section

open scoped BigOperators

namespace Cert.ReferenceIdeal.RefRows

open Cert.ReferenceIdeal Cert.ReferenceIdeal.Gen Cert.ReferenceIdeal.Value
open Idealize.ShloMosaic Idealize.ShloMosaic.TcCoe Idealize.SL.Sem Idealize.ShloMosaic.StableHlo Idealize.ShloMosaic.ValueIdx

/-! ## The operations at one element -/

section Ops
variable {α : Type}

/-- The hyperbolic tangent of an array, at an element, is the ideal one of the element. -/
theorem tanh_apply {s : Shape} {φ : FTy} (x : FVec Ideal s φ) (i : s.Idx) : Host.tanh x i = Ideal.tanh (x i) := rfl

/-- A column of N values spread to an N×1 matrix and then along M columns reads, at (i, j), the value of row i. -/
theorem bcast_col_apply {N M : ℕ} (g : (⟨1, ![N]⟩ : Shape).Idx → α)
    (h1 : (⟨1, ![N]⟩ : Shape).BroadcastsInDim ⟨2, ![N, 1]⟩ ![0])
    (h2 : (⟨2, ![N, 1]⟩ : Shape).BroadcastsInDim ⟨2, ![N, M]⟩ ![0, 1]) (i : Fin N) (j : Fin M) :
    broadcastInDim ⟨2, ![N, M]⟩ ![0, 1] h2 (broadcastInDim ⟨2, ![N, 1]⟩ ![0] h1 g) (ix2 i j) = g (ix1 i) := by
  refine (broadcastInDim_apply _ h2 _ (ix2 i j) (ix2 i (0 : Fin 1)) fun a => ?_).trans ?_
  · match a with
    | ⟨0, _⟩ =>
      show i.val = if N = 1 then 0 else i.val
      have := i.isLt
      split <;> omega
    | ⟨1, _⟩ => rfl
  · refine broadcastInDim_apply _ h1 _ (ix2 i (0 : Fin 1)) (ix1 i) fun a => ?_
    match a with
    | ⟨0, _⟩ =>
      show i.val = if N = 1 then 0 else i.val
      have := i.isLt
      split <;> omega

/-- Copy c of a stack of four bias rows, spread down N rows, reads at (i, j) the stack at (c, j). -/
theorem bias_apply {N M : ℕ} (B : (⟨2, ![4, M]⟩ : Shape).Idx → α) (c : Fin 4) (c' : ℕ) (hcc : c.val = c')
    (hs : (⟨2, ![4, M]⟩ : Shape).Slices ![c', 0] ⟨2, ![1, M]⟩)
    (hc : (⟨2, ![1, M]⟩ : Shape).ShapeCasts ⟨1, ![M]⟩)
    (h1 : (⟨1, ![M]⟩ : Shape).BroadcastsInDim ⟨2, ![1, M]⟩ ![1])
    (h2 : (⟨2, ![1, M]⟩ : Shape).BroadcastsInDim ⟨2, ![N, M]⟩ ![0, 1]) (i : Fin N) (j : Fin M) :
    broadcastInDim ⟨2, ![N, M]⟩ ![0, 1] h2 (broadcastInDim ⟨2, ![1, M]⟩ ![1] h1
      (shapeCast ⟨1, ![M]⟩ (extractStridedSlice ⟨2, ![1, M]⟩ ![c', 0] B hs) hc)) (ix2 i j) = B (ix2 c j) := by
  refine (broadcastInDim_apply _ h2 _ (ix2 i j) (ix2 (0 : Fin 1) j) fun a => ?_).trans ?_
  · match a with
    | ⟨0, _⟩ => rfl
    | ⟨1, _⟩ =>
      show j.val = if M = 1 then 0 else j.val
      have := j.isLt
      split <;> omega
  refine (broadcastInDim_apply _ h1 _ (ix2 (0 : Fin 1) j) (ix1 j) fun a => ?_).trans ?_
  · match a with
    | ⟨0, _⟩ =>
      show j.val = if M = 1 then 0 else j.val
      have := j.isLt
      split <;> omega
  refine (shapeCast_1a_a_apply _ hc j).trans ?_
  refine extractStridedSlice_apply _ B hs (ix2 (0 : Fin 1) j) (ix2 c j) fun a => ?_
  match a with
  | ⟨0, _⟩ => show c.val = c' + 0; omega
  | ⟨1, _⟩ => show j.val = 0 + j.val; omega

/-- Copy c of a stack of four K×M matrices reads at (k, j) the stack at (c, k, j). -/
theorem weight_apply {K M : ℕ} (W : (⟨3, ![4, K, M]⟩ : Shape).Idx → α) (c : Fin 4) (c' : ℕ) (hcc : c.val = c')
    (hs : (⟨3, ![4, K, M]⟩ : Shape).Slices ![c', 0, 0] ⟨3, ![1, K, M]⟩)
    (hc : (⟨3, ![1, K, M]⟩ : Shape).ShapeCasts ⟨2, ![K, M]⟩) (k : Fin K) (j : Fin M) :
    shapeCast ⟨2, ![K, M]⟩ (extractStridedSlice ⟨3, ![1, K, M]⟩ ![c', 0, 0] W hs) hc (ix2 k j) = W (ix3 c k j) := by
  refine (shapeCast_1ab_ab_apply _ hc k j).trans ?_
  refine extractStridedSlice_apply _ W hs (ix3 (0 : Fin 1) k j) (ix3 c k j) fun a => ?_
  match a with
  | ⟨0, _⟩ => show c.val = c' + 0; omega
  | ⟨1, _⟩ => show k.val = 0 + k.val; omega
  | ⟨2, _⟩ => show j.val = 0 + j.val; omega

/-- An N×K by K×M product reads at (i, j) the sum over k of the products of the entries (i, k) and (k, j). -/
theorem dot_apply {N K M : ℕ}
    (w : DotDims.WF (⟨2, ![N, K]⟩ : Shape) ⟨2, ![K, M]⟩ ⟨2, ![N, M]⟩ [1] [0] [0] [1] [] [])
    (A : FVec Ideal ⟨2, ![N, K]⟩ .f32) (B : FVec Ideal ⟨2, ![K, M]⟩ .f32) (i : Fin N) (j : Fin M) :
    Host.dotGeneral (⟨[1], [0], [0], [1], [], [], w⟩ : DotDims _ _ _) none A B (ix2 i j)
      = ∑ k : Fin K, A (ix2 i k) * B (ix2 k j) :=
  StackMember.dotGeneral_plain_apply none A B i j

/-- The gate of copy c on row i: the one-bit answer of "the row's word equals c", read unsigned. -/
theorem gate_apply {N : ℕ} (v : IVec ⟨1, ![N]⟩ 32) (c : BitVec 32)
    (h0 : (⟨0, ![]⟩ : Shape).BroadcastsInDim ⟨1, ![N]⟩ ![]) (i : Fin N) :
    (uitofp .f32 (cmpi .eq v (broadcastInDim ⟨1, ![N]⟩ ![] h0 (constantI ⟨0, ![]⟩ 32 c))) : FVec Ideal ⟨1, ![N]⟩ .f32) (ix1 i)
      = (((IntOp.cmpi .eq (v (ix1 i)) c).toNat : ℝ) : EReal) := rfl

/-- One gated copy of a layer at (i, j): the gate of row i times the affine map of row i at column j. -/
theorem copy_apply {N K M : ℕ} (X : FVec Ideal ⟨2, ![N, K]⟩ .f32) (v : IVec ⟨1, ![N]⟩ 32)
    (W : FVec Ideal ⟨3, ![4, K, M]⟩ .f32) (B : FVec Ideal ⟨2, ![4, M]⟩ .f32)
    (cw : BitVec 32) (c : Fin 4) (c' : ℕ) (hcc : c.val = c')
    (h0 : (⟨0, ![]⟩ : Shape).BroadcastsInDim ⟨1, ![N]⟩ ![])
    (g1 : (⟨1, ![N]⟩ : Shape).BroadcastsInDim ⟨2, ![N, 1]⟩ ![0])
    (g2 : (⟨2, ![N, 1]⟩ : Shape).BroadcastsInDim ⟨2, ![N, M]⟩ ![0, 1])
    (w : DotDims.WF (⟨2, ![N, K]⟩ : Shape) ⟨2, ![K, M]⟩ ⟨2, ![N, M]⟩ [1] [0] [0] [1] [] [])
    (ws : (⟨3, ![4, K, M]⟩ : Shape).Slices ![c', 0, 0] ⟨3, ![1, K, M]⟩)
    (wc : (⟨3, ![1, K, M]⟩ : Shape).ShapeCasts ⟨2, ![K, M]⟩)
    (bs : (⟨2, ![4, M]⟩ : Shape).Slices ![c', 0] ⟨2, ![1, M]⟩)
    (bc : (⟨2, ![1, M]⟩ : Shape).ShapeCasts ⟨1, ![M]⟩)
    (b1 : (⟨1, ![M]⟩ : Shape).BroadcastsInDim ⟨2, ![1, M]⟩ ![1])
    (b2 : (⟨2, ![1, M]⟩ : Shape).BroadcastsInDim ⟨2, ![N, M]⟩ ![0, 1]) (i : Fin N) (j : Fin M) :
    mulf (broadcastInDim ⟨2, ![N, M]⟩ ![0, 1] g2 (broadcastInDim ⟨2, ![N, 1]⟩ ![0] g1
        (uitofp .f32 (cmpi .eq v (broadcastInDim ⟨1, ![N]⟩ ![] h0 (constantI ⟨0, ![]⟩ 32 cw))))))
      (addf (Host.dotGeneral (⟨[1], [0], [0], [1], [], [], w⟩ : DotDims _ _ _) none X
          (shapeCast ⟨2, ![K, M]⟩ (extractStridedSlice ⟨3, ![1, K, M]⟩ ![c', 0, 0] W ws) wc))
        (broadcastInDim ⟨2, ![N, M]⟩ ![0, 1] b2 (broadcastInDim ⟨2, ![1, M]⟩ ![1] b1
          (shapeCast ⟨1, ![M]⟩ (extractStridedSlice ⟨2, ![1, M]⟩ ![c', 0] B bs) bc)))) (ix2 i j)
      = (((IntOp.cmpi .eq (v (ix1 i)) cw).toNat : ℝ) : EReal)
          * ((∑ k : Fin K, X (ix2 i k) * W (ix3 c k j)) + B (ix2 c j)) := by
  refine (mulf_apply _ _ _).trans (congrArg₂ (· * ·) ?_ ((addf_apply _ _ _).trans (congrArg₂ (· + ·) ?_ ?_)))
  · exact (bcast_col_apply _ g1 g2 i j).trans (gate_apply v cw h0 i)
  · refine (dot_apply w X _ i j).trans (Finset.sum_congr rfl fun k _ => ?_)
    exact congrArg (X (ix2 i k) * ·) (weight_apply W c c' hcc ws wc k j)
  · exact bias_apply B c c' hcc bs bc b1 b2 i j

end Ops

/-! ## A routed layer from its four copies -/

/-- The starting value plus four terms, at an element, is the routed layer once each term is the gated affine map of its
    copy. -/
theorem routed_of_copies {s : Shape} {K : ℕ} (Z C0 C1 C2 C3 : FVec Ideal s .f32) (idx : s.Idx)
    (w : BitVec 32) (x : Fin K → EReal) (W : Fin 4 → Fin K → EReal) (b : Fin 4 → EReal)
    (hz : Z idx = RowSpec.zero)
    (h0 : C0 idx = RowSpec.gate w 0#32 * RowSpec.affine x (W 0) (b 0))
    (h1 : C1 idx = RowSpec.gate w 1#32 * RowSpec.affine x (W 1) (b 1))
    (h2 : C2 idx = RowSpec.gate w 2#32 * RowSpec.affine x (W 2) (b 2))
    (h3 : C3 idx = RowSpec.gate w 3#32 * RowSpec.affine x (W 3) (b 3)) :
    addf (addf (addf (addf Z C0) C1) C2) C3 idx = RowSpec.routed w x W b := by
  unfold RowSpec.routed
  rw [addf_apply, addf_apply, addf_apply, addf_apply, hz, h0, h1, h2, h3]

/-! ## The three layers -/

/-- The first hidden layer at row i, column j. -/
theorem hid0_apply (V0 : Valuation τ sig (Elt Ideal)) (i : Fin 131072) (j : Fin 256) :
    res_main_v70 V0 (ix2 i j)
      = RowSpec.hid0 (fun k => V0 (Proc.devRef .tc main_arg0) (ix2 i k)) (res_main_v8 V0 (ix1 i))
          (V0 (Proc.devRef .tc main_arg3)) (V0 (Proc.devRef .tc main_arg4)) j := by
  unfold res_main_v70
  refine (tanh_apply _ _).trans (congrArg Ideal.tanh ?_)
  refine routed_of_copies _ _ _ _ _ _ _ _ _ _ rfl ?_ ?_ ?_ ?_
  · exact copy_apply _ _ _ _ 0#32 0 0 rfl _ _ _ _ _ _ _ _ _ _ i j
  · exact copy_apply _ _ _ _ 1#32 1 1 rfl _ _ _ _ _ _ _ _ _ _ i j
  · exact copy_apply _ _ _ _ 2#32 2 2 rfl _ _ _ _ _ _ _ _ _ _ i j
  · exact copy_apply _ _ _ _ 3#32 3 3 rfl _ _ _ _ _ _ _ _ _ _ i j

/-- The second hidden layer at row i, column j: the routed layer of the first hidden row. -/
theorem hid1_apply (V0 : Valuation τ sig (Elt Ideal)) (i : Fin 131072) (j : Fin 256) :
    res_main_v141 V0 (ix2 i j)
      = RowSpec.hid1 (fun k => V0 (Proc.devRef .tc main_arg0) (ix2 i k)) (res_main_v8 V0 (ix1 i)) (res_main_v79 V0 (ix1 i))
          (V0 (Proc.devRef .tc main_arg3)) (V0 (Proc.devRef .tc main_arg4))
          (V0 (Proc.devRef .tc main_arg5)) (V0 (Proc.devRef .tc main_arg6)) j := by
  have hx : (fun k => res_main_v70 V0 (ix2 i k))
      = RowSpec.hid0 (fun k => V0 (Proc.devRef .tc main_arg0) (ix2 i k)) (res_main_v8 V0 (ix1 i))
          (V0 (Proc.devRef .tc main_arg3)) (V0 (Proc.devRef .tc main_arg4)) := funext fun k => hid0_apply V0 i k
  unfold res_main_v141
  refine (tanh_apply _ _).trans (congrArg Ideal.tanh ?_)
  refine Eq.trans (routed_of_copies (w := res_main_v79 V0 (ix1 i)) (x := fun k => res_main_v70 V0 (ix2 i k))
    (W := RowSpec.col (V0 (Proc.devRef .tc main_arg5)) j) (b := RowSpec.ent (V0 (Proc.devRef .tc main_arg6)) j)
    _ _ _ _ _ _ rfl ?_ ?_ ?_ ?_) (by rw [hx])
  · exact copy_apply _ _ _ _ 0#32 0 0 rfl _ _ _ _ _ _ _ _ _ _ i j
  · exact copy_apply _ _ _ _ 1#32 1 1 rfl _ _ _ _ _ _ _ _ _ _ i j
  · exact copy_apply _ _ _ _ 2#32 2 2 rfl _ _ _ _ _ _ _ _ _ _ i j
  · exact copy_apply _ _ _ _ 3#32 3 3 rfl _ _ _ _ _ _ _ _ _ _ i j

/-- The reference's result at row i, column j is the routed three-layer network of row i. -/
theorem ref_apply (V0 : Valuation τ sig (Elt Ideal)) (i : Fin 131072) (j : Fin 64) :
    val4 V0 (Proc.devRef .tc main_v211) (ix2 i j)
      = Cert.RowSpec.out (fun k => V0 (Proc.devRef .tc main_arg0) (ix2 i k))
          (res_main_v8 V0 (ix1 i)) (res_main_v79 V0 (ix1 i)) (res_main_v150 V0 (ix1 i))
          (V0 (Proc.devRef .tc main_arg3)) (V0 (Proc.devRef .tc main_arg4))
          (V0 (Proc.devRef .tc main_arg5)) (V0 (Proc.devRef .tc main_arg6))
          (V0 (Proc.devRef .tc main_arg7)) (V0 (Proc.devRef .tc main_arg8)) j := by
  have hx : (fun k => res_main_v141 V0 (ix2 i k))
      = RowSpec.hid1 (fun k => V0 (Proc.devRef .tc main_arg0) (ix2 i k)) (res_main_v8 V0 (ix1 i)) (res_main_v79 V0 (ix1 i))
          (V0 (Proc.devRef .tc main_arg3)) (V0 (Proc.devRef .tc main_arg4))
          (V0 (Proc.devRef .tc main_arg5)) (V0 (Proc.devRef .tc main_arg6)) := funext fun k => hid1_apply V0 i k
  rw [val4_main_v211]
  refine Eq.trans (routed_of_copies (w := res_main_v150 V0 (ix1 i)) (x := fun k => res_main_v141 V0 (ix2 i k))
    (W := RowSpec.col (V0 (Proc.devRef .tc main_arg7)) j) (b := RowSpec.ent (V0 (Proc.devRef .tc main_arg8)) j)
    _ _ _ _ _ _ rfl ?_ ?_ ?_ ?_) (by rw [hx]; rfl)
  · exact copy_apply _ _ _ _ 0#32 0 0 rfl _ _ _ _ _ _ _ _ _ _ i j
  · exact copy_apply _ _ _ _ 1#32 1 1 rfl _ _ _ _ _ _ _ _ _ _ i j
  · exact copy_apply _ _ _ _ 2#32 2 2 rfl _ _ _ _ _ _ _ _ _ _ i j
  · exact copy_apply _ _ _ _ 3#32 3 3 rfl _ _ _ _ _ _ _ _ _ _ i j

end Cert.ReferenceIdeal.RefRows

end
-- ==== Proof.RouteAgree.lean ====
/-
  The two programs gather the same routing words.

  The reference and the kernel's host program each cut row ℓ out of the 3×16 copy table and gather it at the task words
  (a negative word first shifted up by 16). Each program states the operations over its own copies of the shapes and
  side conditions; the two terms are the same function of the table and the task words.
-/
import proofs.«105043_j11570641896173_1_alg».proof.Proof.Gen.ReferenceIdeal.Run
import proofs.«105043_j11570641896173_1_alg».proof.Proof.KIRoutes

noncomputable section

namespace Cert.RouteAgree

open Idealize.ShloMosaic Idealize.ShloMosaic.TcCoe Idealize.SL.Sem

/-- Layer 0's routing vector: the reference's term is the kernel program's. -/
theorem route0_agree (V0 : Valuation Cert.ReferenceIdeal.τ Cert.ReferenceIdeal.sig (Elt Ideal)) :
    (Cert.ReferenceIdeal.Value.res_main_v8 V0 : (⟨1, ![131072]⟩ : Shape).Idx → BitVec 32)
      = Cert.KernelIdeal.Entry.route0 (V0 (Proc.devRef .tc Cert.ReferenceIdeal.main_arg2))
          (V0 (Proc.devRef .tc Cert.ReferenceIdeal.main_arg1)) := rfl

/-- Layer 1's routing vector. -/
theorem route1_agree (V0 : Valuation Cert.ReferenceIdeal.τ Cert.ReferenceIdeal.sig (Elt Ideal)) :
    (Cert.ReferenceIdeal.Value.res_main_v79 V0 : (⟨1, ![131072]⟩ : Shape).Idx → BitVec 32)
      = Cert.KernelIdeal.Entry.route1 (V0 (Proc.devRef .tc Cert.ReferenceIdeal.main_arg2))
          (V0 (Proc.devRef .tc Cert.ReferenceIdeal.main_arg1)) := rfl

/-- Layer 2's routing vector. -/
theorem route2_agree (V0 : Valuation Cert.ReferenceIdeal.τ Cert.ReferenceIdeal.sig (Elt Ideal)) :
    (Cert.ReferenceIdeal.Value.res_main_v150 V0 : (⟨1, ![131072]⟩ : Shape).Idx → BitVec 32)
      = Cert.KernelIdeal.Entry.route2 (V0 (Proc.devRef .tc Cert.ReferenceIdeal.main_arg2))
          (V0 (Proc.devRef .tc Cert.ReferenceIdeal.main_arg1)) := rfl

end Cert.RouteAgree

end
-- ==== Proof.RefNet.lean ====
/-
  The reference's result array is the routed network of the nine argument arrays, and its run ends there.

  Row by row the reference's result is the routed three-layer network of the row (Proof/RefRows.lean), routed by the
  words the reference gathers, which are the words the kernel's host program gathers (Proof/RouteAgree.lean); so the
  whole result array is the one function of the arguments that Proof/Net.lean names. The reference's run, which ends with
  the result buffer at the reference's own term of the launch contents and the arguments unchanged, therefore ends with
  the result buffer at that function of the argument buffers.
-/
import proofs.«105043_j11570641896173_1_alg».proof.Proof.RefRows
import proofs.«105043_j11570641896173_1_alg».proof.Proof.RouteAgree
import proofs.«105043_j11570641896173_1_alg».proof.Proof.Net

noncomputable section

namespace Cert.RefNet

open Idealize.ShloMosaic Idealize.ShloMosaic.TcCoe Idealize.SL.Sem Idealize.ShloMosaic.StableHlo Idealize.ShloMosaic.ValueIdx

/-- The reference's result array, as a function of the contents of its nine arguments. -/
theorem ref_net (V0 : Valuation Cert.ReferenceIdeal.τ Cert.ReferenceIdeal.sig (Elt Ideal)) :
    (Cert.ReferenceIdeal.Value.val4 V0 (Proc.devRef .tc Cert.ReferenceIdeal.main_v211) : (⟨2, ![131072, 64]⟩ : Shape).Idx → EReal)
      = Cert.Net.net (V0 (Proc.devRef .tc Cert.ReferenceIdeal.main_arg0))
          (V0 (Proc.devRef .tc Cert.ReferenceIdeal.main_arg1))
          (V0 (Proc.devRef .tc Cert.ReferenceIdeal.main_arg2))
          (V0 (Proc.devRef .tc Cert.ReferenceIdeal.main_arg3))
          (V0 (Proc.devRef .tc Cert.ReferenceIdeal.main_arg4))
          (V0 (Proc.devRef .tc Cert.ReferenceIdeal.main_arg5))
          (V0 (Proc.devRef .tc Cert.ReferenceIdeal.main_arg6))
          (V0 (Proc.devRef .tc Cert.ReferenceIdeal.main_arg7))
          (V0 (Proc.devRef .tc Cert.ReferenceIdeal.main_arg8)) := by
  funext y
  obtain ⟨i, j, rfl⟩ : ∃ (i : Fin 131072) (j : Fin 64), y = ix2 i j := ⟨y 0, y 1, eq_ix2 y⟩
  rw [Cert.ReferenceIdeal.RefRows.ref_apply, Cert.RouteAgree.route0_agree, Cert.RouteAgree.route1_agree, Cert.RouteAgree.route2_agree]
  rfl

/-- Every weakly fair execution of the reference terminates with the result buffer at the routed network of the
    argument buffers, and the argument buffers unchanged. -/
theorem run_net (m' : (ℓ : Loc Cert.ReferenceIdeal.nD Cert.ReferenceIdeal.τ Cert.ReferenceIdeal.sig) → Buf (Elt Ideal) ℓ) (ρ' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, ρ'⟩ fun r => ∀ c : Dev Cert.ReferenceIdeal.nD,
      r.2.mem ((c.tc : Thread Cert.ReferenceIdeal.nD Cert.ReferenceIdeal.τ).loc Cert.ReferenceIdeal.main_v211) = Cert.Net.net (m' ((c.tc : Thread Cert.ReferenceIdeal.nD Cert.ReferenceIdeal.τ).loc Cert.ReferenceIdeal.main_arg0))
          (m' ((c.tc : Thread Cert.ReferenceIdeal.nD Cert.ReferenceIdeal.τ).loc Cert.ReferenceIdeal.main_arg1))
          (m' ((c.tc : Thread Cert.ReferenceIdeal.nD Cert.ReferenceIdeal.τ).loc Cert.ReferenceIdeal.main_arg2))
          (m' ((c.tc : Thread Cert.ReferenceIdeal.nD Cert.ReferenceIdeal.τ).loc Cert.ReferenceIdeal.main_arg3))
          (m' ((c.tc : Thread Cert.ReferenceIdeal.nD Cert.ReferenceIdeal.τ).loc Cert.ReferenceIdeal.main_arg4))
          (m' ((c.tc : Thread Cert.ReferenceIdeal.nD Cert.ReferenceIdeal.τ).loc Cert.ReferenceIdeal.main_arg5))
          (m' ((c.tc : Thread Cert.ReferenceIdeal.nD Cert.ReferenceIdeal.τ).loc Cert.ReferenceIdeal.main_arg6))
          (m' ((c.tc : Thread Cert.ReferenceIdeal.nD Cert.ReferenceIdeal.τ).loc Cert.ReferenceIdeal.main_arg7))
          (m' ((c.tc : Thread Cert.ReferenceIdeal.nD Cert.ReferenceIdeal.τ).loc Cert.ReferenceIdeal.main_arg8))
      ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8) :=
  (θ_run _ _ _).mono (fun _ h c => ⟨(h c).1.trans ((Cert.ReferenceIdeal.Value.val4_main_v211 (launchContents m' c)).symm.trans
      (ref_net (launchContents m' c))), (h c).2⟩) (Cert.ReferenceIdeal.Value.run (F := Ideal) m' ρ')

end Cert.RefNet

end
-- ==== Proof.lean ====
/-
  A three-layer network whose every layer routes each row through one of four affine maps: the Pallas kernel, its reading
  on the extended reals, and the jnp reference.

  Every row i of the 131072 inputs carries a task word; a small table sends the task to a copy index per layer, and layer ℓ
  computes, for all four copies, `gate · (x · W c + b c)` and adds them up (the gate is 1 for the row's copy and 0 for the
  others); the first two layers are followed by tanh. The kernel evaluates this on blocks of 4096 rows, with the three routing
  vectors packed as the columns of one array and the weights narrowed to a shorter float format; the reference evaluates it
  on whole arrays. On the extended reals narrowing is the identity, the matrix unit's product into a zero accumulator and
  the host's dot product are the same sum, and the two programs apply the same operations in the same order, so their
  results are the same function of the arguments (`Cert.Net.net`), with no use of the finiteness precondition.

  The kernel's frame is proved against the pipeline library directly (the region's run: `Region.run_main`), once per instance;
  the reference's frame and value come from its run read back. The ideal pass rewrote nothing, so `preserves` is trivial.
-/
import proofs.«105043_j11570641896173_1_alg».proof.Defs
import proofs.«105043_j11570641896173_1_alg».proof.Proof.Gen.Kernel
import proofs.«105043_j11570641896173_1_alg».proof.Proof.Gen.KernelIdeal
import proofs.«105043_j11570641896173_1_alg».proof.Proof.Gen.ReferenceIdeal
import proofs.«105043_j11570641896173_1_alg».proof.Proof.Gen.Pre_finite_inputs
import proofs.«105043_j11570641896173_1_alg».proof.Proof.Gen.ReferenceIdeal.Run
import proofs.«105043_j11570641896173_1_alg».proof.Proof.KRegion
import proofs.«105043_j11570641896173_1_alg».proof.Proof.KIRegion
import proofs.«105043_j11570641896173_1_alg».proof.Proof.KINetRun
import proofs.«105043_j11570641896173_1_alg».proof.Proof.RefNet
import Idealize.ShloMosaic.Adequacy
import Idealize.ShloMosaic.Init

noncomputable section

namespace Cert.Proof

open Idealize.ShloMosaic Idealize.ShloMosaic.TcCoe Idealize.SL.Sem

/-- The kernel as printed runs to the end and leaves its arguments unchanged. -/
theorem frame_k : @Cert.frame_Kernel Cert.Kernel.Gen.facts Cert.Pre_finite_inputs.Gen.facts :=
  fun m ρ _ => Cert.Kernel.Region.frame (F := Bits) m ρ

/-- So does its reading on the extended reals. -/
theorem frame_ki : @Cert.frame_KernelIdeal Cert.KernelIdeal.Gen.facts Cert.Pre_finite_inputs.Gen.facts :=
  fun m ρ _ => Cert.KernelIdeal.Region.frame (F := Ideal) m ρ

/-- The reference is host operations only: its run read back, the result dropped. -/
theorem frame_ri : @Cert.frame_ReferenceIdeal Cert.ReferenceIdeal.Gen.facts Cert.Pre_finite_inputs.Gen.facts :=
  fun m ρ _ => (θ_run Cert.ReferenceIdeal.defs _ _).mono (fun _ h c => (h c).2) (Cert.ReferenceIdeal.Value.run (F := Ideal) m ρ)

/-- Both idealized programs end with the routed network of the arguments; the arguments agree. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨fun c => Cert.Net.net (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)),
    Cert.KernelIdeal.NetRun.run_net m ρ, ?_⟩
  refine (θ_run Cert.ReferenceIdeal.defs _ _).mono (fun r h c => ⟨(h c).1.trans ?_, (h c).2⟩) (Cert.RefNet.run_net m' ρ')
  obtain ⟨e0, e1, e2, e3, e4, e5, e6, e7, e8⟩ := hagree c
  rw [e0, e1, e2, e3, e4, e5, e6, e7, e8]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
